-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x4096 : Shape := ⟨3, ![2, 4096, 4096]⟩
abbrev S2x4096x64 : Shape := ⟨3, ![2, 4096, 64]⟩
abbrev S1536x4096 : Shape := ⟨2, ![1536, 4096]⟩
abbrev S6144x1536 : Shape := ⟨2, ![6144, 1536]⟩
abbrev S576x4096 : Shape := ⟨2, ![576, 4096]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S2x4096x64 : S_.BroadcastsInDim S2x4096x64 (![] : Fin 0 → Fin S2x4096x64.rank)
  reducesTo_S2x4096x64_S_d0_1_2 : S2x4096x64.ReducesTo [0, 1, 2] S_
  bcast_S_S1536x4096 : S_.BroadcastsInDim S1536x4096 (![] : Fin 0 → Fin S1536x4096.rank)
  reducesTo_S1536x4096_S_d0_1 : S1536x4096.ReducesTo [0, 1] S_
  bcast_S_S6144x1536 : S_.BroadcastsInDim S6144x1536 (![] : Fin 0 → Fin S6144x1536.rank)
  reducesTo_S6144x1536_S_d0_1 : S6144x1536.ReducesTo [0, 1] S_
  bcast_S_S576x4096 : S_.BroadcastsInDim S576x4096 (![] : Fin 0 → Fin S576x4096.rank)
  reducesTo_S576x4096_S_d0_1 : S576x4096.ReducesTo [0, 1] S_

variable [Facts]

def fn_part1 {F : FTy → Type} [FloatOps F] (main_arg4 : FVec F S6144x1536 .f32) (main_arg5 : FVec F S576x4096 .f32) (main_v13 : IVec S_ 1) (main_v16 : IVec S1536x4096 1) : IVec S_ 1 :=
  let main_c_5 : IVec S_ 1 := constantI S_ 1 1#1
  let main_v17 : IVec S_ 1 := (fun x v => Host.reduce IntOp.andi x v reducesTo_S1536x4096_S_d0_1 h_S_) main_v16 main_c_5
  let main_v18 : IVec S_ 1 := andi main_v13 main_v17
  let main_v19 : FVec F S6144x1536 .f32 := Host.absf main_arg4
  let main_cst_6 : FVec F S_ .f32 := constant S_ .f32 0x7F800000#32
  let main_v20 : FVec F S6144x1536 .f32 := broadcastInDim S6144x1536 ![] bcast_S_S6144x1536 main_cst_6
  let main_v21 : IVec S6144x1536 1 := cmpf .olt main_v19 main_v20
  let main_c_7 : IVec S_ 1 := constantI S_ 1 1#1
  let main_v22 : IVec S_ 1 := (fun x v => Host.reduce IntOp.andi x v reducesTo_S6144x1536_S_d0_1 h_S_) main_v21 main_c_7
  let main_v23 : IVec S_ 1 := andi main_v18 main_v22
  let main_v24 : FVec F S576x4096 .f32 := Host.absf main_arg5
  let main_cst_8 : FVec F S_ .f32 := constant S_ .f32 0x7F800000#32
  let main_v25 : FVec F S576x4096 .f32 := broadcastInDim S576x4096 ![] bcast_S_S576x4096 main_cst_8
  let main_v26 : IVec S576x4096 1 := cmpf .olt main_v24 main_v25
  let main_c_9 : IVec S_ 1 := constantI S_ 1 1#1
  let main_v27 : IVec S_ 1 := (fun x v => Host.reduce IntOp.andi x v reducesTo_S576x4096_S_d0_1 h_S_) main_v26 main_c_9
  let main_v28 : IVec S_ 1 := andi main_v23 main_v27
  main_v28

def fn {F : FTy → Type} [FloatOps F] (main_arg0 : FVec F S2x4096x4096 .f32) (main_arg1 : FVec F S2x4096x64 .f32) (main_arg2 : FVec F S2x4096x64 .f32) (main_arg3 : FVec F S1536x4096 .f32) (main_arg4 : FVec F S6144x1536 .f32) (main_arg5 : FVec F S576x4096 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S2x4096x64 .f32 := Host.absf main_arg1
  let main_cst_0 : FVec F S_ .f32 := constant S_ .f32 0x7F800000#32
  let main_v5 : FVec F S2x4096x64 .f32 := broadcastInDim S2x4096x64 ![] bcast_S_S2x4096x64 main_cst_0
  let main_v6 : IVec S2x4096x64 1 := cmpf .olt main_v4 main_v5
  let main_c_1 : IVec S_ 1 := constantI S_ 1 1#1
  let main_v7 : IVec S_ 1 := (fun x v => Host.reduce IntOp.andi x v reducesTo_S2x4096x64_S_d0_1_2 h_S_) main_v6 main_c_1
  let main_v8 : IVec S_ 1 := andi main_v3 main_v7
  let main_v9 : FVec F S2x4096x64 .f32 := Host.absf main_arg2
  let main_cst_2 : FVec F S_ .f32 := constant S_ .f32 0x7F800000#32
  let main_v10 : FVec F S2x4096x64 .f32 := broadcastInDim S2x4096x64 ![] bcast_S_S2x4096x64 main_cst_2
  let main_v11 : IVec S2x4096x64 1 := cmpf .olt main_v9 main_v10
  let main_c_3 : IVec S_ 1 := constantI S_ 1 1#1
  let main_v12 : IVec S_ 1 := (fun x v => Host.reduce IntOp.andi x v reducesTo_S2x4096x64_S_d0_1_2 h_S_) main_v11 main_c_3
  let main_v13 : IVec S_ 1 := andi main_v8 main_v12
  let main_v14 : FVec F S1536x4096 .f32 := Host.absf main_arg3
  let main_cst_4 : FVec F S_ .f32 := constant S_ .f32 0x7F800000#32
  let main_v15 : FVec F S1536x4096 .f32 := broadcastInDim S1536x4096 ![] bcast_S_S1536x4096 main_cst_4
  let main_v16 : IVec S1536x4096 1 := cmpf .olt main_v14 main_v15
  fn_part1 (F := F) main_arg4 main_arg5 main_v13 main_v16
-- ==== Kernel.lean ====
abbrev S2x4096x4096 : Shape := ⟨3, ![2, 4096, 4096]⟩
abbrev S2x4096x64 : Shape := ⟨3, ![2, 4096, 64]⟩
abbrev S1536x4096 : Shape := ⟨2, ![1536, 4096]⟩
abbrev S6144x1536 : Shape := ⟨2, ![6144, 1536]⟩
abbrev S576x4096 : Shape := ⟨2, ![576, 4096]⟩
abbrev S32x192x1536 : Shape := ⟨3, ![32, 192, 1536]⟩
abbrev S32x128x1536 : Shape := ⟨3, ![32, 128, 1536]⟩
abbrev S4096x1536 : Shape := ⟨2, ![4096, 1536]⟩
abbrev S32x64x1536 : Shape := ⟨3, ![32, 64, 1536]⟩
abbrev S2048x1536 : Shape := ⟨2, ![2048, 1536]⟩
abbrev S4096x576 : Shape := ⟨2, ![4096, 576]⟩
abbrev S1536x2048 : Shape := ⟨2, ![1536, 2048]⟩
abbrev S2x4096x128 : Shape := ⟨3, ![2, 4096, 128]⟩
abbrev S2x4096x1536 : Shape := ⟨3, ![2, 4096, 1536]⟩
abbrev S2x4096x512 : Shape := ⟨3, ![2, 4096, 512]⟩
abbrev S1x256x4096 : Shape := ⟨3, ![1, 256, 4096]⟩
abbrev S1x256x1536 : Shape := ⟨3, ![1, 256, 1536]⟩
abbrev S1x256x512 : Shape := ⟨3, ![1, 256, 512]⟩
abbrev S1x256x64 : Shape := ⟨3, ![1, 256, 64]⟩
abbrev S256x4096 : Shape := ⟨2, ![256, 4096]⟩
abbrev S256x1536 : Shape := ⟨2, ![256, 1536]⟩
abbrev S256x576 : Shape := ⟨2, ![256, 576]⟩
abbrev S256x512 : Shape := ⟨2, ![256, 512]⟩
abbrev S256x64 : Shape := ⟨2, ![256, 64]⟩
abbrev S2x4096x6720 : Shape := ⟨3, ![2, 4096, 6720]⟩
abbrev S1x128x1536 : Shape := ⟨3, ![1, 128, 1536]⟩
abbrev S1x128x512 : Shape := ⟨3, ![1, 128, 512]⟩
abbrev S1x128x64 : Shape := ⟨3, ![1, 128, 64]⟩
abbrev S1x128x128 : Shape := ⟨3, ![1, 128, 128]⟩
abbrev S1x128x6720 : Shape := ⟨3, ![1, 128, 6720]⟩
abbrev S128x1536 : Shape := ⟨2, ![128, 1536]⟩
abbrev S128x4096 : Shape := ⟨2, ![128, 4096]⟩
abbrev S128x2048 : Shape := ⟨2, ![128, 2048]⟩
abbrev S128x32x128 : Shape := ⟨3, ![128, 32, 128]⟩
abbrev S128x32x64 : Shape := ⟨3, ![128, 32, 64]⟩
abbrev S128x128 : Shape := ⟨2, ![128, 128]⟩
abbrev S128x64 : Shape := ⟨2, ![128, 64]⟩
abbrev S128x1x64 : Shape := ⟨3, ![128, 1, 64]⟩
abbrev S128x32x32 : Shape := ⟨3, ![128, 32, 32]⟩
abbrev S128x32 : Shape := ⟨2, ![128, 32]⟩
abbrev S128x512 : Shape := ⟨2, ![128, 512]⟩
abbrev S128x32x192 : Shape := ⟨3, ![128, 32, 192]⟩
abbrev S128x6144 : Shape := ⟨2, ![128, 6144]⟩
abbrev S128x6720 : Shape := ⟨2, ![128, 6720]⟩

abbrev nBuf : Space → Nat
  | .hbm => 24
  | .vmem => 22
  | .smem => 0
  | _ => 0

abbrev bufTy : (tb : Table) → Fin (tcTables nBuf tb) → BufTy
  | .hbm, ⟨0, _⟩ => ⟨S2x4096x4096, .f32⟩
  | .hbm, ⟨1, _⟩ => ⟨S2x4096x64, .f32⟩
  | .hbm, ⟨2, _⟩ => ⟨S2x4096x64, .f32⟩
  | .hbm, ⟨3, _⟩ => ⟨S1536x4096, .f32⟩
  | .hbm, ⟨4, _⟩ => ⟨S6144x1536, .f32⟩
  | .hbm, ⟨5, _⟩ => ⟨S576x4096, .f32⟩
  | .hbm, ⟨6, _⟩ => ⟨S32x192x1536, .f32⟩
  | .hbm, ⟨7, _⟩ => ⟨S32x128x1536, .f32⟩
  | .hbm, ⟨8, _⟩ => ⟨S4096x1536, .f32⟩
  | .hbm, ⟨9, _⟩ => ⟨S32x64x1536, .f32⟩
  | .hbm, ⟨10, _⟩ => ⟨S2048x1536, .f32⟩
  | .hbm, ⟨11, _⟩ => ⟨S4096x1536, .f32⟩
  | .hbm, ⟨12, _⟩ => ⟨S4096x1536, .bf16⟩
  | .hbm, ⟨13, _⟩ => ⟨S4096x576, .f32⟩
  | .hbm, ⟨14, _⟩ => ⟨S4096x576, .bf16⟩
  | .hbm, ⟨15, _⟩ => ⟨S1536x4096, .f32⟩
  | .hbm, ⟨16, _⟩ => ⟨S1536x4096, .bf16⟩
  | .hbm, ⟨17, _⟩ => ⟨S1536x2048, .f32⟩
  | .hbm, ⟨18, _⟩ => ⟨S1536x2048, .bf16⟩
  | .hbm, ⟨19, _⟩ => ⟨S2x4096x128, .f32⟩
  | .hbm, ⟨20, _⟩ => ⟨S2x4096x1536, .bf16⟩
  | .hbm, ⟨21, _⟩ => ⟨S2x4096x512, .f32⟩
  | .hbm, ⟨22, _⟩ => ⟨S2x4096x64, .f32⟩
  | .hbm, ⟨23, _⟩ => ⟨S2x4096x6720, .f32⟩
  | .local _ .vmem, ⟨0, _⟩ => ⟨S1x256x4096, .f32⟩
  | .local _ .vmem, ⟨1, _⟩ => ⟨S1x256x4096, .f32⟩
  | .local _ .vmem, ⟨2, _⟩ => ⟨S4096x1536, .bf16⟩
  | .local _ .vmem, ⟨3, _⟩ => ⟨S4096x576, .bf16⟩
  | .local _ .vmem, ⟨4, _⟩ => ⟨S1x256x1536, .bf16⟩
  | .local _ .vmem, ⟨5, _⟩ => ⟨S1x256x1536, .bf16⟩
  | .local _ .vmem, ⟨6, _⟩ => ⟨S1x256x512, .f32⟩
  | .local _ .vmem, ⟨7, _⟩ => ⟨S1x256x512, .f32⟩
  | .local _ .vmem, ⟨8, _⟩ => ⟨S1x256x64, .f32⟩
  | .local _ .vmem, ⟨9, _⟩ => ⟨S1x256x64, .f32⟩
  | .local _ .vmem, ⟨10, _⟩ => ⟨S1x128x1536, .bf16⟩
  | .local _ .vmem, ⟨11, _⟩ => ⟨S1x128x1536, .bf16⟩
  | .local _ .vmem, ⟨12, _⟩ => ⟨S1x128x512, .f32⟩
  | .local _ .vmem, ⟨13, _⟩ => ⟨S1x128x512, .f32⟩
  | .local _ .vmem, ⟨14, _⟩ => ⟨S1x128x64, .f32⟩
  | .local _ .vmem, ⟨15, _⟩ => ⟨S1x128x64, .f32⟩
  | .local _ .vmem, ⟨16, _⟩ => ⟨S1x128x128, .f32⟩
  | .local _ .vmem, ⟨17, _⟩ => ⟨S1x128x128, .f32⟩
  | .local _ .vmem, ⟨18, _⟩ => ⟨S1536x4096, .bf16⟩
  | .local _ .vmem, ⟨19, _⟩ => ⟨S1536x2048, .bf16⟩
  | .local _ .vmem, ⟨20, _⟩ => ⟨S1x128x6720, .f32⟩
  | .local _ .vmem, ⟨21, _⟩ => ⟨S1x128x6720, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x576 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![2, 32], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x128x1536 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x128x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 1 → Memref sig .tc .vmem S1536x4096 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1536x2048 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1x128x6720 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  shapeCasts_S6144x1536_S32x192x1536 : S6144x1536.ShapeCasts S32x192x1536
  slices_S32x192x1536_S32x128x1536_0_0_0 : S32x192x1536.Slices ![0, 0, 0] S32x128x1536
  shapeCasts_S32x128x1536_S4096x1536 : S32x128x1536.ShapeCasts S4096x1536
  slices_S32x192x1536_S32x64x1536_0_128_0 : S32x192x1536.Slices ![0, 128, 0] S32x64x1536
  shapeCasts_S32x64x1536_S2048x1536 : S32x64x1536.ShapeCasts S2048x1536
  transposes_S1536x4096_S4096x1536_1_0 : S1536x4096.Transposes [1, 0] S4096x1536
  bitsLt_bf16_f32 : FTy.bits .bf16 < FTy.bits .f32
  transposes_S576x4096_S4096x576_1_0 : S576x4096.Transposes [1, 0] S4096x576
  transposes_S4096x1536_S1536x4096_1_0 : S4096x1536.Transposes [1, 0] S1536x4096
  transposes_S2048x1536_S1536x2048_1_0 : S2048x1536.Transposes [1, 0] S1536x2048
  concatenates_S2x4096x64_S2x4096x64_S2x4096x128_d2 : Shape.Concatenates [S2x4096x64, S2x4096x64] S2x4096x128 2
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  inb_S4096x1536_S4096x1536_0_0 : ∀ a, (![0, 0] : Fin 2 → Nat) a + S4096x1536.size a ≤ S4096x1536.size a
  h_S4096x1536 : 0 < S4096x1536.numel
  shapeCasts_S4096x1536_S4096x1536 : S4096x1536.ShapeCasts S4096x1536
  inb_S4096x576_S4096x576_0_0 : ∀ a, (![0, 0] : Fin 2 → Nat) a + S4096x576.size a ≤ S4096x576.size a
  h_S4096x576 : 0 < S4096x576.numel
  shapeCasts_S4096x576_S4096x576 : S4096x576.ShapeCasts S4096x576
  inb_S1x256x1536_S1x256x1536_0_0_0 : ∀ a, (![0, 0, 0] : Fin 3 → Nat) a + S1x256x1536.size a ≤ S1x256x1536.size a
  h_S1x256x1536 : 0 < S1x256x1536.numel
  shapeCasts_S1x256x1536_S256x1536 : S1x256x1536.ShapeCasts S256x1536
  shapeCasts_S256x1536_S1x256x1536 : S256x1536.ShapeCasts S1x256x1536
  packedbf16_S1x256x1536_S1x256x1536_0_0_0 : (Rect.unit (s := S1x256x1536) ![0, 0, 0] S1x256x1536.size inb_S1x256x1536_S1x256x1536_0_0_0).PackedRows (EltTy.packing .bf16)
  slices_S256x576_o0_0_S256x512 : S256x576.Slices ![0, 0] S256x512
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  shapeCasts_S256x512_S1x256x512 : S256x512.ShapeCasts S1x256x512
  slices_S256x576_o0_512_S256x64 : S256x576.Slices ![0, 512] S256x64
  inb_S1x256x64_S1x256x64_0_0_0 : ∀ a, (![0, 0, 0] : Fin 3 → Nat) a + S1x256x64.size a ≤ S1x256x64.size a
  h_S1x256x64 : 0 < S1x256x64.numel
  shapeCasts_S1x256x64_S256x64 : S1x256x64.ShapeCasts S256x64
  shapeCasts_S256x64_S1x256x64 : S256x64.ShapeCasts S1x256x64
  inb_S1x128x1536_S1x128x1536_0_0_0 : ∀ a, (![0, 0, 0] : Fin 3 → Nat) a + S1x128x1536.size a ≤ S1x128x1536.size a
  h_S1x128x1536 : 0 < S1x128x1536.numel
  shapeCasts_S1x128x1536_S128x1536 : S1x128x1536.ShapeCasts S128x1536
  inb_S1536x4096_S1536x4096_0_0 : ∀ a, (![0, 0] : Fin 2 → Nat) a + S1536x4096.size a ≤ S1536x4096.size a
  h_S1536x4096 : 0 < S1536x4096.numel
  shapeCasts_S1536x4096_S1536x4096 : S1536x4096.ShapeCasts S1536x4096
  inb_S1536x2048_S1536x2048_0_0 : ∀ a, (![0, 0] : Fin 2 → Nat) a + S1536x2048.size a ≤ S1536x2048.size a
  h_S1536x2048 : 0 < S1536x2048.numel
  shapeCasts_S1536x2048_S1536x2048 : S1536x2048.ShapeCasts S1536x2048
  shapeCasts_S128x4096_S128x32x128 : S128x4096.ShapeCasts S128x32x128
  shapeCasts_S128x2048_S128x32x64 : S128x2048.ShapeCasts S128x32x64
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  slices_S128x128_o0_0_S128x64 : S128x128.Slices ![0, 0] S128x64
  slices_S128x128_o0_64_S128x64 : S128x128.Slices ![0, 64] S128x64
  shapeCasts_S128x64_S128x1x64 : S128x64.ShapeCasts S128x1x64
  broadcasts_S128x1x64_S128x32x64 : S128x1x64.Broadcasts S128x32x64
  slices_S128x32x64_o0_0_32_S128x32x32 : S128x32x64.Slices ![0, 0, 32] S128x32x32
  slices_S128x32x64_o0_0_0_S128x32x32 : S128x32x64.Slices ![0, 0, 0] S128x32x32
  concatenates_S128x32x32_S128x32x32_S128x32x64_d2 : Shape.Concatenates [S128x32x32, S128x32x32] S128x32x64 2
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  slices_S128x64_o0_32_S128x32 : S128x64.Slices ![0, 32] S128x32
  slices_S128x64_o0_0_S128x32 : S128x64.Slices ![0, 0] S128x32
  concatenates_S128x32_S128x32_S128x64_d1 : Shape.Concatenates [S128x32, S128x32] S128x64 1
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  concatenates_S128x32x128_S128x32x64_S128x32x192_d2 : Shape.Concatenates [S128x32x128, S128x32x64] S128x32x192 2
  shapeCasts_S128x32x192_S128x6144 : S128x32x192.ShapeCasts S128x6144
  concatenates_S128x6144_S128x64_S128x512_S128x6720_d1 : Shape.Concatenates [S128x6144, S128x64, S128x512] S128x6720 1
  inb_S1x128x6720_S1x128x6720_0_0_0 : ∀ a, (![0, 0, 0] : Fin 3 → Nat) a + S1x128x6720.size a ≤ S1x128x6720.size a
  h_S1x128x6720 : 0 < S1x128x6720.numel
  shapeCasts_S1x128x6720_S128x6720 : S1x128x6720.ShapeCasts S128x6720
  shapeCasts_S128x6720_S1x128x6720 : S128x6720.ShapeCasts S1x128x6720
  dot_S256x4096_S4096x1536_S256x1536_1_0_0_1_n_n_wf : DotDims.WF S256x4096 S4096x1536 S256x1536 [1] [0] [0] [1] [] []
  dot_S256x4096_S4096x576_S256x576_1_0_0_1_n_n_wf : DotDims.WF S256x4096 S4096x576 S256x576 [1] [0] [0] [1] [] []
  dot_S128x1536_S1536x4096_S128x4096_1_0_0_1_n_n_wf : DotDims.WF S128x1536 S1536x4096 S128x4096 [1] [0] [0] [1] [] []
  dot_S128x1536_S1536x2048_S128x2048_1_0_0_1_n_n_wf : DotDims.WF S128x1536 S1536x2048 S128x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S2x4096x4096.size a
  hwx0_0 : ∀ i : grid0.Coords, EltTy.bits .f32 = 32 ∨ (Rect.block (s := S2x4096x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1536.size a ≤ S4096x1536.size a
  hwx0_1 : ∀ i : grid0.Coords, EltTy.bits .bf16 = 32 ∨ (Rect.block (s := S4096x1536) S4096x1536.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x576.size a ≤ S4096x576.size a
  hwx0_2 : ∀ i : grid0.Coords, EltTy.bits .bf16 = 32 ∨ (Rect.block (s := S4096x576) S4096x576.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x1536.size a ≤ S2x4096x1536.size a
  hwx0_3 : ∀ i : grid0.Coords, EltTy.bits .bf16 = 32 ∨ (Rect.block (s := S2x4096x1536) S1x256x1536.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x512.size a ≤ S2x4096x512.size a
  hwx0_4 : ∀ i : grid0.Coords, EltTy.bits .f32 = 32 ∨ (Rect.block (s := S2x4096x512) S1x256x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x64.size a ≤ S2x4096x64.size a
  hwx0_5 : ∀ i : grid0.Coords, EltTy.bits .f32 = 32 ∨ (Rect.block (s := S2x4096x64) S1x256x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x1536.size a ≤ S2x4096x1536.size a
  hwx1_0 : ∀ i : grid1.Coords, EltTy.bits .bf16 = 32 ∨ (Rect.block (s := S2x4096x1536) S1x128x1536.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x512.size a ≤ S2x4096x512.size a
  hwx1_1 : ∀ i : grid1.Coords, EltTy.bits .f32 = 32 ∨ (Rect.block (s := S2x4096x512) S1x128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x64.size a ≤ S2x4096x64.size a
  hwx1_2 : ∀ i : grid1.Coords, EltTy.bits .f32 = 32 ∨ (Rect.block (s := S2x4096x64) S1x128x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128.size a ≤ S2x4096x128.size a
  hwx1_3 : ∀ i : grid1.Coords, EltTy.bits .f32 = 32 ∨ (Rect.block (s := S2x4096x128) S1x128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1536x4096.size a ≤ S1536x4096.size a
  hwx1_4 : ∀ i : grid1.Coords, EltTy.bits .bf16 = 32 ∨ (Rect.block (s := S1536x4096) S1536x4096.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1536x2048.size a ≤ S1536x2048.size a
  hwx1_5 : ∀ i : grid1.Coords, EltTy.bits .bf16 = 32 ∨ (Rect.block (s := S1536x2048) S1536x2048.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1x128x6720.size a ≤ S2x4096x6720.size a
  hwx1_6 : ∀ i : grid1.Coords, EltTy.bits .f32 = 32 ∨ (Rect.block (s := S2x4096x6720) S1x128x6720.size (cc1_transform_6 i) (hinb1_6 i)).WholeWords (EltTy.packing .f32)

variable [Facts₀]

def dot_S256x4096_S4096x1536_S256x1536_1_0_0_1_n_n : DotDims S256x4096 S4096x1536 S256x1536 where
  lhsContracting := [1]
  rhsContracting := [0]
  lhsNonContracting := [0]
  rhsNonContracting := [1]
  lhsBatch := []
  rhsBatch := []
  wf := dot_S256x4096_S4096x1536_S256x1536_1_0_0_1_n_n_wf
def dot_S256x4096_S4096x576_S256x576_1_0_0_1_n_n : DotDims S256x4096 S4096x576 S256x576 where
  lhsContracting := [1]
  rhsContracting := [0]
  lhsNonContracting := [0]
  rhsNonContracting := [1]
  lhsBatch := []
  rhsBatch := []
  wf := dot_S256x4096_S4096x576_S256x576_1_0_0_1_n_n_wf
def dot_S128x1536_S1536x4096_S128x4096_1_0_0_1_n_n : DotDims S128x1536 S1536x4096 S128x4096 where
  lhsContracting := [1]
  rhsContracting := [0]
  lhsNonContracting := [0]
  rhsNonContracting := [1]
  lhsBatch := []
  rhsBatch := []
  wf := dot_S128x1536_S1536x4096_S128x4096_1_0_0_1_n_n_wf
def dot_S128x1536_S1536x2048_S128x2048_1_0_0_1_n_n : DotDims S128x1536 S1536x2048 S128x2048 where
  lhsContracting := [1]
  rhsContracting := [0]
  lhsNonContracting := [0]
  rhsNonContracting := [1]
  lhsBatch := []
  rhsBatch := []
  wf := dot_S128x1536_S1536x2048_S128x2048_1_0_0_1_n_n_wf

abbrev win0_0 : Pipeline.Window sig grid0 :=
  Pipeline.Window.ofSpec (Memref.whole main_arg0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x1536.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4096x576.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14_0) S1x256x1536.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v14_1) S1x256x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v14_2) S1x256x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14_0) S1x128x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14_1) S1x128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14_2) S1x128x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v13) S1x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v10) S1536x4096.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12) S1536x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128x6720.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x4096x4096 : Shape := ⟨3, ![2, 4096, 4096]⟩
abbrev S2x4096x64 : Shape := ⟨3, ![2, 4096, 64]⟩
abbrev S1536x4096 : Shape := ⟨2, ![1536, 4096]⟩
abbrev S6144x1536 : Shape := ⟨2, ![6144, 1536]⟩
abbrev S576x4096 : Shape := ⟨2, ![576, 4096]⟩
abbrev S2x4096x1536 : Shape := ⟨3, ![2, 4096, 1536]⟩
abbrev S2x4096x6144 : Shape := ⟨3, ![2, 4096, 6144]⟩
abbrev S2x4096x32x192 : Shape := ⟨4, ![2, 4096, 32, 192]⟩
abbrev S2x4096x32x128 : Shape := ⟨4, ![2, 4096, 32, 128]⟩
abbrev S2x4096x32x64 : Shape := ⟨4, ![2, 4096, 32, 64]⟩
abbrev S2x4096x576 : Shape := ⟨3, ![2, 4096, 576]⟩
abbrev S2x4096x512 : Shape := ⟨3, ![2, 4096, 512]⟩
abbrev S2x4096x1x64 : Shape := ⟨4, ![2, 4096, 1, 64]⟩
abbrev S2x4096x32x32 : Shape := ⟨4, ![2, 4096, 32, 32]⟩
abbrev S2x4096x1x32 : Shape := ⟨4, ![2, 4096, 1, 32]⟩
abbrev S2x4096x6720 : Shape := ⟨3, ![2, 4096, 6720]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S2x4096x64, .f32⟩
  | .hbm, ⟨2, _⟩ => ⟨S2x4096x64, .f32⟩
  | .hbm, ⟨3, _⟩ => ⟨S1536x4096, .f32⟩
  | .hbm, ⟨4, _⟩ => ⟨S6144x1536, .f32⟩
  | .hbm, ⟨5, _⟩ => ⟨S576x4096, .f32⟩
  | .hbm, ⟨6, _⟩ => ⟨S2x4096x1536, .f32⟩
  | .hbm, ⟨7, _⟩ => ⟨S2x4096x6144, .f32⟩
  | .hbm, ⟨8, _⟩ => ⟨S2x4096x32x192, .f32⟩
  | .hbm, ⟨9, _⟩ => ⟨S2x4096x32x128, .f32⟩
  | .hbm, ⟨10, _⟩ => ⟨S2x4096x32x64, .f32⟩
  | .hbm, ⟨11, _⟩ => ⟨S2x4096x576, .f32⟩
  | .hbm, ⟨12, _⟩ => ⟨S2x4096x512, .f32⟩
  | .hbm, ⟨13, _⟩ => ⟨S2x4096x64, .f32⟩
  | .hbm, ⟨14, _⟩ => ⟨S2x4096x1x64, .f32⟩
  | .hbm, ⟨15, _⟩ => ⟨S2x4096x1x64, .f32⟩
  | .hbm, ⟨16, _⟩ => ⟨S2x4096x1x64, .f32⟩
  | .hbm, ⟨17, _⟩ => ⟨S2x4096x32x64, .f32⟩
  | .hbm, ⟨18, _⟩ => ⟨S2x4096x32x64, .f32⟩
  | .hbm, ⟨19, _⟩ => ⟨S2x4096x32x32, .f32⟩
  | .hbm, ⟨20, _⟩ => ⟨S2x4096x32x32, .f32⟩
  | .hbm, ⟨21, _⟩ => ⟨S2x4096x32x32, .f32⟩
  | .hbm, ⟨22, _⟩ => ⟨S2x4096x32x64, .f32⟩
  | .hbm, ⟨23, _⟩ => ⟨S2x4096x32x64, .f32⟩
  | .hbm, ⟨24, _⟩ => ⟨S2x4096x32x64, .f32⟩
  | .hbm, ⟨25, _⟩ => ⟨S2x4096x32x64, .f32⟩
  | .hbm, ⟨26, _⟩ => ⟨S2x4096x1x64, .f32⟩
  | .hbm, ⟨27, _⟩ => ⟨S2x4096x1x32, .f32⟩
  | .hbm, ⟨28, _⟩ => ⟨S2x4096x1x32, .f32⟩
  | .hbm, ⟨29, _⟩ => ⟨S2x4096x1x32, .f32⟩
  | .hbm, ⟨30, _⟩ => ⟨S2x4096x1x64, .f32⟩
  | .hbm, ⟨31, _⟩ => ⟨S2x4096x1x64, .f32⟩
  | .hbm, ⟨32, _⟩ => ⟨S2x4096x1x64, .f32⟩
  | .hbm, ⟨33, _⟩ => ⟨S2x4096x32x192, .f32⟩
  | .hbm, ⟨34, _⟩ => ⟨S2x4096x6144, .f32⟩
  | .hbm, ⟨35, _⟩ => ⟨S2x4096x64, .f32⟩
  | .hbm, ⟨36, _⟩ => ⟨S2x4096x6720, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩

abbrev nD : Nat := 1
abbrev τ : Topo := Topo.v7x

variable {F : FTy → Type} [FloatOps F]

class Facts₀ : Prop where
  shapeCasts_S2x4096x6144_S2x4096x32x192 : S2x4096x6144.ShapeCasts S2x4096x32x192
  slices_S2x4096x32x192_S2x4096x32x128_0_0_0_0 : S2x4096x32x192.Slices ![0, 0, 0, 0] S2x4096x32x128
  slices_S2x4096x32x192_S2x4096x32x64_0_0_0_128 : S2x4096x32x192.Slices ![0, 0, 0, 128] S2x4096x32x64
  slices_S2x4096x576_S2x4096x512_0_0_0 : S2x4096x576.Slices ![0, 0, 0] S2x4096x512
  slices_S2x4096x576_S2x4096x64_0_0_512 : S2x4096x576.Slices ![0, 0, 512] S2x4096x64
  shapeCasts_S2x4096x64_S2x4096x1x64 : S2x4096x64.ShapeCasts S2x4096x1x64
  bcast_S2x4096x64_S2x4096x1x64_0_1_3 : S2x4096x64.BroadcastsInDim S2x4096x1x64 (![0, 1, 3] : Fin 3 → Fin S2x4096x1x64.rank)
  bcast_S2x4096x1x64_S2x4096x32x64_0_1_2_3 : S2x4096x1x64.BroadcastsInDim S2x4096x32x64 (![0, 1, 2, 3] : Fin 4 → Fin S2x4096x32x64.rank)
  slices_S2x4096x32x64_S2x4096x32x32_0_0_0_32 : S2x4096x32x64.Slices ![0, 0, 0, 32] S2x4096x32x32
  slices_S2x4096x32x64_S2x4096x32x32_0_0_0_0 : S2x4096x32x64.Slices ![0, 0, 0, 0] S2x4096x32x32
  concatenates_S2x4096x32x32_S2x4096x32x32_S2x4096x32x64_d3 : Shape.Concatenates [S2x4096x32x32, S2x4096x32x32] S2x4096x32x64 3
  slices_S2x4096x1x64_S2x4096x1x32_0_0_0_32 : S2x4096x1x64.Slices ![0, 0, 0, 32] S2x4096x1x32
  slices_S2x4096x1x64_S2x4096x1x32_0_0_0_0 : S2x4096x1x64.Slices ![0, 0, 0, 0] S2x4096x1x32
  concatenates_S2x4096x1x32_S2x4096x1x32_S2x4096x1x64_d3 : Shape.Concatenates [S2x4096x1x32, S2x4096x1x32] S2x4096x1x64 3
  concatenates_S2x4096x32x128_S2x4096x32x64_S2x4096x32x192_d3 : Shape.Concatenates [S2x4096x32x128, S2x4096x32x64] S2x4096x32x192 3
  shapeCasts_S2x4096x32x192_S2x4096x6144 : S2x4096x32x192.ShapeCasts S2x4096x6144
  shapeCasts_S2x4096x1x64_S2x4096x64 : S2x4096x1x64.ShapeCasts S2x4096x64
  concatenates_S2x4096x6144_S2x4096x64_S2x4096x512_S2x4096x6720_d2 : Shape.Concatenates [S2x4096x6144, S2x4096x64, S2x4096x512] S2x4096x6720 2
  dot_S2x4096x4096_S1536x4096_S2x4096x1536_2_1_01_0_n_n_wf : DotDims.WF S2x4096x4096 S1536x4096 S2x4096x1536 [2] [1] [0, 1] [0] [] []
  dot_S2x4096x1536_S6144x1536_S2x4096x6144_2_1_01_0_n_n_wf : DotDims.WF S2x4096x1536 S6144x1536 S2x4096x6144 [2] [1] [0, 1] [0] [] []
  dot_S2x4096x4096_S576x4096_S2x4096x576_2_1_01_0_n_n_wf : DotDims.WF S2x4096x4096 S576x4096 S2x4096x576 [2] [1] [0, 1] [0] [] []

variable [Facts₀]

def dot_S2x4096x4096_S1536x4096_S2x4096x1536_2_1_01_0_n_n : DotDims S2x4096x4096 S1536x4096 S2x4096x1536 where
  lhsContracting := [2]
  rhsContracting := [1]
  lhsNonContracting := [0, 1]
  rhsNonContracting := [0]
  lhsBatch := []
  rhsBatch := []
  wf := dot_S2x4096x4096_S1536x4096_S2x4096x1536_2_1_01_0_n_n_wf
def dot_S2x4096x1536_S6144x1536_S2x4096x6144_2_1_01_0_n_n : DotDims S2x4096x1536 S6144x1536 S2x4096x6144 where
  lhsContracting := [2]
  rhsContracting := [1]
  lhsNonContracting := [0, 1]
  rhsNonContracting := [0]
  lhsBatch := []
  rhsBatch := []
  wf := dot_S2x4096x1536_S6144x1536_S2x4096x6144_2_1_01_0_n_n_wf
def dot_S2x4096x4096_S576x4096_S2x4096x576_2_1_01_0_n_n : DotDims S2x4096x4096 S576x4096 S2x4096x576 where
  lhsContracting := [2]
  rhsContracting := [1]
  lhsNonContracting := [0, 1]
  rhsNonContracting := [0]
  lhsBatch := []
  rhsBatch := []
  wf := dot_S2x4096x4096_S576x4096_S2x4096x576_2_1_01_0_n_n_wf

class Facts : Prop extends Facts₀ where

variable [Facts]
-- ==== Proof.HostReads.lean ====
/-
  The operands the host lays out for the two kernel regions, read at an index.

  Before the first region @main re-lays the weights and packs cos and sin:
    Wqa [1536,4096] and Wkva [576,4096] are transposed to [in, out];
    Wqb [6144,1536] is viewed as 32 heads × 192 coordinates, its first 128 coordinates per head (the plain part) and its last
    64 (the rotary part) are taken apart, each made head-contiguous ([4096,1536] and [2048,1536]) and transposed to [in, out];
    cos and sin [2,4096,64] are laid side by side along the last axis.
  Narrowing to bf16 is the identity on the extended reals. Each lemma says which entry of the ARGUMENT an entry of the re-laid
  operand is: row-major arithmetic on the head index (entry hd·128 + j of the plain part is row hd·192 + j of Wqb, entry
  hd·64 + d of the rotary part is row hd·192 + 128 + d).
-/
import proofs.«101971_j72584947302731_2_alg».proof.Proof.Gen.KernelIdeal.Frame
import Idealize.ShloMosaic.Lib.Pipeline.Value
import Idealize.ShloMosaic.Lib.ValueIdx
import Idealize.ShloMosaic.Lib.StableHlo.Run

noncomputable section

namespace Cert.KernelIdeal.HostReads

open Idealize.ShloMosaic Idealize.ShloMosaic.TcCoe Idealize.SL.Sem Idealize.ShloMosaic.ValueIdx Idealize.ShloMosaic.StableHlo
open Cert.KernelIdeal Cert.KernelIdeal.Gen

/-! ## The five operands as functions of the arguments -/

/-- Wqa transposed. -/
def wqat (w3 : S1536x4096.Idx → EReal) : S4096x1536.Idx → EReal :=
  transpose S4096x1536 [1, 0] w3 transposes_S1536x4096_S4096x1536_1_0

/-- Wkva transposed. -/
def wkvat (w5 : S576x4096.Idx → EReal) : S4096x576.Idx → EReal :=
  transpose S4096x576 [1, 0] w5 transposes_S576x4096_S4096x576_1_0

/-- The plain part of Wqb, head-contiguous and transposed. -/
def wn (w4 : S6144x1536.Idx → EReal) : S1536x4096.Idx → EReal :=
  transpose S1536x4096 [1, 0]
    (shapeCast S4096x1536
      (extractStridedSlice S32x128x1536 ![0, 0, 0] (shapeCast S32x192x1536 w4 shapeCasts_S6144x1536_S32x192x1536)
        slices_S32x192x1536_S32x128x1536_0_0_0)
      shapeCasts_S32x128x1536_S4096x1536)
    transposes_S4096x1536_S1536x4096_1_0

/-- The rotary part of Wqb, head-contiguous and transposed. -/
def wr (w4 : S6144x1536.Idx → EReal) : S1536x2048.Idx → EReal :=
  transpose S1536x2048 [1, 0]
    (shapeCast S2048x1536
      (extractStridedSlice S32x64x1536 ![0, 128, 0] (shapeCast S32x192x1536 w4 shapeCasts_S6144x1536_S32x192x1536)
        slices_S32x192x1536_S32x64x1536_0_128_0)
      shapeCasts_S32x64x1536_S2048x1536)
    transposes_S2048x1536_S1536x2048_1_0

/-- cos and sin side by side. -/
def cs (c1 c2 : S2x4096x64.Idx → EReal) : S2x4096x128.Idx → EReal :=
  concatenate S2x4096x128 2 [⟨S2x4096x64, c1⟩, ⟨S2x4096x64, c2⟩] concatenates_S2x4096x64_S2x4096x64_S2x4096x128_d2

/-! ## Read at an index -/

theorem wqat_apply (w3 : S1536x4096.Idx → EReal) (h : Fin 4096) (r : Fin 1536) : wqat w3 (ix2 h r) = w3 (ix2 r h) := by
  unfold wqat
  exact transpose_apply _ _ _ _ (ix2 r h) (fun b => match b with | ⟨0, _⟩ => rfl | ⟨1, _⟩ => rfl)

theorem wkvat_apply (w5 : S576x4096.Idx → EReal) (h : Fin 4096) (o : Fin 576) : wkvat w5 (ix2 h o) = w5 (ix2 o h) := by
  unfold wkvat
  exact transpose_apply _ _ _ _ (ix2 o h) (fun b => match b with | ⟨0, _⟩ => rfl | ⟨1, _⟩ => rfl)

theorem wn_apply (w4 : S6144x1536.Idx → EReal) (r : Fin 1536) (hd : Fin 32) (j : Fin 128) :
    wn w4 (ix2 r ⟨hd.val * 128 + j.val, by omega⟩) = w4 (ix2 ⟨hd.val * 192 + j.val, by omega⟩ r) := by
  unfold wn
  -- the transpose: [1536,4096] at (r, n) reads [4096,1536] at (n, r)
  refine (transpose_apply _ _ _ _ (ix2 (⟨hd.val * 128 + j.val, by omega⟩ : Fin 4096) r)
    (fun b => match b with | ⟨0, _⟩ => rfl | ⟨1, _⟩ => rfl)).trans ?_
  -- the head-contiguous view: [4096,1536] at (hd·128 + j, r) reads [32,128,1536] at (hd, j, r)
  refine (shapeCast_apply _ _ _ (ix3 hd j r)
    (by rw [Shape.rowMajor_val_three, Shape.rowMajor_val_two]
        show (hd.val * 128 + j.val) * 1536 + r.val = (hd.val * 128 + j.val) * 1536 + r.val
        rfl)).trans ?_
  -- the slice of the first 128 coordinates of each head
  refine (extractStridedSlice_apply _ _ _ _ (ix3 hd (⟨j.val, by omega⟩ : Fin 192) r)
    (fun a => match a with
      | ⟨0, _⟩ => by show hd.val = 0 + hd.val; omega
      | ⟨1, _⟩ => by show j.val = 0 + j.val; omega
      | ⟨2, _⟩ => by show r.val = 0 + r.val; omega)).trans ?_
  -- the heads view of Wqb: [32,192,1536] at (hd, j, r) reads [6144,1536] at (hd·192 + j, r)
  exact shapeCast_apply _ _ _ (ix2 (⟨hd.val * 192 + j.val, by omega⟩ : Fin 6144) r)
    (by rw [Shape.rowMajor_val_two, Shape.rowMajor_val_three]
        show (hd.val * 192 + j.val) * 1536 + r.val = (hd.val * 192 + j.val) * 1536 + r.val
        rfl)

theorem wr_apply (w4 : S6144x1536.Idx → EReal) (r : Fin 1536) (hd : Fin 32) (d : Fin 64) :
    wr w4 (ix2 r ⟨hd.val * 64 + d.val, by omega⟩) = w4 (ix2 ⟨hd.val * 192 + 128 + d.val, by omega⟩ r) := by
  unfold wr
  refine (transpose_apply _ _ _ _ (ix2 (⟨hd.val * 64 + d.val, by omega⟩ : Fin 2048) r)
    (fun b => match b with | ⟨0, _⟩ => rfl | ⟨1, _⟩ => rfl)).trans ?_
  refine (shapeCast_apply _ _ _ (ix3 hd d r)
    (by rw [Shape.rowMajor_val_three, Shape.rowMajor_val_two]
        show (hd.val * 64 + d.val) * 1536 + r.val = (hd.val * 64 + d.val) * 1536 + r.val
        rfl)).trans ?_
  -- the slice of the last 64 coordinates of each head
  refine (extractStridedSlice_apply _ _ _ _ (ix3 hd (⟨128 + d.val, by omega⟩ : Fin 192) r)
    (fun a => match a with
      | ⟨0, _⟩ => by show hd.val = 0 + hd.val; omega
      | ⟨1, _⟩ => by show 128 + d.val = 128 + d.val; rfl
      | ⟨2, _⟩ => by show r.val = 0 + r.val; omega)).trans ?_
  exact shapeCast_apply _ _ _ (ix2 (⟨hd.val * 192 + 128 + d.val, by omega⟩ : Fin 6144) r)
    (by rw [Shape.rowMajor_val_two, Shape.rowMajor_val_three]
        show (hd.val * 192 + 128 + d.val) * 1536 + r.val = (hd.val * 192 + (128 + d.val)) * 1536 + r.val
        omega)

theorem cs_apply_cos (c1 c2 : S2x4096x64.Idx → EReal) (b : Fin 2) (s : Fin 4096) (d : Fin 64) :
    cs c1 c2 (ix3 b s ⟨d.val, by omega⟩) = c1 (ix3 b s d) := by
  unfold cs
  exact concatenate_pair_apply_left (t := S2x4096x128) (2 : Fin 3) c1 c2 _ (ix3 b s (⟨d.val, by omega⟩ : Fin 128)) rfl
    (ix3 b s d) (fun a => match a with | ⟨0, _⟩ => rfl | ⟨1, _⟩ => rfl | ⟨2, _⟩ => rfl)

theorem cs_apply_sin (c1 c2 : S2x4096x64.Idx → EReal) (b : Fin 2) (s : Fin 4096) (d : Fin 64) :
    cs c1 c2 (ix3 b s ⟨64 + d.val, by omega⟩) = c2 (ix3 b s d) := by
  unfold cs
  refine concatenate_pair_apply_right (t := S2x4096x128) (2 : Fin 3) c1 c2 _ (ix3 b s (⟨64 + d.val, by omega⟩ : Fin 128)) rfl rfl
    (ix3 b s d) (fun a ha => ?_) ?_
  · match a, ha with
    | ⟨0, _⟩, _ => rfl
    | ⟨1, _⟩, _ => rfl
    | ⟨2, _⟩, ha => exact absurd rfl ha
  · show d.val + 64 = 64 + d.val
    omega

/-! ## What the first region finds in its buffers -/

variable (m : (ℓ : Loc nD τ sig) → Buf (Elt Ideal) ℓ) (ρ : Dev nD → PrngReg)

theorem V1_arg0 (c : Dev nD) : V1 (F := Ideal) m ρ c main_arg0 = m ((c : Thread nD τ).loc main_arg0) := by
  show StableHlo.after hostOps0 (W0 m ρ c) (Proc.devRef .tc main_arg0) = _
  after_results

theorem V1_v6 (c : Dev nD) : V1 (F := Ideal) m ρ c main_v6 = wqat (m ((c : Thread nD τ).loc main_arg3)) := by
  show StableHlo.after hostOps0 (W0 m ρ c) (Proc.devRef .tc main_v6) = _
  after_results
  rfl

theorem V1_v8 (c : Dev nD) : V1 (F := Ideal) m ρ c main_v8 = wkvat (m ((c : Thread nD τ).loc main_arg5)) := by
  show StableHlo.after hostOps0 (W0 m ρ c) (Proc.devRef .tc main_v8) = _
  after_results
  rfl

theorem V1_v10 (c : Dev nD) : V1 (F := Ideal) m ρ c main_v10 = wn (m ((c : Thread nD τ).loc main_arg4)) := by
  show StableHlo.after hostOps0 (W0 m ρ c) (Proc.devRef .tc main_v10) = _
  after_results
  rfl

theorem V1_v12 (c : Dev nD) : V1 (F := Ideal) m ρ c main_v12 = wr (m ((c : Thread nD τ).loc main_arg4)) := by
  show StableHlo.after hostOps0 (W0 m ρ c) (Proc.devRef .tc main_v12) = _
  after_results
  rfl

theorem V1_v13 (c : Dev nD) :
    V1 (F := Ideal) m ρ c main_v13 = cs (m ((c : Thread nD τ).loc main_arg1)) (m ((c : Thread nD τ).loc main_arg2)) := by
  show StableHlo.after hostOps0 (W0 m ρ c) (Proc.devRef .tc main_v13) = _
  after_results
  rfl

end Cert.KernelIdeal.HostReads

end
-- ==== Proof.Spec.lean ====
/-
  The mathematics both programs compute, stated once over the extended reals.

  For a batch entry b and a position s, one output row of 6720 numbers is laid out as
    [ 32 heads × (128 "nope" coordinates ++ 64 rotated "rope" coordinates) | 64 rotated key coordinates | 512 compressed kv ].
  The query is a two-stage projection  q = (x · Wqaᵀ) · Wqbᵀ, the key/value a one-stage projection  kv = x · Wkvaᵀ,
  and the rotation of a 64-vector f by (cos, sin) is  f·cos + rot(f)·sin  with  rot(f) = (−f[32:], f[:32]).
  Every sum is a finite sum in the commutative monoid of extended reals; no law that needs finiteness is used.
-/
import Idealize.ShloMosaic.PureOps.Ideal
import Idealize.ShloMosaic.Lib.ValueIdx

noncomputable section

namespace Cert.RopeProj

open Idealize.ShloMosaic Idealize.ShloMosaic.ValueIdx

/-- A rank-2 array of extended reals of literal extents. -/
abbrev A2 (a b : Nat) := (⟨2, ![a, b]⟩ : Shape).Idx → EReal
/-- A rank-3 array of extended reals of literal extents. -/
abbrev A3 (a b c : Nat) := (⟨3, ![a, b, c]⟩ : Shape).Idx → EReal

/-- The half-rotation of a 64-vector: the upper half negated in front of the lower half. -/
def rot (f : Fin 64 → EReal) (d : Fin 64) : EReal :=
  if h : d.val < 32 then -(f ⟨32 + d.val, by omega⟩) else f ⟨d.val - 32, by omega⟩

/-- The rotary embedding of a 64-vector at one coordinate. -/
def rope (f c s : Fin 64 → EReal) (d : Fin 64) : EReal := f d * c d + rot f d * s d

/-- One output row from its parts: per head the 128 plain query coordinates then the 64 rotated ones, then the 64
    rotated key coordinates, then the 512 compressed key/value coordinates. -/
def row (qn : Fin 32 → Fin 128 → EReal) (qr : Fin 32 → Fin 64 → EReal) (kpe : Fin 64 → EReal) (ckv : Fin 512 → EReal)
    (c s : Fin 64 → EReal) (o : Fin 6720) : EReal :=
  if h1 : o.val < 6144 then
    if h2 : o.val % 192 < 128 then qn ⟨o.val / 192, by omega⟩ ⟨o.val % 192, h2⟩
    else rope (qr ⟨o.val / 192, by omega⟩) c s ⟨o.val % 192 - 128, by omega⟩
  else if h3 : o.val < 6208 then rope kpe c s ⟨o.val - 6144, by omega⟩
  else ckv ⟨o.val - 6208, by omega⟩

/-! ## The whole map, from the six arguments -/

/-- The low-rank query  x · Wqaᵀ  at (b, s, r). -/
def qlora (X : A3 2 4096 4096) (Wqa : A2 1536 4096) (b : Fin 2) (s : Fin 4096) (r : Fin 1536) : EReal :=
  ∑ h : Fin 4096, X (ix3 b s h) * Wqa (ix2 r h)

/-- The query  (x · Wqaᵀ) · Wqbᵀ  at (b, s, o). -/
def qup (X : A3 2 4096 4096) (Wqa : A2 1536 4096) (Wqb : A2 6144 1536) (b : Fin 2) (s : Fin 4096) (o : Fin 6144) : EReal :=
  ∑ r : Fin 1536, qlora X Wqa b s r * Wqb (ix2 o r)

/-- The key/value projection  x · Wkvaᵀ  at (b, s, o). -/
def kvp (X : A3 2 4096 4096) (Wkva : A2 576 4096) (b : Fin 2) (s : Fin 4096) (o : Fin 576) : EReal :=
  ∑ h : Fin 4096, X (ix3 b s h) * Wkva (ix2 o h)

/-- The result array as one function of the six argument arrays. -/
def G (X : A3 2 4096 4096) (C Sn : A3 2 4096 64) (Wqa : A2 1536 4096) (Wqb : A2 6144 1536) (Wkva : A2 576 4096) :
    A3 2 4096 6720 := fun i =>
  row (fun hd j => qup X Wqa Wqb ⟨(i 0).val, (i 0).isLt⟩ ⟨(i 1).val, (i 1).isLt⟩ ⟨hd.val * 192 + j.val, by omega⟩)
    (fun hd d => qup X Wqa Wqb ⟨(i 0).val, (i 0).isLt⟩ ⟨(i 1).val, (i 1).isLt⟩ ⟨hd.val * 192 + 128 + d.val, by omega⟩)
    (fun d => kvp X Wkva ⟨(i 0).val, (i 0).isLt⟩ ⟨(i 1).val, (i 1).isLt⟩ ⟨512 + d.val, by omega⟩)
    (fun e => kvp X Wkva ⟨(i 0).val, (i 0).isLt⟩ ⟨(i 1).val, (i 1).isLt⟩ ⟨e.val, by omega⟩)
    (fun d => C (ix3 ⟨(i 0).val, (i 0).isLt⟩ ⟨(i 1).val, (i 1).isLt⟩ d))
    (fun d => Sn (ix3 ⟨(i 0).val, (i 0).isLt⟩ ⟨(i 1).val, (i 1).isLt⟩ d))
    ⟨(i 2).val, (i 2).isLt⟩

/-! ## The two stages the kernel computes, each from what it is handed -/

/-- Stage one, the low-rank query: rows of x against a weight already laid out [in, out]. -/
def stageQ (X : A3 2 4096 4096) (Wt : A2 4096 1536) : A3 2 4096 1536 := fun i =>
  ∑ h : Fin 4096, X (ix3 ⟨(i 0).val, (i 0).isLt⟩ ⟨(i 1).val, (i 1).isLt⟩ h) * Wt (ix2 h ⟨(i 2).val, (i 2).isLt⟩)

/-- Stage one, the compressed key/value: the first 512 columns of  x · Wt. -/
def stageC (X : A3 2 4096 4096) (Wt : A2 4096 576) : A3 2 4096 512 := fun i =>
  ∑ h : Fin 4096, X (ix3 ⟨(i 0).val, (i 0).isLt⟩ ⟨(i 1).val, (i 1).isLt⟩ h)
    * Wt (ix2 h ⟨(i 2).val, by have h2 : (i 2).val < 512 := (i 2).isLt; show (i 2).val < 576; omega⟩)

/-- Stage one, the key's rotary part: the last 64 columns of  x · Wt. -/
def stageK (X : A3 2 4096 4096) (Wt : A2 4096 576) : A3 2 4096 64 := fun i =>
  ∑ h : Fin 4096, X (ix3 ⟨(i 0).val, (i 0).isLt⟩ ⟨(i 1).val, (i 1).isLt⟩ h)
    * Wt (ix2 h ⟨512 + (i 2).val, by have h2 : (i 2).val < 64 := (i 2).isLt; show 512 + (i 2).val < 576; omega⟩)

/-- Stage two: the result array from the low-rank query, the two key/value parts, cos and sin packed side by side,
    and the two up-projection weights laid out [in, out] with the heads' coordinates contiguous. -/
def stageOut (QL : A3 2 4096 1536) (CKV : A3 2 4096 512) (KPE : A3 2 4096 64) (CS : A3 2 4096 128)
    (Wn : A2 1536 4096) (Wr : A2 1536 2048) : A3 2 4096 6720 := fun i =>
  row (fun hd j => ∑ r : Fin 1536, QL (ix3 ⟨(i 0).val, (i 0).isLt⟩ ⟨(i 1).val, (i 1).isLt⟩ r) * Wn (ix2 r ⟨hd.val * 128 + j.val, by omega⟩))
    (fun hd d => ∑ r : Fin 1536, QL (ix3 ⟨(i 0).val, (i 0).isLt⟩ ⟨(i 1).val, (i 1).isLt⟩ r) * Wr (ix2 r ⟨hd.val * 64 + d.val, by omega⟩))
    (fun d => KPE (ix3 ⟨(i 0).val, (i 0).isLt⟩ ⟨(i 1).val, (i 1).isLt⟩ d))
    (fun e => CKV (ix3 ⟨(i 0).val, (i 0).isLt⟩ ⟨(i 1).val, (i 1).isLt⟩ e))
    (fun d => CS (ix3 ⟨(i 0).val, (i 0).isLt⟩ ⟨(i 1).val, (i 1).isLt⟩ ⟨d.val, by omega⟩))
    (fun d => CS (ix3 ⟨(i 0).val, (i 0).isLt⟩ ⟨(i 1).val, (i 1).isLt⟩ ⟨64 + d.val, by omega⟩))
    ⟨(i 2).val, (i 2).isLt⟩

/-- The two stages composed are the whole map, once each operand handed to a stage is identified with the argument
    it was laid out from: the transposed weights, the head-contiguous halves of Wqb, and cos ++ sin. -/
theorem stageOut_stage_eq_G (X : A3 2 4096 4096) (C Sn : A3 2 4096 64) (Wqa : A2 1536 4096) (Wqb : A2 6144 1536)
    (Wkva : A2 576 4096) (Wqat : A2 4096 1536) (Wkvat : A2 4096 576) (CS : A3 2 4096 128) (Wn : A2 1536 4096) (Wr : A2 1536 2048)
    (hqa : ∀ (h : Fin 4096) (r : Fin 1536), Wqat (ix2 h r) = Wqa (ix2 r h))
    (hkv : ∀ (h : Fin 4096) (o : Fin 576), Wkvat (ix2 h o) = Wkva (ix2 o h))
    (hn : ∀ (r : Fin 1536) (hd : Fin 32) (j : Fin 128), Wn (ix2 r ⟨hd.val * 128 + j.val, by omega⟩) = Wqb (ix2 ⟨hd.val * 192 + j.val, by omega⟩ r))
    (hr : ∀ (r : Fin 1536) (hd : Fin 32) (d : Fin 64), Wr (ix2 r ⟨hd.val * 64 + d.val, by omega⟩) = Wqb (ix2 ⟨hd.val * 192 + 128 + d.val, by omega⟩ r))
    (hc : ∀ (b : Fin 2) (s : Fin 4096) (d : Fin 64), CS (ix3 b s ⟨d.val, by omega⟩) = C (ix3 b s d))
    (hs : ∀ (b : Fin 2) (s : Fin 4096) (d : Fin 64), CS (ix3 b s ⟨64 + d.val, by omega⟩) = Sn (ix3 b s d)) :
    stageOut (stageQ X Wqat) (stageC X Wkvat) (stageK X Wkvat) CS Wn Wr = G X C Sn Wqa Wqb Wkva := by
  funext i
  unfold stageOut G
  congr 1
  · funext hd j
    unfold qup qlora stageQ
    refine Finset.sum_congr rfl fun r _ => ?_
    rw [hn r hd j]
    congr 1
    exact Finset.sum_congr rfl fun h _ => by rw [hqa h]
  · funext hd d
    unfold qup qlora stageQ
    refine Finset.sum_congr rfl fun r _ => ?_
    rw [hr r hd d]
    congr 1
    exact Finset.sum_congr rfl fun h _ => by rw [hqa h]
  · funext d
    unfold kvp stageK
    exact Finset.sum_congr rfl fun h _ => by rw [hkv h]
  · funext e
    unfold kvp stageC
    exact Finset.sum_congr rfl fun h _ => by rw [hkv h]
  · funext d; exact hc _ _ d
  · funext d; exact hs _ _ d

end Cert.RopeProj

end
-- ==== Proof.Region0.lean ====
/-
  Region 0, the down-projection: after it each of its three output arrays holds, index by index, a product of the rows
  of the activations with a weight laid out [in, out] — the low-rank query (all 1536 columns of x · Wq), the compressed
  key/value (the first 512 columns of x · Wkv) and the key's rotary part (the last 64 columns of x · Wkv).

  The body's one matrix product per weight is read at an index as a finite sum over the 4096 contracted coordinates;
  each grid point (b, s) writes the 256 rows 256·s … 256·s + 255 of batch entry b, and these blocks cover the arrays.
-/
import proofs.«101971_j72584947302731_2_alg».proof.Proof.Gen.KernelIdeal.Frame
import proofs.«101971_j72584947302731_2_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx Idealize.ShloMosaic.Pipeline
open Cert.KernelIdeal Cert.KernelIdeal.Gen Cert.RopeProj

namespace Cert.KernelIdeal.Region0

/-! ### The specification's functions at an index with named coordinates -/

theorem stageQ_at (X : A3 2 4096 4096) (Wt : A2 4096 1536) (i : (⟨3, ![2, 4096, 1536]⟩ : Shape).Idx)
    (b : Fin 2) (s : Fin 4096) (k : Fin 1536) (hb : b.val = (i 0).val) (hs : s.val = (i 1).val) (hk : k.val = (i 2).val) :
    stageQ X Wt i = ∑ h : Fin 4096, X (ix3 b s h) * Wt (ix2 h k) := by
  obtain rfl : b = ⟨(i 0).val, (i 0).isLt⟩ := Fin.ext hb
  obtain rfl : s = ⟨(i 1).val, (i 1).isLt⟩ := Fin.ext hs
  obtain rfl : k = ⟨(i 2).val, (i 2).isLt⟩ := Fin.ext hk
  rfl

theorem stageC_at (X : A3 2 4096 4096) (Wt : A2 4096 576) (i : (⟨3, ![2, 4096, 512]⟩ : Shape).Idx)
    (b : Fin 2) (s : Fin 4096) (k : Fin 576) (hb : b.val = (i 0).val) (hs : s.val = (i 1).val) (hk : k.val = (i 2).val) :
    stageC X Wt i = ∑ h : Fin 4096, X (ix3 b s h) * Wt (ix2 h k) := by
  obtain rfl : b = ⟨(i 0).val, (i 0).isLt⟩ := Fin.ext hb
  obtain rfl : s = ⟨(i 1).val, (i 1).isLt⟩ := Fin.ext hs
  have hlt : (i 2).val < 576 := by clear hk hb hs; have h2 : (i 2).val < 512 := (i 2).isLt; omega
  obtain rfl : k = ⟨(i 2).val, hlt⟩ := Fin.ext hk
  rfl

theorem stageK_at (X : A3 2 4096 4096) (Wt : A2 4096 576) (i : (⟨3, ![2, 4096, 64]⟩ : Shape).Idx)
    (b : Fin 2) (s : Fin 4096) (k : Fin 576) (hb : b.val = (i 0).val) (hs : s.val = (i 1).val) (hk : k.val = 512 + (i 2).val) :
    stageK X Wt i = ∑ h : Fin 4096, X (ix3 b s h) * Wt (ix2 h k) := by
  obtain rfl : b = ⟨(i 0).val, (i 0).isLt⟩ := Fin.ext hb
  obtain rfl : s = ⟨(i 1).val, (i 1).isLt⟩ := Fin.ext hs
  have hlt : 512 + (i 2).val < 576 := by clear hk hb hs; have h2 : (i 2).val < 64 := (i 2).isLt; omega
  obtain rfl : k = ⟨512 + (i 2).val, hlt⟩ := Fin.ext hk
  rfl

/-- The input block with its unit axis dropped (and its format changed, the identity on extended reals), at (r, h). -/
theorem rows_apply (x0 : Vec Ideal S1x256x4096 .f32) (r : Fin 256) (h : Fin 4096) :
    k0_pay1 (F := Ideal) x0 (ix2 r h) = x0 (ix3 ⟨0, Nat.one_pos⟩ r h) := by
  unfold k0_pay1
  refine (shapeCast_dropUnit_apply ![256, 4096] x0 _ (ix2 r h)).trans ?_
  congr 1
  funext a
  match a with
  | ⟨0, _⟩ => rfl
  | ⟨1, _⟩ => rfl
  | ⟨2, _⟩ => rfl

/-- An index of a [1, a, b] block with its unit axis dropped. -/
theorem tail_ix3 {a b : Nat} (r : Fin a) (k : Fin b) :
    (fun d : Fin 2 => (ix3 (⟨0, Nat.one_pos⟩ : Fin 1) r k) d.succ) = ix2 r k := by
  funext d
  match d with
  | ⟨0, _⟩ => rfl
  | ⟨1, _⟩ => rfl

/-! ### The product into the low-rank query's columns -/

theorem lhsQ_0 (i : S256x1536.Idx) (q : dot_S256x4096_S4096x1536_S256x1536_1_0_0_1_n_n.contr.Idx) :
    (dot_S256x4096_S4096x1536_S256x1536_1_0_0_1_n_n.lhsIdx i q 0).val = (i 0).val := by
  unfold DotDims.lhsIdx
  rw [dif_neg (show ¬(0 : Fin S256x4096.rank) ∈ dot_S256x4096_S4096x1536_S256x1536_1_0_0_1_n_n.lhsBatch by decide), dif_pos (show (0 : Fin S256x4096.rank) ∈ dot_S256x4096_S4096x1536_S256x1536_1_0_0_1_n_n.lhsNonContracting by decide)]
  rfl
theorem lhsQ_1 (i : S256x1536.Idx) (q : dot_S256x4096_S4096x1536_S256x1536_1_0_0_1_n_n.contr.Idx) :
    (dot_S256x4096_S4096x1536_S256x1536_1_0_0_1_n_n.lhsIdx i q 1).val = (q ⟨0, by decide⟩).val :=
  dot_S256x4096_S4096x1536_S256x1536_1_0_0_1_n_n.lhsIdx_val_of_single rfl i q
theorem rhsQ_0 (i : S256x1536.Idx) (q : dot_S256x4096_S4096x1536_S256x1536_1_0_0_1_n_n.contr.Idx) :
    (dot_S256x4096_S4096x1536_S256x1536_1_0_0_1_n_n.rhsIdx i q 0).val = (q ⟨0, by decide⟩).val :=
  dot_S256x4096_S4096x1536_S256x1536_1_0_0_1_n_n.rhsIdx_val_of_single rfl i q
theorem rhsQ_1 (i : S256x1536.Idx) (q : dot_S256x4096_S4096x1536_S256x1536_1_0_0_1_n_n.contr.Idx) :
    (dot_S256x4096_S4096x1536_S256x1536_1_0_0_1_n_n.rhsIdx i q 1).val = (i 1).val := by
  unfold DotDims.rhsIdx
  rw [dif_neg (show ¬(1 : Fin S4096x1536.rank) ∈ dot_S256x4096_S4096x1536_S256x1536_1_0_0_1_n_n.rhsBatch by decide), dif_pos (show (1 : Fin S4096x1536.rank) ∈ dot_S256x4096_S4096x1536_S256x1536_1_0_0_1_n_n.rhsNonContracting by decide)]
  rfl

/-- The rows of the block against a [4096, 1536] weight into a zero accumulator, at (r, k). -/
theorem matmulQ_apply (x0 : Vec Ideal S1x256x4096 .f32) (w : FVec Ideal S4096x1536 .bf16) (r : Fin 256) (k : Fin 1536) :
    matmul dot_S256x4096_S4096x1536_S256x1536_1_0_0_1_n_n none (k0_pay1 (F := Ideal) x0) w (constant S256x1536 .f32 0x00000000#32) (ix2 r k)
      = ∑ h : Fin 4096, x0 (ix3 ⟨0, Nat.one_pos⟩ r h) * w (ix2 h k) := by
  refine (Ideal.matmul_constant_zero_apply dot_S256x4096_S4096x1536_S256x1536_1_0_0_1_n_n none _ w (ix2 r k)).trans ?_
  rw [← Equiv.sum_comp (contrEquiv1 dot_S256x4096_S4096x1536_S256x1536_1_0_0_1_n_n 4096 rfl rfl).symm]
  refine Finset.sum_congr rfl fun h _ => ?_
  have hk := contrEquiv1_symm_val dot_S256x4096_S4096x1536_S256x1536_1_0_0_1_n_n 4096 rfl rfl h
  have el : dot_S256x4096_S4096x1536_S256x1536_1_0_0_1_n_n.lhsIdx (ix2 r k) ((contrEquiv1 dot_S256x4096_S4096x1536_S256x1536_1_0_0_1_n_n 4096 rfl rfl).symm h) = ix2 r h :=
    funext fun a => Fin.ext (by
      match a with
      | ⟨0, _⟩ => exact lhsQ_0 _ _
      | ⟨1, _⟩ => exact (lhsQ_1 _ _).trans hk)
  have er : dot_S256x4096_S4096x1536_S256x1536_1_0_0_1_n_n.rhsIdx (ix2 r k) ((contrEquiv1 dot_S256x4096_S4096x1536_S256x1536_1_0_0_1_n_n 4096 rfl rfl).symm h) = ix2 h k :=
    funext fun a => Fin.ext (by
      match a with
      | ⟨0, _⟩ => exact (rhsQ_0 _ _).trans hk
      | ⟨1, _⟩ => exact rhsQ_1 _ _)
  rw [el, er, rows_apply]

/-- What the body stores in the low-rank query's block, at (0, r, k). -/
theorem pay3_apply (x0 : Vec Ideal S1x256x4096 .f32) (x1 : Vec Ideal S4096x1536 .bf16) (z : Fin 1) (r : Fin 256) (k : Fin 1536) :
    k0_pay3 (F := Ideal) x0 x1 (ix3 z r k) = ∑ h : Fin 4096, x0 (ix3 z r h) * x1 (ix2 h k) := by
  obtain rfl : z = ⟨0, Nat.one_pos⟩ := Subsingleton.elim _ _
  unfold k0_pay3
  refine (shapeCast_addUnit_apply ![256, 1536] _ _ (ix3 ⟨0, Nat.one_pos⟩ r k)).trans ?_
  rw [tail_ix3, shapeCast_self]
  exact matmulQ_apply x0 x1 r k

/-! ### The product into the key/value's 576 columns, and its two column slices -/

theorem lhsKV_0 (i : S256x576.Idx) (q : dot_S256x4096_S4096x576_S256x576_1_0_0_1_n_n.contr.Idx) :
    (dot_S256x4096_S4096x576_S256x576_1_0_0_1_n_n.lhsIdx i q 0).val = (i 0).val := by
  unfold DotDims.lhsIdx
  rw [dif_neg (show ¬(0 : Fin S256x4096.rank) ∈ dot_S256x4096_S4096x576_S256x576_1_0_0_1_n_n.lhsBatch by decide), dif_pos (show (0 : Fin S256x4096.rank) ∈ dot_S256x4096_S4096x576_S256x576_1_0_0_1_n_n.lhsNonContracting by decide)]
  rfl
theorem lhsKV_1 (i : S256x576.Idx) (q : dot_S256x4096_S4096x576_S256x576_1_0_0_1_n_n.contr.Idx) :
    (dot_S256x4096_S4096x576_S256x576_1_0_0_1_n_n.lhsIdx i q 1).val = (q ⟨0, by decide⟩).val :=
  dot_S256x4096_S4096x576_S256x576_1_0_0_1_n_n.lhsIdx_val_of_single rfl i q
theorem rhsKV_0 (i : S256x576.Idx) (q : dot_S256x4096_S4096x576_S256x576_1_0_0_1_n_n.contr.Idx) :
    (dot_S256x4096_S4096x576_S256x576_1_0_0_1_n_n.rhsIdx i q 0).val = (q ⟨0, by decide⟩).val :=
  dot_S256x4096_S4096x576_S256x576_1_0_0_1_n_n.rhsIdx_val_of_single rfl i q
theorem rhsKV_1 (i : S256x576.Idx) (q : dot_S256x4096_S4096x576_S256x576_1_0_0_1_n_n.contr.Idx) :
    (dot_S256x4096_S4096x576_S256x576_1_0_0_1_n_n.rhsIdx i q 1).val = (i 1).val := by
  unfold DotDims.rhsIdx
  rw [dif_neg (show ¬(1 : Fin S4096x576.rank) ∈ dot_S256x4096_S4096x576_S256x576_1_0_0_1_n_n.rhsBatch by decide), dif_pos (show (1 : Fin S4096x576.rank) ∈ dot_S256x4096_S4096x576_S256x576_1_0_0_1_n_n.rhsNonContracting by decide)]
  rfl

/-- The rows of the block against a [4096, 576] weight into a zero accumulator, at (r, k). -/
theorem matmulKV_apply (x0 : Vec Ideal S1x256x4096 .f32) (w : FVec Ideal S4096x576 .bf16) (r : Fin 256) (k : Fin 576) :
    matmul dot_S256x4096_S4096x576_S256x576_1_0_0_1_n_n none (k0_pay1 (F := Ideal) x0) w (constant S256x576 .f32 0x00000000#32) (ix2 r k)
      = ∑ h : Fin 4096, x0 (ix3 ⟨0, Nat.one_pos⟩ r h) * w (ix2 h k) := by
  refine (Ideal.matmul_constant_zero_apply dot_S256x4096_S4096x576_S256x576_1_0_0_1_n_n none _ w (ix2 r k)).trans ?_
  rw [← Equiv.sum_comp (contrEquiv1 dot_S256x4096_S4096x576_S256x576_1_0_0_1_n_n 4096 rfl rfl).symm]
  refine Finset.sum_congr rfl fun h _ => ?_
  have hk := contrEquiv1_symm_val dot_S256x4096_S4096x576_S256x576_1_0_0_1_n_n 4096 rfl rfl h
  have el : dot_S256x4096_S4096x576_S256x576_1_0_0_1_n_n.lhsIdx (ix2 r k) ((contrEquiv1 dot_S256x4096_S4096x576_S256x576_1_0_0_1_n_n 4096 rfl rfl).symm h) = ix2 r h :=
    funext fun a => Fin.ext (by
      match a with
      | ⟨0, _⟩ => exact lhsKV_0 _ _
      | ⟨1, _⟩ => exact (lhsKV_1 _ _).trans hk)
  have er : dot_S256x4096_S4096x576_S256x576_1_0_0_1_n_n.rhsIdx (ix2 r k) ((contrEquiv1 dot_S256x4096_S4096x576_S256x576_1_0_0_1_n_n 4096 rfl rfl).symm h) = ix2 h k :=
    funext fun a => Fin.ext (by
      match a with
      | ⟨0, _⟩ => exact (rhsKV_0 _ _).trans hk
      | ⟨1, _⟩ => exact rhsKV_1 _ _)
  rw [el, er, rows_apply]

/-- The key/value product the body computes once, at (r, k). -/
theorem pay2_apply (x0 : Vec Ideal S1x256x4096 .f32) (x2 : Vec Ideal S4096x576 .bf16) (r : Fin 256) (k : Fin 576) :
    k0_pay2 (F := Ideal) x0 x2 (ix2 r k) = ∑ h : Fin 4096, x0 (ix3 ⟨0, Nat.one_pos⟩ r h) * x2 (ix2 h k) := by
  unfold k0_pay2
  rw [shapeCast_self]
  exact matmulKV_apply x0 x2 r k

/-- The first 512 columns of a [256, 576] value, at (r, k). -/
theorem sliceC_apply (v : FVec Ideal S256x576 .f32) (r : Fin 256) (k : Fin 512) (k' : Fin 576) (hk : k'.val = k.val) :
    extractStridedSlice S256x512 ![0, 0] v slices_S256x576_o0_0_S256x512 (ix2 r k) = v (ix2 r k') := by
  refine extractStridedSlice_apply ![0, 0] v slices_S256x576_o0_0_S256x512 (ix2 r k) (ix2 r k') fun a => ?_
  match a with
  | ⟨0, _⟩ => show r.val = 0 + r.val; omega
  | ⟨1, _⟩ => show k'.val = 0 + k.val; omega

/-- The last 64 columns of a [256, 576] value, at (r, k). -/
theorem sliceK_apply (v : FVec Ideal S256x576 .f32) (r : Fin 256) (k : Fin 64) (k' : Fin 576) (hk : k'.val = 512 + k.val) :
    extractStridedSlice S256x64 ![0, 512] v slices_S256x576_o0_512_S256x64 (ix2 r k) = v (ix2 r k') := by
  refine extractStridedSlice_apply ![0, 512] v slices_S256x576_o0_512_S256x64 (ix2 r k) (ix2 r k') fun a => ?_
  match a with
  | ⟨0, _⟩ => show r.val = 0 + r.val; omega
  | ⟨1, _⟩ => show k'.val = 512 + k.val; omega

/-- A [256, 512] value stored as a [1, 256, 512] block, at (0, r, k). -/
theorem addUnitC_apply (v : FVec Ideal S256x512 .f32) (r : Fin 256) (k : Fin 512) :
    shapeCast S1x256x512 v shapeCasts_S256x512_S1x256x512 (ix3 ⟨0, Nat.one_pos⟩ r k) = v (ix2 r k) := by
  refine (shapeCast_addUnit_apply ![256, 512] v _ (ix3 ⟨0, Nat.one_pos⟩ r k)).trans ?_
  rw [tail_ix3]

/-- A [256, 64] value stored as a [1, 256, 64] block, at (0, r, k). -/
theorem addUnitK_apply (v : FVec Ideal S256x64 .f32) (r : Fin 256) (k : Fin 64) :
    shapeCast S1x256x64 v shapeCasts_S256x64_S1x256x64 (ix3 ⟨0, Nat.one_pos⟩ r k) = v (ix2 r k) := by
  refine (shapeCast_addUnit_apply ![256, 64] v _ (ix3 ⟨0, Nat.one_pos⟩ r k)).trans ?_
  rw [tail_ix3]

/-- What the body stores in the compressed key/value's block, at (0, r, k): column k of the product. -/
theorem pay4_apply (x0 : Vec Ideal S1x256x4096 .f32) (x2 : Vec Ideal S4096x576 .bf16) (z : Fin 1) (r : Fin 256) (k : Fin 512)
    (k' : Fin 576) (hk : k'.val = k.val) :
    k0_pay4 (F := Ideal) x0 x2 (ix3 z r k) = ∑ h : Fin 4096, x0 (ix3 z r h) * x2 (ix2 h k') := by
  obtain rfl : z = ⟨0, Nat.one_pos⟩ := Subsingleton.elim _ _
  unfold k0_pay4
  exact (addUnitC_apply _ r k).trans ((sliceC_apply _ r k k' hk).trans (pay2_apply x0 x2 r k'))

/-- What the body stores in the key's rotary block, at (0, r, k): column 512 + k of the product. -/
theorem pay5_apply (x0 : Vec Ideal S1x256x4096 .f32) (x2 : Vec Ideal S4096x576 .bf16) (z : Fin 1) (r : Fin 256) (k : Fin 64)
    (k' : Fin 576) (hk : k'.val = 512 + k.val) :
    k0_pay5 (F := Ideal) x0 x2 (ix3 z r k) = ∑ h : Fin 4096, x0 (ix3 z r h) * x2 (ix2 h k') := by
  obtain rfl : z = ⟨0, Nat.one_pos⟩ := Subsingleton.elim _ _
  unfold k0_pay5
  exact (addUnitK_apply _ r k).trans ((sliceK_apply _ r k k' hk).trans (pay2_apply x0 x2 r k'))

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps over the grid: the activations' block and the three output blocks sit at (b, s, 0), the
    weights' blocks at (0, 0), and b ≤ 1, s ≤ 15. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 1 ∧ win0_3.index t (1 : Fin 3) ≤ 15 ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_5.index t (0 : Fin 3) = win0_3.index t (0 : Fin 3) ∧ win0_5.index t (1 : Fin 3) = win0_3.index t (1 : Fin 3)
    ∧ win0_5.index t (2 : Fin 3) = 0 :=
  (by decide +kernel : ∀ t : Fin grid0.N, _)

/-- Every block (b, s, 0) is some point's. -/
theorem idx_onto : ∀ (b : Fin 2) (s : Fin 16), ∃ t : Fin cfg0.N,
    win0_3.index t (0 : Fin 3) = b.val ∧ win0_3.index t (1 : Fin 3) = s.val :=
  (by decide +kernel : ∀ (b : Fin 2) (s : Fin 16), ∃ t : Fin grid0.N,
    win0_3.index t (0 : Fin 3) = b.val ∧ win0_3.index t (1 : Fin 3) = s.val)

/-- An element of the activations' block at a point is the array's element at the block's offset. -/
theorem blkX_apply (c : Dev nD) (t : Fin cfg0.N) (z : Fin 1) (r : Fin 256) (h : Fin 4096) (i : S2x4096x4096.Idx)
    (h0 : win0_0.index t (0 : Fin 3) * 1 + 1 * z.val = (i 0).val)
    (h1 : win0_0.index t (1 : Fin 3) * 256 + 1 * r.val = (i 1).val)
    (h2 : win0_0.index t (2 : Fin 3) * 4096 + 1 * h.val = (i 2).val) :
    (iblk0 V c 0 t : Vec Ideal S1x256x4096 .f32) (ix3 z r h) = (V c main_arg0 : S2x4096x4096.Idx → EReal) i := by
  unfold iblk0
  rw [View.read_apply]
  show V c main_arg0 _ = V c main_arg0 i
  congr 1
  funext a
  apply Fin.ext
  match a with
  | ⟨0, _⟩ => exact h0
  | ⟨1, _⟩ => exact h1
  | ⟨2, _⟩ => exact h2

/-- An element of the [4096, 1536] weight's block (the whole array) is the array's element. -/
theorem blkWq_apply (c : Dev nD) (t : Fin cfg0.N) (h : Fin 4096) (k : Fin 1536) :
    (iblk0 V c 1 t : Vec Ideal S4096x1536 .bf16) (ix2 h k) = (V c main_v6 : S4096x1536.Idx → EReal) (ix2 h k) := by
  obtain ⟨-, -, -, e0, e1, -⟩ := idx_facts t
  unfold iblk0
  rw [View.read_apply]
  show V c main_v6 _ = V c main_v6 (ix2 h k)
  congr 1
  funext a
  apply Fin.ext
  match a with
  | ⟨0, _⟩ => show win0_1.index t (0 : Fin 2) * 4096 + 1 * h.val = h.val; omega
  | ⟨1, _⟩ => show win0_1.index t (1 : Fin 2) * 1536 + 1 * k.val = k.val; omega

/-- What a point writes back to the low-rank query is its block of the whole-array product. -/
theorem flushedQ_eq (c : Dev nD) (t : Fin cfg0.N) :
    (dat0 (F := Ideal) V c).flushed 3 t
      = ((cfg0.win 3).blk t).view.read (Elt Ideal) (stageQ (V c main_arg0) (V c main_v6)) := by
  show (cfg0.win 3).cut (grid0.coords t) ((dat0 (F := Ideal) V c).after 3 t) = _
  rw [after0_3]
  unfold out0_3
  rw [View.canon_unit_zero zeros3]
  simp only [View.ld_unit_zero (S := S1x256x4096) zeros3, View.ld_unit_zero (S := S4096x1536) zeros2]
  obtain ⟨e0, e1, e2, -, -, -, -, b0, b1, e3, -⟩ := idx_facts t
  funext y
  have hy0 : (y 0).val < 1 := (y 0).isLt
  have hy1 : (y 1).val < 256 := (y 1).isLt
  show k0_pay3 (iblk0 V c 0 t) (iblk0 V c 1 t) y
    = stageQ (V c main_arg0) (V c main_v6) (((cfg0.win 3).blk t).view.emb y)
  refine (congrArg (k0_pay3 (iblk0 V c 0 t) (iblk0 V c 1 t)) (eq_ix3 (n0 := 1) (n1 := 256) (n2 := 1536) y)).trans ?_
  refine (pay3_apply (iblk0 V c 0 t) (iblk0 V c 1 t) (y 0) (y 1) (y 2)).trans ?_
  refine Eq.trans ?_ (stageQ_at (V c main_arg0) (V c main_v6) (((cfg0.win 3).blk t).view.emb y)
    ⟨win0_3.index t (0 : Fin 3), by omega⟩ ⟨win0_3.index t (1 : Fin 3) * 256 + (y 1).val, by omega⟩ (y 2) ?_ ?_ ?_).symm
  · refine Finset.sum_congr rfl fun h _ => ?_
    refine congrArg₂ (· * ·) (blkX_apply V c t (y 0) (y 1) h _ ?_ ?_ ?_) (blkWq_apply V c t h (y 2))
    · show win0_0.index t (0 : Fin 3) * 1 + 1 * (y 0).val = win0_3.index t (0 : Fin 3); omega
    · show win0_0.index t (1 : Fin 3) * 256 + 1 * (y 1).val = win0_3.index t (1 : Fin 3) * 256 + (y 1).val; omega
    · show win0_0.index t (2 : Fin 3) * 4096 + 1 * h.val = h.val; omega
  · show win0_3.index t (0 : Fin 3) = win0_3.index t (0 : Fin 3) * 1 + 1 * (y 0).val; omega
  · show win0_3.index t (1 : Fin 3) * 256 + (y 1).val = win0_3.index t (1 : Fin 3) * 256 + 1 * (y 1).val; omega
  · show (y 2).val = win0_3.index t (2 : Fin 3) * 1536 + 1 * (y 2).val; omega

/-- An index of the low-rank query's array lies in a point's block iff each coordinate lies in the block's range. -/
theorem mem_blkQ (t : Fin cfg0.N) (i : S2x4096x1536.Idx) :
    i ∈ ((cfg0.win 3).blk t).view.set ↔ ∀ a : Fin 3, win0_3.index t a * S1x256x1536.size a ≤ (i a).val
      ∧ (i a).val < win0_3.index t a * S1x256x1536.size a + S1x256x1536.size a := by
  show i ∈ ((View.whole main_v14_0).slice (win0_3.rect t)).set ↔ _
  rw [View.set_slice_whole, Rect.mem_set_unit]
  exact Iff.rfl

/-- Every index (b, s, k) lies in the block of the point (b, s / 256). -/
theorem coverQ (i : S2x4096x1536.Idx) :
    ∃ t : Fin cfg0.N, (cfg0.win 3).flush t = true ∧ i ∈ ((cfg0.win 3).blk t).view.set := by
  have hi0 : (i 0).val < 2 := (i 0).isLt
  have hi1 : (i 1).val < 4096 := (i 1).isLt
  have hi2 : (i 2).val < 1536 := (i 2).isLt
  obtain ⟨t, q0, q1⟩ := idx_onto ⟨(i 0).val, hi0⟩ ⟨(i 1).val / 256, by omega⟩
  have q0' : win0_3.index t (0 : Fin 3) = (i 0).val := q0
  have q1' : win0_3.index t (1 : Fin 3) = (i 1).val / 256 := q1
  obtain ⟨-, -, -, -, -, -, -, -, -, e3, -⟩ := idx_facts t
  refine ⟨t, flush0_3 t, ?_⟩
  rw [mem_blkQ]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 256 ≤ (i 1).val ∧ (i 1).val < win0_3.index t (1 : Fin 3) * 256 + 256
    omega
  | ⟨2, _⟩ =>
    show win0_3.index t (2 : Fin 3) * 1536 ≤ (i 2).val ∧ (i 2).val < win0_3.index t (2 : Fin 3) * 1536 + 1536
    omega

/-- After the region the low-rank query's array holds the rows of x against the [4096, 1536] weight. -/
theorem region0_q (c : Dev nD) :
    (dat0 (F := Ideal) V c).arrAt 3 cfg0.N = stageQ (V c main_arg0) (V c main_v6) :=
  (dat0 (F := Ideal) V c).arrAt_eq_of_cover 3 _ (fun t _ => flushedQ_eq V c t) coverQ

/-- An element of the [4096, 576] weight's block (the whole array) is the array's element. -/
theorem blkWkv_apply (c : Dev nD) (t : Fin cfg0.N) (h : Fin 4096) (k : Fin 576) :
    (iblk0 V c 2 t : Vec Ideal S4096x576 .bf16) (ix2 h k) = (V c main_v8 : S4096x576.Idx → EReal) (ix2 h k) := by
  obtain ⟨-, -, -, -, -, e0, e1, -⟩ := idx_facts t
  unfold iblk0
  rw [View.read_apply]
  show V c main_v8 _ = V c main_v8 (ix2 h k)
  congr 1
  funext a
  apply Fin.ext
  match a with
  | ⟨0, _⟩ => show win0_2.index t (0 : Fin 2) * 4096 + 1 * h.val = h.val; omega
  | ⟨1, _⟩ => show win0_2.index t (1 : Fin 2) * 576 + 1 * k.val = k.val; omega

/-! ### The compressed key/value -/

/-- What a point writes back to the compressed key/value is its block of the product's first 512 columns. -/
theorem flushedC_eq (c : Dev nD) (t : Fin cfg0.N) :
    (dat0 (F := Ideal) V c).flushed 4 t
      = ((cfg0.win 4).blk t).view.read (Elt Ideal) (stageC (V c main_arg0) (V c main_v8)) := by
  show (cfg0.win 4).cut (grid0.coords t) ((dat0 (F := Ideal) V c).after 4 t) = _
  rw [after0_4]
  unfold out0_4
  rw [View.canon_unit_zero zeros3]
  simp only [View.ld_unit_zero (S := S1x256x4096) zeros3, View.ld_unit_zero (S := S4096x576) zeros2]
  obtain ⟨e0, e1, e2, -, -, -, -, b0, b1, -, c0, c1, c2, -⟩ := idx_facts t
  funext y
  have hy0 : (y 0).val < 1 := (y 0).isLt
  have hy1 : (y 1).val < 256 := (y 1).isLt
  have hy2 : (y 2).val < 512 := (y 2).isLt
  show k0_pay4 (iblk0 V c 0 t) (iblk0 V c 2 t) y
    = stageC (V c main_arg0) (V c main_v8) (((cfg0.win 4).blk t).view.emb y)
  refine (congrArg (k0_pay4 (iblk0 V c 0 t) (iblk0 V c 2 t)) (eq_ix3 (n0 := 1) (n1 := 256) (n2 := 512) y)).trans ?_
  refine (pay4_apply (iblk0 V c 0 t) (iblk0 V c 2 t) (y 0) (y 1) (y 2) ⟨(y 2).val, by omega⟩ rfl).trans ?_
  refine Eq.trans ?_ (stageC_at (V c main_arg0) (V c main_v8) (((cfg0.win 4).blk t).view.emb y)
    ⟨win0_3.index t (0 : Fin 3), by omega⟩ ⟨win0_3.index t (1 : Fin 3) * 256 + (y 1).val, by omega⟩
    ⟨(y 2).val, by omega⟩ ?_ ?_ ?_).symm
  · refine Finset.sum_congr rfl fun h _ => ?_
    refine congrArg₂ (· * ·) (blkX_apply V c t (y 0) (y 1) h _ ?_ ?_ ?_) (blkWkv_apply V c t h _)
    · show win0_0.index t (0 : Fin 3) * 1 + 1 * (y 0).val = win0_3.index t (0 : Fin 3); omega
    · show win0_0.index t (1 : Fin 3) * 256 + 1 * (y 1).val = win0_3.index t (1 : Fin 3) * 256 + (y 1).val; omega
    · show win0_0.index t (2 : Fin 3) * 4096 + 1 * h.val = h.val; omega
  · show win0_3.index t (0 : Fin 3) = win0_4.index t (0 : Fin 3) * 1 + 1 * (y 0).val; omega
  · show win0_3.index t (1 : Fin 3) * 256 + (y 1).val = win0_4.index t (1 : Fin 3) * 256 + 1 * (y 1).val; omega
  · show (y 2).val = win0_4.index t (2 : Fin 3) * 512 + 1 * (y 2).val; omega

/-- An index of the compressed key/value's array lies in a point's block iff each coordinate lies in the block's range. -/
theorem mem_blkC (t : Fin cfg0.N) (i : S2x4096x512.Idx) :
    i ∈ ((cfg0.win 4).blk t).view.set ↔ ∀ a : Fin 3, win0_4.index t a * S1x256x512.size a ≤ (i a).val
      ∧ (i a).val < win0_4.index t a * S1x256x512.size a + S1x256x512.size a := by
  show i ∈ ((View.whole main_v14_1).slice (win0_4.rect t)).set ↔ _
  rw [View.set_slice_whole, Rect.mem_set_unit]
  exact Iff.rfl

/-- Every index (b, s, k) lies in the block of the point (b, s / 256). -/
theorem coverC (i : S2x4096x512.Idx) :
    ∃ t : Fin cfg0.N, (cfg0.win 4).flush t = true ∧ i ∈ ((cfg0.win 4).blk t).view.set := by
  have hi0 : (i 0).val < 2 := (i 0).isLt
  have hi1 : (i 1).val < 4096 := (i 1).isLt
  have hi2 : (i 2).val < 512 := (i 2).isLt
  obtain ⟨t, q0, q1⟩ := idx_onto ⟨(i 0).val, hi0⟩ ⟨(i 1).val / 256, by omega⟩
  have q0' : win0_3.index t (0 : Fin 3) = (i 0).val := q0
  have q1' : win0_3.index t (1 : Fin 3) = (i 1).val / 256 := q1
  obtain ⟨-, -, -, -, -, -, -, -, -, -, c0, c1, c2, -⟩ := idx_facts t
  refine ⟨t, flush0_4 t, ?_⟩
  rw [mem_blkC]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 256 ≤ (i 1).val ∧ (i 1).val < win0_4.index t (1 : Fin 3) * 256 + 256
    omega
  | ⟨2, _⟩ =>
    show win0_4.index t (2 : Fin 3) * 512 ≤ (i 2).val ∧ (i 2).val < win0_4.index t (2 : Fin 3) * 512 + 512
    omega

/-- After the region the compressed key/value's array holds the first 512 columns of the rows of x against the
    [4096, 576] weight. -/
theorem region0_ckv (c : Dev nD) :
    (dat0 (F := Ideal) V c).arrAt 4 cfg0.N = stageC (V c main_arg0) (V c main_v8) :=
  (dat0 (F := Ideal) V c).arrAt_eq_of_cover 4 _ (fun t _ => flushedC_eq V c t) coverC

/-! ### The key's rotary part -/

/-- What a point writes back to the key's rotary part is its block of the product's last 64 columns. -/
theorem flushedK_eq (c : Dev nD) (t : Fin cfg0.N) :
    (dat0 (F := Ideal) V c).flushed 5 t
      = ((cfg0.win 5).blk t).view.read (Elt Ideal) (stageK (V c main_arg0) (V c main_v8)) := by
  show (cfg0.win 5).cut (grid0.coords t) ((dat0 (F := Ideal) V c).after 5 t) = _
  rw [after0_5]
  unfold out0_5
  rw [View.canon_unit_zero zeros3]
  simp only [View.ld_unit_zero (S := S1x256x4096) zeros3, View.ld_unit_zero (S := S4096x576) zeros2]
  obtain ⟨e0, e1, e2, -, -, -, -, b0, b1, -, -, -, -, d0, d1, d2⟩ := idx_facts t
  funext y
  have hy0 : (y 0).val < 1 := (y 0).isLt
  have hy1 : (y 1).val < 256 := (y 1).isLt
  have hy2 : (y 2).val < 64 := (y 2).isLt
  show k0_pay5 (iblk0 V c 0 t) (iblk0 V c 2 t) y
    = stageK (V c main_arg0) (V c main_v8) (((cfg0.win 5).blk t).view.emb y)
  refine (congrArg (k0_pay5 (iblk0 V c 0 t) (iblk0 V c 2 t)) (eq_ix3 (n0 := 1) (n1 := 256) (n2 := 64) y)).trans ?_
  refine (pay5_apply (iblk0 V c 0 t) (iblk0 V c 2 t) (y 0) (y 1) (y 2) ⟨512 + (y 2).val, by omega⟩ rfl).trans ?_
  refine Eq.trans ?_ (stageK_at (V c main_arg0) (V c main_v8) (((cfg0.win 5).blk t).view.emb y)
    ⟨win0_3.index t (0 : Fin 3), by omega⟩ ⟨win0_3.index t (1 : Fin 3) * 256 + (y 1).val, by omega⟩
    ⟨512 + (y 2).val, by omega⟩ ?_ ?_ ?_).symm
  · refine Finset.sum_congr rfl fun h _ => ?_
    refine congrArg₂ (· * ·) (blkX_apply V c t (y 0) (y 1) h _ ?_ ?_ ?_) (blkWkv_apply V c t h _)
    · show win0_0.index t (0 : Fin 3) * 1 + 1 * (y 0).val = win0_3.index t (0 : Fin 3); omega
    · show win0_0.index t (1 : Fin 3) * 256 + 1 * (y 1).val = win0_3.index t (1 : Fin 3) * 256 + (y 1).val; omega
    · show win0_0.index t (2 : Fin 3) * 4096 + 1 * h.val = h.val; omega
  · show win0_3.index t (0 : Fin 3) = win0_5.index t (0 : Fin 3) * 1 + 1 * (y 0).val; omega
  · show win0_3.index t (1 : Fin 3) * 256 + (y 1).val = win0_5.index t (1 : Fin 3) * 256 + 1 * (y 1).val; omega
  · show 512 + (y 2).val = 512 + (win0_5.index t (2 : Fin 3) * 64 + 1 * (y 2).val); omega

/-- An index of the rotary part's array lies in a point's block iff each coordinate lies in the block's range. -/
theorem mem_blkK (t : Fin cfg0.N) (i : S2x4096x64.Idx) :
    i ∈ ((cfg0.win 5).blk t).view.set ↔ ∀ a : Fin 3, win0_5.index t a * S1x256x64.size a ≤ (i a).val
      ∧ (i a).val < win0_5.index t a * S1x256x64.size a + S1x256x64.size a := by
  show i ∈ ((View.whole main_v14_2).slice (win0_5.rect t)).set ↔ _
  rw [View.set_slice_whole, Rect.mem_set_unit]
  exact Iff.rfl

/-- Every index (b, s, k) lies in the block of the point (b, s / 256). -/
theorem coverK (i : S2x4096x64.Idx) :
    ∃ t : Fin cfg0.N, (cfg0.win 5).flush t = true ∧ i ∈ ((cfg0.win 5).blk t).view.set := by
  have hi0 : (i 0).val < 2 := (i 0).isLt
  have hi1 : (i 1).val < 4096 := (i 1).isLt
  have hi2 : (i 2).val < 64 := (i 2).isLt
  obtain ⟨t, q0, q1⟩ := idx_onto ⟨(i 0).val, hi0⟩ ⟨(i 1).val / 256, by omega⟩
  have q0' : win0_3.index t (0 : Fin 3) = (i 0).val := q0
  have q1' : win0_3.index t (1 : Fin 3) = (i 1).val / 256 := q1
  obtain ⟨-, -, -, -, -, -, -, -, -, -, -, -, -, d0, d1, d2⟩ := idx_facts t
  refine ⟨t, flush0_5 t, ?_⟩
  rw [mem_blkK]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 256 ≤ (i 1).val ∧ (i 1).val < win0_5.index t (1 : Fin 3) * 256 + 256
    omega
  | ⟨2, _⟩ =>
    show win0_5.index t (2 : Fin 3) * 64 ≤ (i 2).val ∧ (i 2).val < win0_5.index t (2 : Fin 3) * 64 + 64
    omega

/-- After the region the rotary part's array holds the last 64 columns of the rows of x against the [4096, 576] weight. -/
theorem region0_kpe (c : Dev nD) :
    (dat0 (F := Ideal) V c).arrAt 5 cfg0.N = stageK (V c main_arg0) (V c main_v8) :=
  (dat0 (F := Ideal) V c).arrAt_eq_of_cover 5 _ (fun t _ => flushedK_eq V c t) coverK

end Cert.KernelIdeal.Region0
end
-- ==== Proof.Region1Aux.lean ====
/-
  One grid point of the up-projection kernel, read at an index.  The body's single store is a [1,128,6720] block whose row r
  is laid out as 32 heads of (128 plain ++ 64 rotated) query coordinates, then 64 rotated key coordinates, then 512
  compressed key/value coordinates.  Each piece is read at literal coordinates: the two matrix products as finite sums over
  the 1536 contraction coordinates, the reshapes by row-major arithmetic, the half-rotation  (−f[32:], f[:32])  by the two
  slices and their concatenation, and 0 − x = −x on the extended reals.
-/
import proofs.«101971_j72584947302731_2_alg».proof.Proof.Gen.KernelIdeal.Frame
import proofs.«101971_j72584947302731_2_alg».proof.Proof.Spec
import Idealize.ShloMosaic.Lib.Pipeline.Value
import Idealize.ShloMosaic.Lib.ValueIdx
import Idealize.ShloMosaic.PureOps.Ideal.Laws

noncomputable section
open Idealize.ShloMosaic Idealize.ShloMosaic.TcCoe Idealize.SL.Sem Idealize.ShloMosaic.ValueIdx Idealize.ShloMosaic.Pipeline
open Cert.KernelIdeal Cert.KernelIdeal.Gen Cert.RopeProj

namespace Cert.KernelIdeal.Region1

/-- The compressed key/value block with its unit batch axis dropped. -/
theorem pay9_apply (x1 : Vec Ideal S1x128x512 .f32) (r : Fin 128) (e : Fin 512) :
    k1_pay9 x1 (ix2 r e) = x1 (ix3 ⟨0, Nat.one_pos⟩ r e) := by
  unfold k1_pay9
  refine (shapeCast_dropUnit_apply ![128, 512] x1 _ _).trans ?_
  refine congrArg x1 (funext fun a => ?_)
  match a with
  | ⟨0, _⟩ => rfl
  | ⟨1, _⟩ => rfl
  | ⟨2, _⟩ => rfl

/-- The low-rank query rows with their unit batch axis dropped. -/
theorem pay2_apply (x0 : Vec Ideal S1x128x1536 .bf16) (r : Fin 128) (k : Fin 1536) :
    k1_pay2 x0 (ix2 r k) = x0 (ix3 ⟨0, Nat.one_pos⟩ r k) := by
  unfold k1_pay2
  refine (shapeCast_dropUnit_apply ![128, 1536] x0 _ _).trans ?_
  refine congrArg x0 (funext fun a => ?_)
  match a with
  | ⟨0, _⟩ => rfl
  | ⟨1, _⟩ => rfl
  | ⟨2, _⟩ => rfl

theorem dotn_lhs0 (i : S128x4096.Idx) (q : dot_S128x1536_S1536x4096_S128x4096_1_0_0_1_n_n.contr.Idx) : (dot_S128x1536_S1536x4096_S128x4096_1_0_0_1_n_n.lhsIdx i q 0).val = (i 0).val := by
  unfold DotDims.lhsIdx
  rw [dif_neg (show ¬(0 : Fin S128x1536.rank) ∈ dot_S128x1536_S1536x4096_S128x4096_1_0_0_1_n_n.lhsBatch by decide), dif_pos (show (0 : Fin S128x1536.rank) ∈ dot_S128x1536_S1536x4096_S128x4096_1_0_0_1_n_n.lhsNonContracting by decide)]
  rfl
theorem dotn_lhs1 (i : S128x4096.Idx) (q : dot_S128x1536_S1536x4096_S128x4096_1_0_0_1_n_n.contr.Idx) : (dot_S128x1536_S1536x4096_S128x4096_1_0_0_1_n_n.lhsIdx i q 1).val = (q ⟨0, by decide⟩).val :=
  dot_S128x1536_S1536x4096_S128x4096_1_0_0_1_n_n.lhsIdx_val_of_single rfl i q
theorem dotn_rhs0 (i : S128x4096.Idx) (q : dot_S128x1536_S1536x4096_S128x4096_1_0_0_1_n_n.contr.Idx) : (dot_S128x1536_S1536x4096_S128x4096_1_0_0_1_n_n.rhsIdx i q 0).val = (q ⟨0, by decide⟩).val :=
  dot_S128x1536_S1536x4096_S128x4096_1_0_0_1_n_n.rhsIdx_val_of_single rfl i q
theorem dotn_rhs1 (i : S128x4096.Idx) (q : dot_S128x1536_S1536x4096_S128x4096_1_0_0_1_n_n.contr.Idx) : (dot_S128x1536_S1536x4096_S128x4096_1_0_0_1_n_n.rhsIdx i q 1).val = (i 1).val := by
  unfold DotDims.rhsIdx
  rw [dif_neg (show ¬(1 : Fin S1536x4096.rank) ∈ dot_S128x1536_S1536x4096_S128x4096_1_0_0_1_n_n.rhsBatch by decide), dif_pos (show (1 : Fin S1536x4096.rank) ∈ dot_S128x1536_S1536x4096_S128x4096_1_0_0_1_n_n.rhsNonContracting by decide)]
  rfl

/-- The plain query coordinates: rows of the low-rank query against the first up-projection weight, the 4096 columns read
    as 32 heads of 128. -/
theorem pay3_apply (x0 : Vec Ideal S1x128x1536 .bf16) (x4 : Vec Ideal S1536x4096 .bf16) (r : Fin 128) (hd : Fin 32) (j : Fin 128) :
    k1_pay3 x0 x4 (ix3 r hd j)
      = ∑ k : Fin 1536, x0 (ix3 ⟨0, Nat.one_pos⟩ r k) * x4 (ix2 k ⟨hd.val * 128 + j.val, by omega⟩) := by
  unfold k1_pay3
  refine (shapeCast_apply _ _ (ix3 r hd j) (ix2 r ⟨hd.val * 128 + j.val, by omega⟩) ?_).trans ?_
  · rw [Shape.rowMajor_val_two, Shape.rowMajor_val_three]
    show r.val * 4096 + (hd.val * 128 + j.val) = (r.val * 32 + hd.val) * 128 + j.val
    omega
  refine (Ideal.matmul_constant_zero_apply dot_S128x1536_S1536x4096_S128x4096_1_0_0_1_n_n none _ _ _).trans ?_
  rw [← Equiv.sum_comp (contrEquiv1 dot_S128x1536_S1536x4096_S128x4096_1_0_0_1_n_n 1536 rfl rfl).symm]
  refine Finset.sum_congr rfl fun k _ => ?_
  have hk := contrEquiv1_symm_val dot_S128x1536_S1536x4096_S128x4096_1_0_0_1_n_n 1536 rfl rfl k
  have el : dot_S128x1536_S1536x4096_S128x4096_1_0_0_1_n_n.lhsIdx (ix2 r ⟨hd.val * 128 + j.val, by omega⟩)
      ((contrEquiv1 dot_S128x1536_S1536x4096_S128x4096_1_0_0_1_n_n 1536 rfl rfl).symm k) = ix2 r k :=
    funext fun a => Fin.ext (by
      match a with
      | ⟨0, _⟩ => exact dotn_lhs0 _ _
      | ⟨1, _⟩ => exact (dotn_lhs1 _ _).trans hk)
  have er : dot_S128x1536_S1536x4096_S128x4096_1_0_0_1_n_n.rhsIdx (ix2 r ⟨hd.val * 128 + j.val, by omega⟩)
      ((contrEquiv1 dot_S128x1536_S1536x4096_S128x4096_1_0_0_1_n_n 1536 rfl rfl).symm k) = ix2 k ⟨hd.val * 128 + j.val, by omega⟩ :=
    funext fun a => Fin.ext (by
      match a with
      | ⟨0, _⟩ => exact (dotn_rhs0 _ _).trans hk
      | ⟨1, _⟩ => exact dotn_rhs1 _ _)
  rw [el, er, pay2_apply, shapeCast_self]

/-- The cosine half of the packed (cos ++ sin) block. -/
theorem pay5_apply (x3 : Vec Ideal S1x128x128 .f32) (r : Fin 128) (d : Fin 64) :
    k1_pay5 x3 (ix2 r d) = x3 (ix3 ⟨0, Nat.one_pos⟩ r ⟨d.val, by omega⟩) := by
  unfold k1_pay5
  refine (extractStridedSlice_apply _ _ _ (ix2 r d) (ix2 r ⟨d.val, by omega⟩) ?_).trans ?_
  · intro a
    match a with
    | ⟨0, _⟩ => show r.val = 0 + r.val; omega
    | ⟨1, _⟩ => show d.val = 0 + d.val; omega
  unfold k1_pay4
  refine (shapeCast_dropUnit_apply ![128, 128] x3 _ _).trans ?_
  refine congrArg x3 (funext fun a => ?_)
  match a with
  | ⟨0, _⟩ => rfl
  | ⟨1, _⟩ => rfl
  | ⟨2, _⟩ => rfl

/-- The sine half of the packed (cos ++ sin) block. -/
theorem pay6_apply (x3 : Vec Ideal S1x128x128 .f32) (r : Fin 128) (d : Fin 64) :
    k1_pay6 x3 (ix2 r d) = x3 (ix3 ⟨0, Nat.one_pos⟩ r ⟨64 + d.val, by omega⟩) := by
  unfold k1_pay6
  refine (extractStridedSlice_apply _ _ _ (ix2 r d) (ix2 r ⟨64 + d.val, by omega⟩) ?_).trans ?_
  · intro a
    match a with
    | ⟨0, _⟩ => show r.val = 0 + r.val; omega
    | ⟨1, _⟩ => show 64 + d.val = 64 + d.val; rfl
  unfold k1_pay4
  refine (shapeCast_dropUnit_apply ![128, 128] x3 _ _).trans ?_
  refine congrArg x3 (funext fun a => ?_)
  match a with
  | ⟨0, _⟩ => rfl
  | ⟨1, _⟩ => rfl
  | ⟨2, _⟩ => rfl

/-- The half-rotation of the rows of a [128,64] block: the upper half negated in front of the lower half. -/
theorem rot2_apply (v : FVec Ideal S128x64 .f32) (r : Fin 128) (d : Fin 64) :
    concatenate S128x64 1
        [⟨S128x32, subf (broadcast S128x32 (Scalar.ofBits .f32 0x00000000#32 : Ideal .f32))
            (extractStridedSlice S128x32 ![0, 32] v slices_S128x64_o0_32_S128x32)⟩,
          ⟨S128x32, extractStridedSlice S128x32 ![0, 0] v slices_S128x64_o0_0_S128x32⟩]
        concatenates_S128x32_S128x32_S128x64_d1 (ix2 r d)
      = if h : d.val < 32 then -(v (ix2 r ⟨32 + d.val, by omega⟩)) else v (ix2 r ⟨d.val - 32, by omega⟩) := by
  by_cases h : d.val < 32
  · rw [dif_pos h]
    refine (concatenate_pair_apply_left (t := S128x64) (s₁ := S128x32) (s₂ := S128x32) 1 _ _ concatenates_S128x32_S128x32_S128x64_d1 (ix2 r d) rfl (ix2 r ⟨d.val, h⟩) ?_).trans ?_
    · intro b
      match b with
      | ⟨0, _⟩ => rfl
      | ⟨1, _⟩ => rfl
    show Ideal.ofBits .f32 0x00000000#32 - extractStridedSlice S128x32 ![0, 32] v slices_S128x64_o0_32_S128x32 (ix2 r ⟨d.val, h⟩) = _
    rw [Ideal.ofBits_zero_f32, zero_sub]
    refine congrArg Neg.neg ?_
    refine extractStridedSlice_apply _ _ _ _ _ ?_
    intro a
    match a with
    | ⟨0, _⟩ => show r.val = 0 + r.val; omega
    | ⟨1, _⟩ => show 32 + d.val = 32 + d.val; rfl
  · rw [dif_neg h]
    refine (concatenate_pair_apply_right (t := S128x64) (s₁ := S128x32) (s₂ := S128x32) 1 _ _ concatenates_S128x32_S128x32_S128x64_d1 (ix2 r d) rfl rfl (ix2 r ⟨d.val - 32, by omega⟩) ?_ ?_).trans ?_
    · intro b hb
      match b with
      | ⟨0, _⟩ => rfl
      | ⟨1, _⟩ => exact absurd rfl hb
    · show d.val - 32 + 32 = d.val
      omega
    refine extractStridedSlice_apply _ _ _ _ _ ?_
    intro a
    match a with
    | ⟨0, _⟩ => show r.val = 0 + r.val; omega
    | ⟨1, _⟩ => show d.val - 32 = 0 + (d.val - 32); omega

/-- The rotated key coordinates: the key's rotary part times cos plus its half-rotation times sin. -/
theorem pay8_apply (x3 : Vec Ideal S1x128x128 .f32) (x2 : Vec Ideal S1x128x64 .f32) (r : Fin 128) (d : Fin 64) :
    k1_pay8 x3 x2 (ix2 r d)
      = x2 (ix3 ⟨0, Nat.one_pos⟩ r d) * x3 (ix3 ⟨0, Nat.one_pos⟩ r ⟨d.val, by omega⟩)
        + (if h : d.val < 32 then -(x2 (ix3 ⟨0, Nat.one_pos⟩ r ⟨32 + d.val, by omega⟩)) else x2 (ix3 ⟨0, Nat.one_pos⟩ r ⟨d.val - 32, by omega⟩))
          * x3 (ix3 ⟨0, Nat.one_pos⟩ r ⟨64 + d.val, by omega⟩) := by
  have e27 : ∀ d' : Fin 64, shapeCast S128x64 x2 shapeCasts_S1x128x64_S128x64 (ix2 r d') = x2 (ix3 ⟨0, Nat.one_pos⟩ r d') := fun d' => by
    refine (shapeCast_dropUnit_apply ![128, 64] x2 _ _).trans ?_
    refine congrArg x2 (funext fun a => ?_)
    match a with
    | ⟨0, _⟩ => rfl
    | ⟨1, _⟩ => rfl
    | ⟨2, _⟩ => rfl
  unfold k1_pay8
  refine (addf_apply _ _ _).trans ?_
  refine congrArg₂ (· + ·) ((mulf_apply _ _ _).trans (congrArg₂ (· * ·) (e27 d) (pay5_apply x3 r d)))
    ((mulf_apply _ _ _).trans (congrArg₂ (· * ·) ?_ (pay6_apply x3 r d)))
  refine (rot2_apply _ r d).trans ?_
  by_cases h : d.val < 32
  · rw [dif_pos h, dif_pos h, e27]
  · rw [dif_neg h, dif_neg h, e27]

theorem dotr_lhs0 (i : S128x2048.Idx) (q : dot_S128x1536_S1536x2048_S128x2048_1_0_0_1_n_n.contr.Idx) : (dot_S128x1536_S1536x2048_S128x2048_1_0_0_1_n_n.lhsIdx i q 0).val = (i 0).val := by
  unfold DotDims.lhsIdx
  rw [dif_neg (show ¬(0 : Fin S128x1536.rank) ∈ dot_S128x1536_S1536x2048_S128x2048_1_0_0_1_n_n.lhsBatch by decide), dif_pos (show (0 : Fin S128x1536.rank) ∈ dot_S128x1536_S1536x2048_S128x2048_1_0_0_1_n_n.lhsNonContracting by decide)]
  rfl
theorem dotr_lhs1 (i : S128x2048.Idx) (q : dot_S128x1536_S1536x2048_S128x2048_1_0_0_1_n_n.contr.Idx) : (dot_S128x1536_S1536x2048_S128x2048_1_0_0_1_n_n.lhsIdx i q 1).val = (q ⟨0, by decide⟩).val :=
  dot_S128x1536_S1536x2048_S128x2048_1_0_0_1_n_n.lhsIdx_val_of_single rfl i q
theorem dotr_rhs0 (i : S128x2048.Idx) (q : dot_S128x1536_S1536x2048_S128x2048_1_0_0_1_n_n.contr.Idx) : (dot_S128x1536_S1536x2048_S128x2048_1_0_0_1_n_n.rhsIdx i q 0).val = (q ⟨0, by decide⟩).val :=
  dot_S128x1536_S1536x2048_S128x2048_1_0_0_1_n_n.rhsIdx_val_of_single rfl i q
theorem dotr_rhs1 (i : S128x2048.Idx) (q : dot_S128x1536_S1536x2048_S128x2048_1_0_0_1_n_n.contr.Idx) : (dot_S128x1536_S1536x2048_S128x2048_1_0_0_1_n_n.rhsIdx i q 1).val = (i 1).val := by
  unfold DotDims.rhsIdx
  rw [dif_neg (show ¬(1 : Fin S1536x2048.rank) ∈ dot_S128x1536_S1536x2048_S128x2048_1_0_0_1_n_n.rhsBatch by decide), dif_pos (show (1 : Fin S1536x2048.rank) ∈ dot_S128x1536_S1536x2048_S128x2048_1_0_0_1_n_n.rhsNonContracting by decide)]
  rfl

/-- The un-rotated rotary query coordinates: rows of the low-rank query against the second up-projection weight, the 2048
    columns read as 32 heads of 64. -/
def qrv (x0 : Vec Ideal S1x128x1536 .bf16) (x5 : Vec Ideal S1536x2048 .bf16) : FVec Ideal S128x32x64 .f32 :=
  shapeCast S128x32x64
    (matmul dot_S128x1536_S1536x2048_S128x2048_1_0_0_1_n_n none (k1_pay2 x0) (shapeCast S1536x2048 x5 shapeCasts_S1536x2048_S1536x2048 : FVec Ideal S1536x2048 .bf16)
      (constant S128x2048 .f32 0x00000000#32))
    shapeCasts_S128x2048_S128x32x64

theorem qrv_apply (x0 : Vec Ideal S1x128x1536 .bf16) (x5 : Vec Ideal S1536x2048 .bf16) (r : Fin 128) (hd : Fin 32) (d : Fin 64) :
    qrv x0 x5 (ix3 r hd d)
      = ∑ k : Fin 1536, x0 (ix3 ⟨0, Nat.one_pos⟩ r k) * x5 (ix2 k ⟨hd.val * 64 + d.val, by omega⟩) := by
  unfold qrv
  refine (shapeCast_apply _ _ (ix3 r hd d) (ix2 r ⟨hd.val * 64 + d.val, by omega⟩) ?_).trans ?_
  · rw [Shape.rowMajor_val_two, Shape.rowMajor_val_three]
    show r.val * 2048 + (hd.val * 64 + d.val) = (r.val * 32 + hd.val) * 64 + d.val
    omega
  refine (Ideal.matmul_constant_zero_apply dot_S128x1536_S1536x2048_S128x2048_1_0_0_1_n_n none _ _ _).trans ?_
  rw [← Equiv.sum_comp (contrEquiv1 dot_S128x1536_S1536x2048_S128x2048_1_0_0_1_n_n 1536 rfl rfl).symm]
  refine Finset.sum_congr rfl fun k _ => ?_
  have hk := contrEquiv1_symm_val dot_S128x1536_S1536x2048_S128x2048_1_0_0_1_n_n 1536 rfl rfl k
  have el : dot_S128x1536_S1536x2048_S128x2048_1_0_0_1_n_n.lhsIdx (ix2 r ⟨hd.val * 64 + d.val, by omega⟩)
      ((contrEquiv1 dot_S128x1536_S1536x2048_S128x2048_1_0_0_1_n_n 1536 rfl rfl).symm k) = ix2 r k :=
    funext fun a => Fin.ext (by
      match a with
      | ⟨0, _⟩ => exact dotr_lhs0 _ _
      | ⟨1, _⟩ => exact (dotr_lhs1 _ _).trans hk)
  have er : dot_S128x1536_S1536x2048_S128x2048_1_0_0_1_n_n.rhsIdx (ix2 r ⟨hd.val * 64 + d.val, by omega⟩)
      ((contrEquiv1 dot_S128x1536_S1536x2048_S128x2048_1_0_0_1_n_n 1536 rfl rfl).symm k) = ix2 k ⟨hd.val * 64 + d.val, by omega⟩ :=
    funext fun a => Fin.ext (by
      match a with
      | ⟨0, _⟩ => exact (dotr_rhs0 _ _).trans hk
      | ⟨1, _⟩ => exact dotr_rhs1 _ _)
  rw [el, er, pay2_apply, shapeCast_self]

/-- A [128,64] block repeated over the 32 heads. -/
theorem bcast_apply (w : FVec Ideal S128x64 .f32) (r : Fin 128) (hd : Fin 32) (d : Fin 64) :
    broadcastTo S128x32x64 (shapeCast S128x1x64 w shapeCasts_S128x64_S128x1x64) broadcasts_S128x1x64_S128x32x64 (ix3 r hd d)
      = w (ix2 r d) := by
  refine (broadcastTo_apply _ _ (ix3 r hd d) (ix3 r ⟨0, Nat.one_pos⟩ d) ?_).trans ?_
  · intro a
    match a with
    | ⟨0, _⟩ => rfl
    | ⟨1, _⟩ => rfl
    | ⟨2, _⟩ => rfl
  refine shapeCast_apply _ _ _ (ix2 r d) ?_
  rw [Shape.rowMajor_val_two, Shape.rowMajor_val_three]
  show r.val * 64 + d.val = (r.val * 1 + 0) * 64 + d.val
  omega

/-- The half-rotation along the last axis of a [128,32,64] block: the upper half negated in front of the lower half. -/
theorem rot3_apply (v : FVec Ideal S128x32x64 .f32) (r : Fin 128) (hd : Fin 32) (d : Fin 64) :
    concatenate S128x32x64 2
        [⟨S128x32x32, subf (broadcast S128x32x32 (Scalar.ofBits .f32 0x00000000#32 : Ideal .f32))
            (extractStridedSlice S128x32x32 ![0, 0, 32] v slices_S128x32x64_o0_0_32_S128x32x32)⟩,
          ⟨S128x32x32, extractStridedSlice S128x32x32 ![0, 0, 0] v slices_S128x32x64_o0_0_0_S128x32x32⟩]
        concatenates_S128x32x32_S128x32x32_S128x32x64_d2 (ix3 r hd d)
      = if h : d.val < 32 then -(v (ix3 r hd ⟨32 + d.val, by omega⟩)) else v (ix3 r hd ⟨d.val - 32, by omega⟩) := by
  by_cases h : d.val < 32
  · rw [dif_pos h]
    refine (concatenate_pair_apply_left (t := S128x32x64) (s₁ := S128x32x32) (s₂ := S128x32x32) 2 _ _ concatenates_S128x32x32_S128x32x32_S128x32x64_d2 (ix3 r hd d) rfl (ix3 r hd ⟨d.val, h⟩) ?_).trans ?_
    · intro b
      match b with
      | ⟨0, _⟩ => rfl
      | ⟨1, _⟩ => rfl
      | ⟨2, _⟩ => rfl
    show Ideal.ofBits .f32 0x00000000#32 - extractStridedSlice S128x32x32 ![0, 0, 32] v slices_S128x32x64_o0_0_32_S128x32x32 (ix3 r hd ⟨d.val, h⟩) = _
    rw [Ideal.ofBits_zero_f32, zero_sub]
    refine congrArg Neg.neg ?_
    refine extractStridedSlice_apply _ _ _ _ _ ?_
    intro a
    match a with
    | ⟨0, _⟩ => show r.val = 0 + r.val; omega
    | ⟨1, _⟩ => show hd.val = 0 + hd.val; omega
    | ⟨2, _⟩ => show 32 + d.val = 32 + d.val; rfl
  · rw [dif_neg h]
    refine (concatenate_pair_apply_right (t := S128x32x64) (s₁ := S128x32x32) (s₂ := S128x32x32) 2 _ _ concatenates_S128x32x32_S128x32x32_S128x32x64_d2 (ix3 r hd d) rfl rfl (ix3 r hd ⟨d.val - 32, by omega⟩) ?_ ?_).trans ?_
    · intro b hb
      match b with
      | ⟨0, _⟩ => rfl
      | ⟨1, _⟩ => rfl
      | ⟨2, _⟩ => exact absurd rfl hb
    · show d.val - 32 + 32 = d.val
      omega
    refine extractStridedSlice_apply _ _ _ _ _ ?_
    intro a
    match a with
    | ⟨0, _⟩ => show r.val = 0 + r.val; omega
    | ⟨1, _⟩ => show hd.val = 0 + hd.val; omega
    | ⟨2, _⟩ => show d.val - 32 = 0 + (d.val - 32); omega

/-- The rotated query coordinates: per head, the rotary part times cos plus its half-rotation times sin. -/
theorem pay7_apply (x0 : Vec Ideal S1x128x1536 .bf16) (x5 : Vec Ideal S1536x2048 .bf16) (x3 : Vec Ideal S1x128x128 .f32)
    (r : Fin 128) (hd : Fin 32) (d : Fin 64) :
    k1_pay7 x0 x5 x3 (ix3 r hd d)
      = (∑ k : Fin 1536, x0 (ix3 ⟨0, Nat.one_pos⟩ r k) * x5 (ix2 k ⟨hd.val * 64 + d.val, by omega⟩)) * x3 (ix3 ⟨0, Nat.one_pos⟩ r ⟨d.val, by omega⟩)
        + (if h : d.val < 32 then -(∑ k : Fin 1536, x0 (ix3 ⟨0, Nat.one_pos⟩ r k) * x5 (ix2 k ⟨hd.val * 64 + (32 + d.val), by omega⟩))
            else ∑ k : Fin 1536, x0 (ix3 ⟨0, Nat.one_pos⟩ r k) * x5 (ix2 k ⟨hd.val * 64 + (d.val - 32), by omega⟩))
          * x3 (ix3 ⟨0, Nat.one_pos⟩ r ⟨64 + d.val, by omega⟩) := by
  have e : k1_pay7 x0 x5 x3
      = addf (mulf (qrv x0 x5) (broadcastTo S128x32x64 (shapeCast S128x1x64 (k1_pay5 x3) shapeCasts_S128x64_S128x1x64) broadcasts_S128x1x64_S128x32x64))
          (mulf (concatenate S128x32x64 2
              [⟨S128x32x32, subf (broadcast S128x32x32 (Scalar.ofBits .f32 0x00000000#32 : Ideal .f32))
                  (extractStridedSlice S128x32x32 ![0, 0, 32] (qrv x0 x5) slices_S128x32x64_o0_0_32_S128x32x32)⟩,
                ⟨S128x32x32, extractStridedSlice S128x32x32 ![0, 0, 0] (qrv x0 x5) slices_S128x32x64_o0_0_0_S128x32x32⟩]
              concatenates_S128x32x32_S128x32x32_S128x32x64_d2)
            (broadcastTo S128x32x64 (shapeCast S128x1x64 (k1_pay6 x3) shapeCasts_S128x64_S128x1x64) broadcasts_S128x1x64_S128x32x64)) := rfl
  rw [e]
  refine (addf_apply _ _ _).trans ?_
  refine congrArg₂ (· + ·)
    ((mulf_apply _ _ _).trans (congrArg₂ (· * ·) (qrv_apply x0 x5 r hd d) ((bcast_apply _ r hd d).trans (pay5_apply x3 r d))))
    ((mulf_apply _ _ _).trans (congrArg₂ (· * ·) ?_ ((bcast_apply _ r hd d).trans (pay6_apply x3 r d))))
  refine (rot3_apply _ r hd d).trans ?_
  by_cases h : d.val < 32
  · rw [dif_pos h, dif_pos h, qrv_apply]
  · rw [dif_neg h, dif_neg h, qrv_apply]

/-- A row of the flat [128,6720] block is its three pieces side by side. -/
theorem cat3_apply (W : FVec Ideal S128x6144 .f32) (C : FVec Ideal S128x64 .f32) (D : FVec Ideal S128x512 .f32)
    (r : Fin 128) (o : Fin 6720) :
    concatenate S128x6720 1 [⟨S128x6144, W⟩, ⟨S128x64, C⟩, ⟨S128x512, D⟩]
        concatenates_S128x6144_S128x64_S128x512_S128x6720_d1 (ix2 r o)
      = if h1 : o.val < 6144 then W (ix2 r ⟨o.val, h1⟩)
        else if h3 : o.val < 6208 then C (ix2 r ⟨o.val - 6144, by omega⟩)
        else D (ix2 r ⟨o.val - 6208, by omega⟩) := by
  have ho : o.val < 6720 := o.isLt
  by_cases h1 : o.val < 6144
  · rw [dif_pos h1]
    refine concatenate_apply_piece (t := S128x6720) 1 [⟨S128x6144, W⟩, ⟨S128x64, C⟩, ⟨S128x512, D⟩] concatenates_S128x6144_S128x64_S128x512_S128x6720_d1 (ix2 r o) 0 (by simp) S128x6144 W rfl rfl 0 rfl
      (ix2 r ⟨o.val, h1⟩) ?_ ?_
    · intro b hb
      match b with
      | ⟨0, _⟩ => rfl
      | ⟨1, _⟩ => exact absurd rfl hb
    · show 0 + o.val = o.val
      omega
  · rw [dif_neg h1]
    by_cases h3 : o.val < 6208
    · rw [dif_pos h3]
      refine concatenate_apply_piece (t := S128x6720) 1 [⟨S128x6144, W⟩, ⟨S128x64, C⟩, ⟨S128x512, D⟩] concatenates_S128x6144_S128x64_S128x512_S128x6720_d1 (ix2 r o) 1 (by simp) S128x64 C rfl rfl 6144 rfl
        (ix2 r ⟨o.val - 6144, by omega⟩) ?_ ?_
      · intro b hb
        match b with
        | ⟨0, _⟩ => rfl
        | ⟨1, _⟩ => exact absurd rfl hb
      · show 6144 + (o.val - 6144) = o.val
        omega
    · rw [dif_neg h3]
      refine concatenate_apply_piece (t := S128x6720) 1 [⟨S128x6144, W⟩, ⟨S128x64, C⟩, ⟨S128x512, D⟩] concatenates_S128x6144_S128x64_S128x512_S128x6720_d1 (ix2 r o) 2 (by simp) S128x512 D rfl rfl 6208 rfl
        (ix2 r ⟨o.val - 6208, by omega⟩) ?_ ?_
      · intro b hb
        match b with
        | ⟨0, _⟩ => rfl
        | ⟨1, _⟩ => exact absurd rfl hb
      · show 6208 + (o.val - 6208) = o.val
        omega

/-- One head's 192 coordinates are its 128 plain ones then its 64 rotated ones. -/
theorem cat2_apply (A : FVec Ideal S128x32x128 .f32) (B : FVec Ideal S128x32x64 .f32) (r : Fin 128) (hd : Fin 32) (e : Fin 192) :
    concatenate S128x32x192 2 [⟨S128x32x128, A⟩, ⟨S128x32x64, B⟩] concatenates_S128x32x128_S128x32x64_S128x32x192_d2 (ix3 r hd e)
      = if h2 : e.val < 128 then A (ix3 r hd ⟨e.val, h2⟩) else B (ix3 r hd ⟨e.val - 128, by omega⟩) := by
  have he : e.val < 192 := e.isLt
  by_cases h2 : e.val < 128
  · rw [dif_pos h2]
    refine concatenate_pair_apply_left (t := S128x32x192) 2 A B concatenates_S128x32x128_S128x32x64_S128x32x192_d2 (ix3 r hd e) rfl (ix3 r hd ⟨e.val, h2⟩) ?_
    intro b
    match b with
    | ⟨0, _⟩ => rfl
    | ⟨1, _⟩ => rfl
    | ⟨2, _⟩ => rfl
  · rw [dif_neg h2]
    refine concatenate_pair_apply_right (t := S128x32x192) 2 A B concatenates_S128x32x128_S128x32x64_S128x32x192_d2 (ix3 r hd e) rfl rfl (ix3 r hd ⟨e.val - 128, by omega⟩) ?_ ?_
    · intro b hb
      match b with
      | ⟨0, _⟩ => rfl
      | ⟨1, _⟩ => rfl
      | ⟨2, _⟩ => exact absurd rfl hb
    · show e.val - 128 + 128 = e.val
      omega

/-- The stored row, piece by piece: 32 heads of (128 plain ++ 64 rotated) query coordinates laid flat, then the 64 rotated key
    coordinates, then the 512 compressed key/value coordinates. -/
theorem pay1_apply (A : FVec Ideal S128x32x128 .f32) (B : FVec Ideal S128x32x64 .f32) (C : FVec Ideal S128x64 .f32)
    (D : FVec Ideal S128x512 .f32) (r : Fin 128) (o : Fin 6720) :
    k1_pay1 A B C D (ix3 ⟨0, Nat.one_pos⟩ r o)
      = if h1 : o.val < 6144 then
          if h2 : o.val % 192 < 128 then A (ix3 r ⟨o.val / 192, by omega⟩ ⟨o.val % 192, h2⟩)
          else B (ix3 r ⟨o.val / 192, by omega⟩ ⟨o.val % 192 - 128, by omega⟩)
        else if h3 : o.val < 6208 then C (ix2 r ⟨o.val - 6144, by omega⟩)
        else D (ix2 r ⟨o.val - 6208, by omega⟩) := by
  unfold k1_pay1
  refine (shapeCast_addUnit_apply ![128, 6720] _ _ _).trans ?_
  have ei : (fun a : Fin 2 => (ix3 (n0 := 1) (n1 := 128) (n2 := 6720) ⟨0, Nat.one_pos⟩ r o) a.succ) = ix2 r o :=
    funext fun a => by
      match a with
      | ⟨0, _⟩ => rfl
      | ⟨1, _⟩ => rfl
  refine (congrArg _ ei).trans ?_
  refine (cat3_apply _ C D r o).trans ?_
  have ho : o.val < 6720 := o.isLt
  by_cases h1 : o.val < 6144
  · rw [dif_pos h1, dif_pos h1]
    refine (shapeCast_apply _ _ (ix2 r ⟨o.val, h1⟩) (ix3 r ⟨o.val / 192, by omega⟩ ⟨o.val % 192, Nat.mod_lt _ (by decide)⟩) ?_).trans ?_
    · rw [Shape.rowMajor_val_two, Shape.rowMajor_val_three]
      show (r.val * 32 + o.val / 192) * 192 + o.val % 192 = r.val * 6144 + o.val
      omega
    exact cat2_apply A B r _ _
  · rw [dif_neg h1, dif_neg h1]

/-- One row of the stored block is the specification's row of its parts: the two projections of the low-rank query row,
    the key's rotary part, the compressed key/value row, and the cos and sin halves of the packed row. -/
theorem block_row (x0 : Vec Ideal S1x128x1536 .bf16) (x1 : Vec Ideal S1x128x512 .f32) (x2 : Vec Ideal S1x128x64 .f32)
    (x3 : Vec Ideal S1x128x128 .f32) (x4 : Vec Ideal S1536x4096 .bf16) (x5 : Vec Ideal S1536x2048 .bf16)
    (r : Fin 128) (o : Fin 6720) :
    k1_pay1 (k1_pay3 x0 x4) (k1_pay7 x0 x5 x3) (k1_pay8 x3 x2) (k1_pay9 x1) (ix3 ⟨0, Nat.one_pos⟩ r o)
      = row (fun hd j => ∑ k : Fin 1536, x0 (ix3 ⟨0, Nat.one_pos⟩ r k) * x4 (ix2 k ⟨hd.val * 128 + j.val, by omega⟩))
          (fun hd d => ∑ k : Fin 1536, x0 (ix3 ⟨0, Nat.one_pos⟩ r k) * x5 (ix2 k ⟨hd.val * 64 + d.val, by omega⟩))
          (fun d => x2 (ix3 ⟨0, Nat.one_pos⟩ r d)) (fun e => x1 (ix3 ⟨0, Nat.one_pos⟩ r e))
          (fun d => x3 (ix3 ⟨0, Nat.one_pos⟩ r ⟨d.val, by omega⟩)) (fun d => x3 (ix3 ⟨0, Nat.one_pos⟩ r ⟨64 + d.val, by omega⟩)) o := by
  rw [pay1_apply]
  unfold row
  by_cases h1 : o.val < 6144
  · rw [dif_pos h1, dif_pos h1]
    by_cases h2 : o.val % 192 < 128
    · rw [dif_pos h2, dif_pos h2]
      exact pay3_apply x0 x4 r _ _
    · rw [dif_neg h2, dif_neg h2]
      refine (pay7_apply x0 x5 x3 r _ _).trans ?_
      unfold rope rot
      rfl
  · rw [dif_neg h1, dif_neg h1]
    by_cases h3 : o.val < 6208
    · rw [dif_pos h3, dif_pos h3]
      refine (pay8_apply x3 x2 r _).trans ?_
      unfold rope rot
      rfl
    · rw [dif_neg h3, dif_neg h3]
      exact pay9_apply x1 r _

end Cert.KernelIdeal.Region1
end
-- ==== Proof.Region1.lean ====
/-
  The second region, whole: what the result array holds after the up-projection kernel has run over its 2 × 32 grid.
  Point (b, s) loads rows 128 s … 128 s + 127 of batch entry b of the low-rank query, the compressed key/value, the key's
  rotary part and the packed (cos ++ sin) rows, and the two up-projection weights whole, and stores rows 128 s … 128 s + 127 of
  batch entry b of the result.  Each stored element is the specification's second stage at the array index under it, the
  blocks of the 64 points tile the [2,4096,6720] array, so the array ends holding the second stage of the six arrays the
  region is entered with.
-/
import proofs.«101971_j72584947302731_2_alg».proof.Proof.Region1Aux

noncomputable section
open Idealize.ShloMosaic Idealize.ShloMosaic.TcCoe Idealize.SL.Sem Idealize.ShloMosaic.ValueIdx Idealize.ShloMosaic.Pipeline
open Cert.KernelIdeal Cert.KernelIdeal.Gen Cert.RopeProj

namespace Cert.KernelIdeal.Region1

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the grid: the four row-blocked inputs move with the output block (batch b, row tile s,
    column block 0), the two weights stay at block (0, 0), and the output's block indices stay in their ranges. -/
theorem index_facts : ∀ t : Fin cfg1.N,
    (win1_0.index t (0 : Fin 3) = win1_6.index t (0 : Fin 3) ∧ win1_0.index t (1 : Fin 3) = win1_6.index t (1 : Fin 3) ∧ win1_0.index t (2 : Fin 3) = 0)
    ∧ (win1_1.index t (0 : Fin 3) = win1_6.index t (0 : Fin 3) ∧ win1_1.index t (1 : Fin 3) = win1_6.index t (1 : Fin 3) ∧ win1_1.index t (2 : Fin 3) = 0)
    ∧ (win1_2.index t (0 : Fin 3) = win1_6.index t (0 : Fin 3) ∧ win1_2.index t (1 : Fin 3) = win1_6.index t (1 : Fin 3) ∧ win1_2.index t (2 : Fin 3) = 0)
    ∧ (win1_3.index t (0 : Fin 3) = win1_6.index t (0 : Fin 3) ∧ win1_3.index t (1 : Fin 3) = win1_6.index t (1 : Fin 3) ∧ win1_3.index t (2 : Fin 3) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 3) ≤ 1 ∧ win1_6.index t (1 : Fin 3) ≤ 31 ∧ win1_6.index t (2 : Fin 3) = 0) :=
  (by decide +kernel : ∀ t : Fin grid1.N, _)

/-- Every (batch, row tile) is some grid point's output block. -/
theorem index_onto : ∀ (q0 : Fin 2) (q1 : Fin 32), ∃ t : Fin cfg1.N, win1_6.index t = ![q0.val, q1.val, 0] :=
  (by decide +kernel : ∀ (q0 : Fin 2) (q1 : Fin 32), ∃ t : Fin grid1.N, win1_6.index t = ![q0.val, q1.val, 0])

/-- One element of the stored block is the specification at the array index under it, once each loaded block's row is
    identified with the row (b, s) of its array and the two weight blocks with their arrays. -/
theorem out_at (QL : A3 2 4096 1536) (CKV : A3 2 4096 512) (KPE : A3 2 4096 64) (CS : A3 2 4096 128)
    (Wn : A2 1536 4096) (Wr : A2 1536 2048)
    (x0 : Vec Ideal S1x128x1536 .bf16) (x1 : Vec Ideal S1x128x512 .f32) (x2 : Vec Ideal S1x128x64 .f32)
    (x3 : Vec Ideal S1x128x128 .f32) (x4 : Vec Ideal S1536x4096 .bf16) (x5 : Vec Ideal S1536x2048 .bf16)
    (b : Fin 2) (s : Fin 4096) (y : S1x128x6720.Idx) (i : S2x4096x6720.Idx)
    (hi0 : (i 0).val = b.val) (hi1 : (i 1).val = s.val) (hi2 : (i 2).val = (y 2).val)
    (h0 : ∀ k : Fin 1536, x0 (ix3 ⟨0, Nat.one_pos⟩ ⟨(y 1).val, (y 1).isLt⟩ k) = QL (ix3 b s k))
    (h1 : ∀ e : Fin 512, x1 (ix3 ⟨0, Nat.one_pos⟩ ⟨(y 1).val, (y 1).isLt⟩ e) = CKV (ix3 b s e))
    (h2 : ∀ d : Fin 64, x2 (ix3 ⟨0, Nat.one_pos⟩ ⟨(y 1).val, (y 1).isLt⟩ d) = KPE (ix3 b s d))
    (h3 : ∀ d : Fin 128, x3 (ix3 ⟨0, Nat.one_pos⟩ ⟨(y 1).val, (y 1).isLt⟩ d) = CS (ix3 b s d))
    (h4 : ∀ (k : Fin 1536) (n : Fin 4096), x4 (ix2 k n) = Wn (ix2 k n))
    (h5 : ∀ (k : Fin 1536) (n : Fin 2048), x5 (ix2 k n) = Wr (ix2 k n)) :
    k1_pay1 (k1_pay3 x0 x4) (k1_pay7 x0 x5 x3) (k1_pay8 x3 x2) (k1_pay9 x1) y = stageOut QL CKV KPE CS Wn Wr i := by
  obtain ⟨y0, r, o, rfl⟩ : ∃ (y0 : Fin 1) (r : Fin 128) (o : Fin 6720), y = ix3 y0 r o := ⟨y 0, y 1, y 2, eq_ix3 y⟩
  obtain rfl : y0 = ⟨0, Nat.one_pos⟩ := Fin.ext (by have := y0.isLt; omega)
  obtain ⟨i0, i1, i2, rfl⟩ : ∃ (i0 : Fin 2) (i1 : Fin 4096) (i2 : Fin 6720), i = ix3 i0 i1 i2 := ⟨i 0, i 1, i 2, eq_ix3 i⟩
  obtain rfl : i0 = b := Fin.ext hi0
  obtain rfl : i1 = s := Fin.ext hi1
  obtain rfl : i2 = o := Fin.ext hi2
  rw [block_row]
  unfold stageOut
  simp only [h0, h1, h2, h3, h4, h5]

/-- WHAT POINT t WRITES BACK is block t of the specification's array of the arrays the region finds. -/
theorem flushed_eq (c : Dev nD) (t : Fin cfg1.N) :
    (dat1 (F := Ideal) V c).flushed 6 t = ((cfg1.win 6).blk t).view.read (Elt Ideal)
      (stageOut (V c main_v14_0) (V c main_v14_1) (V c main_v14_2) (V c main_v13) (V c main_v10) (V c main_v12)) := by
  show (cfg1.win 6).cut (grid1.coords t) ((dat1 (F := Ideal) V c).after 6 t) = _
  rw [after1_6]
  unfold out1_6
  rw [View.canon_unit_zero zeros3]
  simp only [View.ld_unit_zero (S := S1x128x1536) zeros3, View.ld_unit_zero (S := S1x128x512) zeros3,
    View.ld_unit_zero (S := S1x128x64) zeros3, View.ld_unit_zero (S := S1x128x128) zeros3,
    View.ld_unit_zero (S := S1536x4096) zeros2, View.ld_unit_zero (S := S1536x2048) zeros2]
  obtain ⟨⟨a0, a1, a2⟩, ⟨b0, b1, b2⟩, ⟨c0, c1, c2⟩, ⟨d0, d1, d2⟩, ⟨e0, e1⟩, ⟨f0, f1⟩, ⟨g0, g1, g2⟩⟩ := index_facts t
  funext y
  show k1_pay1 (k1_pay3 (iblk1 V c 0 t) (iblk1 V c 4 t)) (k1_pay7 (iblk1 V c 0 t) (iblk1 V c 5 t) (iblk1 V c 3 t))
      (k1_pay8 (iblk1 V c 3 t) (iblk1 V c 2 t)) (k1_pay9 (iblk1 V c 1 t)) y
    = stageOut (V c main_v14_0) (V c main_v14_1) (V c main_v14_2) (V c main_v13) (V c main_v10) (V c main_v12)
        (((cfg1.win 6).blk t).view.emb y)
  have hy1 : (y 1).val < 128 := (y 1).isLt
  have hy2 : (y 2).val < 6720 := (y 2).isLt
  refine out_at (V c main_v14_0) (V c main_v14_1) (V c main_v14_2) (V c main_v13) (V c main_v10) (V c main_v12)
    (iblk1 V c 0 t) (iblk1 V c 1 t) (iblk1 V c 2 t) (iblk1 V c 3 t) (iblk1 V c 4 t) (iblk1 V c 5 t)
    ⟨win1_6.index t (0 : Fin 3), by omega⟩ ⟨win1_6.index t (1 : Fin 3) * 128 + (y 1).val, by omega⟩ y
    (((cfg1.win 6).blk t).view.emb y) ?_ ?_ ?_ ?_ ?_ ?_ ?_ ?_ ?_
  · show win1_6.index t (0 : Fin 3) * 1 + 1 * (y 0).val = win1_6.index t (0 : Fin 3)
    have hy0 : (y 0).val < 1 := (y 0).isLt
    omega
  · show win1_6.index t (1 : Fin 3) * 128 + 1 * (y 1).val = win1_6.index t (1 : Fin 3) * 128 + (y 1).val
    omega
  · show win1_6.index t (2 : Fin 3) * 6720 + 1 * (y 2).val = (y 2).val
    omega
  · intro k
    show V c main_v14_0 (((cfg1.win 0).blk t).view.emb (ix3 ⟨0, Nat.one_pos⟩ ⟨(y 1).val, (y 1).isLt⟩ k)) = V c main_v14_0 _
    refine congrArg (V c main_v14_0) (funext fun a => Fin.ext ?_)
    match a with
    | ⟨0, _⟩ => show win1_0.index t (0 : Fin 3) * 1 + 1 * 0 = win1_6.index t (0 : Fin 3); omega
    | ⟨1, _⟩ => show win1_0.index t (1 : Fin 3) * 128 + 1 * (y 1).val = win1_6.index t (1 : Fin 3) * 128 + (y 1).val; omega
    | ⟨2, _⟩ => show win1_0.index t (2 : Fin 3) * 1536 + 1 * k.val = k.val; omega
  · intro k
    show V c main_v14_1 (((cfg1.win 1).blk t).view.emb (ix3 ⟨0, Nat.one_pos⟩ ⟨(y 1).val, (y 1).isLt⟩ k)) = V c main_v14_1 _
    refine congrArg (V c main_v14_1) (funext fun a => Fin.ext ?_)
    match a with
    | ⟨0, _⟩ => show win1_1.index t (0 : Fin 3) * 1 + 1 * 0 = win1_6.index t (0 : Fin 3); omega
    | ⟨1, _⟩ => show win1_1.index t (1 : Fin 3) * 128 + 1 * (y 1).val = win1_6.index t (1 : Fin 3) * 128 + (y 1).val; omega
    | ⟨2, _⟩ => show win1_1.index t (2 : Fin 3) * 512 + 1 * k.val = k.val; omega
  · intro k
    show V c main_v14_2 (((cfg1.win 2).blk t).view.emb (ix3 ⟨0, Nat.one_pos⟩ ⟨(y 1).val, (y 1).isLt⟩ k)) = V c main_v14_2 _
    refine congrArg (V c main_v14_2) (funext fun a => Fin.ext ?_)
    match a with
    | ⟨0, _⟩ => show win1_2.index t (0 : Fin 3) * 1 + 1 * 0 = win1_6.index t (0 : Fin 3); omega
    | ⟨1, _⟩ => show win1_2.index t (1 : Fin 3) * 128 + 1 * (y 1).val = win1_6.index t (1 : Fin 3) * 128 + (y 1).val; omega
    | ⟨2, _⟩ => show win1_2.index t (2 : Fin 3) * 64 + 1 * k.val = k.val; omega
  · intro k
    show V c main_v13 (((cfg1.win 3).blk t).view.emb (ix3 ⟨0, Nat.one_pos⟩ ⟨(y 1).val, (y 1).isLt⟩ k)) = V c main_v13 _
    refine congrArg (V c main_v13) (funext fun a => Fin.ext ?_)
    match a with
    | ⟨0, _⟩ => show win1_3.index t (0 : Fin 3) * 1 + 1 * 0 = win1_6.index t (0 : Fin 3); omega
    | ⟨1, _⟩ => show win1_3.index t (1 : Fin 3) * 128 + 1 * (y 1).val = win1_6.index t (1 : Fin 3) * 128 + (y 1).val; omega
    | ⟨2, _⟩ => show win1_3.index t (2 : Fin 3) * 128 + 1 * k.val = k.val; omega
  · intro k n
    show V c main_v10 (((cfg1.win 4).blk t).view.emb (ix2 k n)) = V c main_v10 _
    refine congrArg (V c main_v10) (funext fun a => Fin.ext ?_)
    match a with
    | ⟨0, _⟩ => show win1_4.index t (0 : Fin 2) * 1536 + 1 * k.val = k.val; omega
    | ⟨1, _⟩ => show win1_4.index t (1 : Fin 2) * 4096 + 1 * n.val = n.val; omega
  · intro k n
    show V c main_v12 (((cfg1.win 5).blk t).view.emb (ix2 k n)) = V c main_v12 _
    refine congrArg (V c main_v12) (funext fun a => Fin.ext ?_)
    match a with
    | ⟨0, _⟩ => show win1_5.index t (0 : Fin 2) * 1536 + 1 * k.val = k.val; omega
    | ⟨1, _⟩ => show win1_5.index t (1 : Fin 2) * 2048 + 1 * n.val = n.val; omega

/-- An index of the result array is in point t's block iff each coordinate is in the block's range on its axis. -/
theorem mem_blk (t : Fin cfg1.N) (i : S2x4096x6720.Idx) :
    i ∈ ((cfg1.win 6).blk t).view.set ↔ ∀ a : Fin 3, win1_6.index t a * S1x128x6720.size a ≤ (i a).val
      ∧ (i a).val < win1_6.index t a * S1x128x6720.size a + S1x128x6720.size a := by
  show i ∈ ((View.whole main_v15).slice (win1_6.rect t)).set ↔ _
  rw [View.set_slice_whole, Rect.mem_set_unit]
  exact Iff.rfl

/-- Every index (b, s, o) of the result array lies in the block of the point with batch b and row tile s / 128. -/
theorem cover (i : S2x4096x6720.Idx) :
    ∃ t : Fin cfg1.N, (cfg1.win 6).flush t = true ∧ i ∈ ((cfg1.win 6).blk t).view.set := by
  have hi0 : (i 0).val < 2 := (i 0).isLt
  have hi1 : (i 1).val < 4096 := (i 1).isLt
  have hi2 : (i 2).val < 6720 := (i 2).isLt
  obtain ⟨t, ht⟩ := index_onto ⟨(i 0).val, hi0⟩ ⟨(i 1).val / 128, by omega⟩
  have q0 : win1_6.index t (0 : Fin 3) = (i 0).val := congrFun ht 0
  have q1 : win1_6.index t (1 : Fin 3) = (i 1).val / 128 := congrFun ht 1
  have q2 : win1_6.index t (2 : Fin 3) = 0 := congrFun ht 2
  refine ⟨t, flush1_6 t, ?_⟩
  rw [mem_blk]
  intro a
  match a with
  | ⟨0, _⟩ => show win1_6.index t (0 : Fin 3) * 1 ≤ (i 0).val ∧ (i 0).val < win1_6.index t (0 : Fin 3) * 1 + 1; omega
  | ⟨1, _⟩ => show win1_6.index t (1 : Fin 3) * 128 ≤ (i 1).val ∧ (i 1).val < win1_6.index t (1 : Fin 3) * 128 + 128; omega
  | ⟨2, _⟩ => show win1_6.index t (2 : Fin 3) * 6720 ≤ (i 2).val ∧ (i 2).val < win1_6.index t (2 : Fin 3) * 6720 + 6720; omega

/-- THE RESULT ARRAY after the region: the specification's second stage of the six arrays the region finds. -/
theorem region1_out (c : Dev nD) :
    (dat1 (F := Ideal) V c).arrAt 6 cfg1.N
      = stageOut (V c main_v14_0) (V c main_v14_1) (V c main_v14_2) (V c main_v13) (V c main_v10) (V c main_v12) :=
  (dat1 (F := Ideal) V c).arrAt_eq_of_cover 6 _ (fun t _ => flushed_eq V c t) cover

end Cert.KernelIdeal.Region1
end
-- ==== Proof.KernelValue.lean ====
/-
  The idealized kernel program's result is the whole map of the six arguments.

  The result buffer is the second region's output array. The second region computes `stageOut` of what it finds in its six
  input arrays: three of them are the first region's output arrays — the low-rank query and the two parts of the key/value
  projection, `stageQ`, `stageC`, `stageK` of x and the transposed weights —, the other three the host laid out before the
  first region and the first region leaves alone: cos and sin side by side, and the two head-contiguous halves of Wqb,
  transposed. Identifying each laid-out operand's entries with the argument's (transposes, row-major head arithmetic, the two
  halves of the packed cos/sin) turns the two stages' composition into the whole map `G`.
-/
import proofs.«101971_j72584947302731_2_alg».proof.Proof.KernelRun
import proofs.«101971_j72584947302731_2_alg».proof.Proof.HostReads
import proofs.«101971_j72584947302731_2_alg».proof.Proof.Spec
import proofs.«101971_j72584947302731_2_alg».proof.Proof.Region0
import proofs.«101971_j72584947302731_2_alg».proof.Proof.Region1

noncomputable section

namespace Cert.KernelIdeal.KernelValue

open Idealize.ShloMosaic Idealize.ShloMosaic.TcCoe Idealize.SL.Sem Idealize.ShloMosaic.ValueIdx
open Cert.KernelIdeal Cert.KernelIdeal.Gen Cert.KernelIdeal.HostReads Cert.RopeProj

variable (m : (ℓ : Loc nD τ sig) → Buf (Elt Ideal) ℓ) (ρ : Dev nD → PrngReg)

/-- The result buffer after the run holds the whole map of the arguments' launch contents. -/
theorem result_eq (c : Dev nD) :
    W3 (F := Ideal) m ρ c (Proc.devRef .tc main_v15)
      = G (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  -- the result buffer is the second region's output array
  have h1 : W3 (F := Ideal) m ρ c (Proc.devRef .tc main_v15) = (dat1 (F := Ideal) (V2 m ρ) c).arrAt 6 cfg1.N := W3_arr m ρ c 6
  rw [h1, Region1.region1_out (V2 m ρ) c]
  -- its inputs: the first region's three output arrays, and three operands the first region leaves alone
  have e0 : V2 (F := Ideal) m ρ c main_v14_0 = stageQ (V1 m ρ c main_arg0) (V1 m ρ c main_v6) :=
    (W2_arr m ρ c 3).trans (Region0.region0_q (V1 m ρ) c)
  have e1 : V2 (F := Ideal) m ρ c main_v14_1 = stageC (V1 m ρ c main_arg0) (V1 m ρ c main_v8) :=
    (W2_arr m ρ c 4).trans (Region0.region0_ckv (V1 m ρ) c)
  have e2 : V2 (F := Ideal) m ρ c main_v14_2 = stageK (V1 m ρ c main_arg0) (V1 m ρ c main_v8) :=
    (W2_arr m ρ c 5).trans (Region0.region0_kpe (V1 m ρ) c)
  have e13 : V2 (F := Ideal) m ρ c main_v13 = V1 m ρ c main_v13 := W2_of_ne m ρ c main_v13 (by decide)
  have e10 : V2 (F := Ideal) m ρ c main_v10 = V1 m ρ c main_v10 := W2_of_ne m ρ c main_v10 (by decide)
  have e12 : V2 (F := Ideal) m ρ c main_v12 = V1 m ρ c main_v12 := W2_of_ne m ρ c main_v12 (by decide)
  rw [e0, e1, e2, e13, e10, e12, V1_arg0, V1_v6, V1_v8, V1_v10, V1_v12, V1_v13]
  exact stageOut_stage_eq_G _ _ _ _ _ _ _ _ _ _ _ (wqat_apply _) (wkvat_apply _) (wn_apply _) (wr_apply _)
    (cs_apply_cos _ _) (cs_apply_sin _ _)

end Cert.KernelIdeal.KernelValue

end
-- ==== Proof.RefRun.lean ====
/-
  The reference program's run, by hand: every weakly fair execution of its @main (31 host operations in a line) terminates,
  and the result buffer ends holding the LAST STAGE of the program's operations applied to the arguments' launch contents,
  the arguments unchanged.

  What a buffer holds after a line of operations is a fold of the operations' results over the launch contents. Read whole, the
  fold at the result buffer repeats each shared intermediate once per use; it is read here in four stretches instead. After each
  stretch the few buffers that later operations still read are identified with their stage (a function of the arguments
  alone), and the stretch's fold is then forgotten: the next stretch starts from contents known only at those buffers.
-/
import proofs.«101971_j72584947302731_2_alg».proof.Proof.RefOps
import proofs.«101971_j72584947302731_2_alg».proof.Proof.RefStages

noncomputable section

namespace Cert.ReferenceIdeal.RunHand

open Cert.ReferenceIdeal Cert.ReferenceIdeal.Gen Idealize.ShloMosaic Idealize.ShloMosaic.TcCoe Idealize.SL.Sem Idealize.ShloMosaic.StableHlo
open Cert.ReferenceIdeal.Ops Cert.ReferenceIdeal.Stages

variable {F : FTy → Type} [FloatOps F]

/-- The fold over a line cut in two is the second part's fold over the first part's. -/
theorem after_append : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_append l₁ l₂]

/-- The first stretch: the two-stage query, its head view and the two parts of each head; the key/value projection and its two parts. -/
abbrev opsA : List (HloOp τ sig (Elt F)) :=
  [ binary main_arg0 main_arg3 main_v0 ((fun l r => Host.dotGeneral dot_S2x4096x4096_S1536x4096_S2x4096x1536_2_1_01_0_n_n none l r) : (⟨S2x4096x4096, .f32⟩ : BufTy).Contents (Elt F) → (⟨S1536x4096, .f32⟩ : BufTy).Contents (Elt F) → (⟨S2x4096x1536, .f32⟩ : BufTy).Contents (Elt F)),
    binary main_v0 main_arg4 main_v1 ((fun l r => Host.dotGeneral dot_S2x4096x1536_S6144x1536_S2x4096x6144_2_1_01_0_n_n none l r) : (⟨S2x4096x1536, .f32⟩ : BufTy).Contents (Elt F) → (⟨S6144x1536, .f32⟩ : BufTy).Contents (Elt F) → (⟨S2x4096x6144, .f32⟩ : BufTy).Contents (Elt F)),
    reshape main_v1 main_v2 rfl shapeCasts_S2x4096x6144_S2x4096x32x192,
    unary main_v2 main_v3 ((extractStridedSlice S2x4096x32x128 ![0, 0, 0, 0] · slices_S2x4096x32x192_S2x4096x32x128_0_0_0_0) : (⟨S2x4096x32x192, .f32⟩ : BufTy).Contents (Elt F) → (⟨S2x4096x32x128, .f32⟩ : BufTy).Contents (Elt F)),
    unary main_v2 main_v4 ((extractStridedSlice S2x4096x32x64 ![0, 0, 0, 128] · slices_S2x4096x32x192_S2x4096x32x64_0_0_0_128) : (⟨S2x4096x32x192, .f32⟩ : BufTy).Contents (Elt F) → (⟨S2x4096x32x64, .f32⟩ : BufTy).Contents (Elt F)),
    binary main_arg0 main_arg5 main_v5 ((fun l r => Host.dotGeneral dot_S2x4096x4096_S576x4096_S2x4096x576_2_1_01_0_n_n none l r) : (⟨S2x4096x4096, .f32⟩ : BufTy).Contents (Elt F) → (⟨S576x4096, .f32⟩ : BufTy).Contents (Elt F) → (⟨S2x4096x576, .f32⟩ : BufTy).Contents (Elt F)),
    unary main_v5 main_v6 ((extractStridedSlice S2x4096x512 ![0, 0, 0] · slices_S2x4096x576_S2x4096x512_0_0_0) : (⟨S2x4096x576, .f32⟩ : BufTy).Contents (Elt F) → (⟨S2x4096x512, .f32⟩ : BufTy).Contents (Elt F)),
    unary main_v5 main_v7 ((extractStridedSlice S2x4096x64 ![0, 0, 512] · slices_S2x4096x576_S2x4096x64_0_0_512) : (⟨S2x4096x576, .f32⟩ : BufTy).Contents (Elt F) → (⟨S2x4096x64, .f32⟩ : BufTy).Contents (Elt F)) ]
/-- The second: the key's rotary part as a row of one head, cos and sin broadcast over the heads, the query's rotary part times cos, its upper half negated, its lower half. -/
abbrev opsB : List (HloOp τ sig (Elt F)) :=
  [ reshape main_v7 main_v8 rfl shapeCasts_S2x4096x64_S2x4096x1x64,
    unary main_arg1 main_v9 (broadcastInDim S2x4096x1x64 ![0, 1, 3] bcast_S2x4096x64_S2x4096x1x64_0_1_3 : (⟨S2x4096x64, .f32⟩ : BufTy).Contents (Elt F) → (⟨S2x4096x1x64, .f32⟩ : BufTy).Contents (Elt F)),
    unary main_arg2 main_v10 (broadcastInDim S2x4096x1x64 ![0, 1, 3] bcast_S2x4096x64_S2x4096x1x64_0_1_3 : (⟨S2x4096x64, .f32⟩ : BufTy).Contents (Elt F) → (⟨S2x4096x1x64, .f32⟩ : BufTy).Contents (Elt F)),
    unary main_v9 main_v11 (broadcastInDim S2x4096x32x64 ![0, 1, 2, 3] bcast_S2x4096x1x64_S2x4096x32x64_0_1_2_3 : (⟨S2x4096x1x64, .f32⟩ : BufTy).Contents (Elt F) → (⟨S2x4096x32x64, .f32⟩ : BufTy).Contents (Elt F)),
    binary main_v4 main_v11 main_v12 (mulf : (⟨S2x4096x32x64, .f32⟩ : BufTy).Contents (Elt F) → (⟨S2x4096x32x64, .f32⟩ : BufTy).Contents (Elt F) → (⟨S2x4096x32x64, .f32⟩ : BufTy).Contents (Elt F)),
    unary main_v4 main_v13 ((extractStridedSlice S2x4096x32x32 ![0, 0, 0, 32] · slices_S2x4096x32x64_S2x4096x32x32_0_0_0_32) : (⟨S2x4096x32x64, .f32⟩ : BufTy).Contents (Elt F) → (⟨S2x4096x32x32, .f32⟩ : BufTy).Contents (Elt F)),
    unary main_v13 main_v14 (Host.negf : (⟨S2x4096x32x32, .f32⟩ : BufTy).Contents (Elt F) → (⟨S2x4096x32x32, .f32⟩ : BufTy).Contents (Elt F)),
    unary main_v4 main_v15 ((extractStridedSlice S2x4096x32x32 ![0, 0, 0, 0] · slices_S2x4096x32x64_S2x4096x32x32_0_0_0_0) : (⟨S2x4096x32x64, .f32⟩ : BufTy).Contents (Elt F) → (⟨S2x4096x32x32, .f32⟩ : BufTy).Contents (Elt F)) ]
/-- The third: the query's half-rotation times sin, the rotated query; the key times cos and the two halves of its half-rotation. -/
abbrev opsC : List (HloOp τ sig (Elt F)) :=
  [ binary main_v14 main_v15 main_v16 ((fun a b => concatenate S2x4096x32x64 3 [⟨S2x4096x32x32, a⟩, ⟨S2x4096x32x32, b⟩] concatenates_S2x4096x32x32_S2x4096x32x32_S2x4096x32x64_d3) : (⟨S2x4096x32x32, .f32⟩ : BufTy).Contents (Elt F) → (⟨S2x4096x32x32, .f32⟩ : BufTy).Contents (Elt F) → (⟨S2x4096x32x64, .f32⟩ : BufTy).Contents (Elt F)),
    unary main_v10 main_v17 (broadcastInDim S2x4096x32x64 ![0, 1, 2, 3] bcast_S2x4096x1x64_S2x4096x32x64_0_1_2_3 : (⟨S2x4096x1x64, .f32⟩ : BufTy).Contents (Elt F) → (⟨S2x4096x32x64, .f32⟩ : BufTy).Contents (Elt F)),
    binary main_v16 main_v17 main_v18 (mulf : (⟨S2x4096x32x64, .f32⟩ : BufTy).Contents (Elt F) → (⟨S2x4096x32x64, .f32⟩ : BufTy).Contents (Elt F) → (⟨S2x4096x32x64, .f32⟩ : BufTy).Contents (Elt F)),
    binary main_v12 main_v18 main_v19 (addf : (⟨S2x4096x32x64, .f32⟩ : BufTy).Contents (Elt F) → (⟨S2x4096x32x64, .f32⟩ : BufTy).Contents (Elt F) → (⟨S2x4096x32x64, .f32⟩ : BufTy).Contents (Elt F)),
    binary main_v8 main_v9 main_v20 (mulf : (⟨S2x4096x1x64, .f32⟩ : BufTy).Contents (Elt F) → (⟨S2x4096x1x64, .f32⟩ : BufTy).Contents (Elt F) → (⟨S2x4096x1x64, .f32⟩ : BufTy).Contents (Elt F)),
    unary main_v8 main_v21 ((extractStridedSlice S2x4096x1x32 ![0, 0, 0, 32] · slices_S2x4096x1x64_S2x4096x1x32_0_0_0_32) : (⟨S2x4096x1x64, .f32⟩ : BufTy).Contents (Elt F) → (⟨S2x4096x1x32, .f32⟩ : BufTy).Contents (Elt F)),
    unary main_v21 main_v22 (Host.negf : (⟨S2x4096x1x32, .f32⟩ : BufTy).Contents (Elt F) → (⟨S2x4096x1x32, .f32⟩ : BufTy).Contents (Elt F)),
    unary main_v8 main_v23 ((extractStridedSlice S2x4096x1x32 ![0, 0, 0, 0] · slices_S2x4096x1x64_S2x4096x1x32_0_0_0_0) : (⟨S2x4096x1x64, .f32⟩ : BufTy).Contents (Elt F) → (⟨S2x4096x1x32, .f32⟩ : BufTy).Contents (Elt F)) ]
/-- The fourth: the rotated key, each head's plain and rotated parts joined, the heads flattened. -/
abbrev opsD : List (HloOp τ sig (Elt F)) :=
  [ binary main_v22 main_v23 main_v24 ((fun a b => concatenate S2x4096x1x64 3 [⟨S2x4096x1x32, a⟩, ⟨S2x4096x1x32, b⟩] concatenates_S2x4096x1x32_S2x4096x1x32_S2x4096x1x64_d3) : (⟨S2x4096x1x32, .f32⟩ : BufTy).Contents (Elt F) → (⟨S2x4096x1x32, .f32⟩ : BufTy).Contents (Elt F) → (⟨S2x4096x1x64, .f32⟩ : BufTy).Contents (Elt F)),
    binary main_v24 main_v10 main_v25 (mulf : (⟨S2x4096x1x64, .f32⟩ : BufTy).Contents (Elt F) → (⟨S2x4096x1x64, .f32⟩ : BufTy).Contents (Elt F) → (⟨S2x4096x1x64, .f32⟩ : BufTy).Contents (Elt F)),
    binary main_v20 main_v25 main_v26 (addf : (⟨S2x4096x1x64, .f32⟩ : BufTy).Contents (Elt F) → (⟨S2x4096x1x64, .f32⟩ : BufTy).Contents (Elt F) → (⟨S2x4096x1x64, .f32⟩ : BufTy).Contents (Elt F)),
    binary main_v3 main_v19 main_v27 ((fun a b => concatenate S2x4096x32x192 3 [⟨S2x4096x32x128, a⟩, ⟨S2x4096x32x64, b⟩] concatenates_S2x4096x32x128_S2x4096x32x64_S2x4096x32x192_d3) : (⟨S2x4096x32x128, .f32⟩ : BufTy).Contents (Elt F) → (⟨S2x4096x32x64, .f32⟩ : BufTy).Contents (Elt F) → (⟨S2x4096x32x192, .f32⟩ : BufTy).Contents (Elt F)),
    reshape main_v27 main_v28 rfl shapeCasts_S2x4096x32x192_S2x4096x6144,
    reshape main_v26 main_v29 rfl shapeCasts_S2x4096x1x64_S2x4096x64 ]
/-- The three parts of the row joined. -/
abbrev opsE : List (HloOp τ sig (Elt F)) :=
  [ nary ![main_v28, main_v29, main_v6] main_v30 (fun u => concatenate S2x4096x6720 2 [⟨S2x4096x6144, u 0⟩, ⟨S2x4096x64, u 1⟩, ⟨S2x4096x512, u 2⟩] concatenates_S2x4096x6144_S2x4096x64_S2x4096x512_S2x4096x6720_d2) ]

theorem ops_split : (ops : List (HloOp τ sig (Elt F))) = opsA ++ (opsB ++ (opsC ++ (opsD ++ opsE))) := rfl

section Fold

variable (V : Valuation τ sig (Elt F))

/-- The fold of the whole line at the result buffer is the last stage of the arguments. -/
theorem after_ops_result :
    after ops V (Proc.devRef .tc main_v30) = val_main_v30 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split, after_append, after_append, after_append, after_append]
  -- the first stretch
  have A3 : after opsA V (Proc.devRef .tc main_v3) = val_main_v3 (F := F) (V (Proc.devRef .tc main_arg0)) (V (Proc.devRef .tc main_arg3)) (V (Proc.devRef .tc main_arg4)) := by
    after_results; rfl
  have A4 : after opsA V (Proc.devRef .tc main_v4) = val_main_v4 (F := F) (V (Proc.devRef .tc main_arg0)) (V (Proc.devRef .tc main_arg3)) (V (Proc.devRef .tc main_arg4)) := by
    after_results; rfl
  have A6 : after opsA V (Proc.devRef .tc main_v6) = val_main_v6 (F := F) (V (Proc.devRef .tc main_arg0)) (V (Proc.devRef .tc main_arg5)) := by
    after_results; rfl
  have A7 : after opsA V (Proc.devRef .tc main_v7) = val_main_v7 (F := F) (V (Proc.devRef .tc main_arg0)) (V (Proc.devRef .tc main_arg5)) := by
    after_results; rfl
  have Aa1 : after opsA V (Proc.devRef .tc main_arg1) = (V (Proc.devRef .tc main_arg1)) := by
    after_results
  have Aa2 : after opsA V (Proc.devRef .tc main_arg2) = (V (Proc.devRef .tc main_arg2)) := by
    after_results
  generalize after opsA V = W1 at A3 A4 A6 A7 Aa1 Aa2 ⊢
  -- the second stretch
  have B3 : after opsB W1 (Proc.devRef .tc main_v3) = val_main_v3 (F := F) (V (Proc.devRef .tc main_arg0)) (V (Proc.devRef .tc main_arg3)) (V (Proc.devRef .tc main_arg4)) := by
    after_results; exact A3
  have B6 : after opsB W1 (Proc.devRef .tc main_v6) = val_main_v6 (F := F) (V (Proc.devRef .tc main_arg0)) (V (Proc.devRef .tc main_arg5)) := by
    after_results; exact A6
  have B8 : after opsB W1 (Proc.devRef .tc main_v8) = val_main_v8 (F := F) (V (Proc.devRef .tc main_arg0)) (V (Proc.devRef .tc main_arg5)) := by
    after_results; rw [A7]; rfl
  have B9 : after opsB W1 (Proc.devRef .tc main_v9) = val_main_v9 (F := F) (V (Proc.devRef .tc main_arg1)) := by
    after_results; rw [Aa1]; rfl
  have B10 : after opsB W1 (Proc.devRef .tc main_v10) = val_main_v10 (F := F) (V (Proc.devRef .tc main_arg2)) := by
    after_results; rw [Aa2]; rfl
  have B12 : after opsB W1 (Proc.devRef .tc main_v12) = val_main_v12 (F := F) (V (Proc.devRef .tc main_arg0)) (V (Proc.devRef .tc main_arg1)) (V (Proc.devRef .tc main_arg3)) (V (Proc.devRef .tc main_arg4)) := by
    after_results; rw [A4, Aa1]; rfl
  have B14 : after opsB W1 (Proc.devRef .tc main_v14) = val_main_v14 (F := F) (V (Proc.devRef .tc main_arg0)) (V (Proc.devRef .tc main_arg3)) (V (Proc.devRef .tc main_arg4)) := by
    after_results; rw [A4]; rfl
  have B15 : after opsB W1 (Proc.devRef .tc main_v15) = val_main_v15 (F := F) (V (Proc.devRef .tc main_arg0)) (V (Proc.devRef .tc main_arg3)) (V (Proc.devRef .tc main_arg4)) := by
    after_results; rw [A4]; rfl
  generalize after opsB W1 = W2 at B3 B6 B8 B9 B10 B12 B14 B15 ⊢
  clear A3 A4 A6 A7 Aa1 Aa2 W1
  -- the third stretch
  have C3 : after opsC W2 (Proc.devRef .tc main_v3) = val_main_v3 (F := F) (V (Proc.devRef .tc main_arg0)) (V (Proc.devRef .tc main_arg3)) (V (Proc.devRef .tc main_arg4)) := by
    after_results; exact B3
  have C6 : after opsC W2 (Proc.devRef .tc main_v6) = val_main_v6 (F := F) (V (Proc.devRef .tc main_arg0)) (V (Proc.devRef .tc main_arg5)) := by
    after_results; exact B6
  have C10 : after opsC W2 (Proc.devRef .tc main_v10) = val_main_v10 (F := F) (V (Proc.devRef .tc main_arg2)) := by
    after_results; exact B10
  have C19 : after opsC W2 (Proc.devRef .tc main_v19) = val_main_v19 (F := F) (V (Proc.devRef .tc main_arg0)) (V (Proc.devRef .tc main_arg1)) (V (Proc.devRef .tc main_arg2)) (V (Proc.devRef .tc main_arg3)) (V (Proc.devRef .tc main_arg4)) := by
    after_results; rw [B12, B14, B15, B10]; rfl
  have C20 : after opsC W2 (Proc.devRef .tc main_v20) = val_main_v20 (F := F) (V (Proc.devRef .tc main_arg0)) (V (Proc.devRef .tc main_arg1)) (V (Proc.devRef .tc main_arg5)) := by
    after_results; rw [B8, B9]; rfl
  have C22 : after opsC W2 (Proc.devRef .tc main_v22) = val_main_v22 (F := F) (V (Proc.devRef .tc main_arg0)) (V (Proc.devRef .tc main_arg5)) := by
    after_results; rw [B8]; rfl
  have C23 : after opsC W2 (Proc.devRef .tc main_v23) = val_main_v23 (F := F) (V (Proc.devRef .tc main_arg0)) (V (Proc.devRef .tc main_arg5)) := by
    after_results; rw [B8]; rfl
  generalize after opsC W2 = W3 at C3 C6 C10 C19 C20 C22 C23 ⊢
  clear B3 B6 B8 B9 B10 B12 B14 B15 W2
  -- the fourth stretch
  have D6 : after opsD W3 (Proc.devRef .tc main_v6) = val_main_v6 (F := F) (V (Proc.devRef .tc main_arg0)) (V (Proc.devRef .tc main_arg5)) := by
    after_results; exact C6
  have D28 : after opsD W3 (Proc.devRef .tc main_v28) = val_main_v28 (F := F) (V (Proc.devRef .tc main_arg0)) (V (Proc.devRef .tc main_arg1)) (V (Proc.devRef .tc main_arg2)) (V (Proc.devRef .tc main_arg3)) (V (Proc.devRef .tc main_arg4)) := by
    after_results; rw [C3, C19]; rfl
  have D29 : after opsD W3 (Proc.devRef .tc main_v29) = val_main_v29 (F := F) (V (Proc.devRef .tc main_arg0)) (V (Proc.devRef .tc main_arg1)) (V (Proc.devRef .tc main_arg2)) (V (Proc.devRef .tc main_arg5)) := by
    after_results; rw [C20, C22, C23, C10]; rfl
  generalize after opsD W3 = W4 at D6 D28 D29 ⊢
  clear C3 C6 C10 C19 C20 C22 C23 W3
  -- the join: each of its three operands is read at its own buffer
  simp only [after_cons, after_nil]
  rw [nary_result]
  show concatenate S2x4096x6720 2 [⟨S2x4096x6144, W4 (Proc.devRef .tc main_v28)⟩, ⟨S2x4096x64, W4 (Proc.devRef .tc main_v29)⟩,
    ⟨S2x4096x512, W4 (Proc.devRef .tc main_v6)⟩] concatenates_S2x4096x6144_S2x4096x64_S2x4096x512_S2x4096x6720_d2 = _
  rw [D28, D29, D6]
  rfl

/-- An argument's buffer is written by no operation of the line. -/
theorem after_ops_arg0 : after ops V (Proc.devRef .tc main_arg0) = (V (Proc.devRef .tc main_arg0)) := by after_results_simp <;> rfl
theorem after_ops_arg1 : after ops V (Proc.devRef .tc main_arg1) = (V (Proc.devRef .tc main_arg1)) := by after_results_simp <;> rfl
theorem after_ops_arg2 : after ops V (Proc.devRef .tc main_arg2) = (V (Proc.devRef .tc main_arg2)) := by after_results_simp <;> rfl
theorem after_ops_arg3 : after ops V (Proc.devRef .tc main_arg3) = (V (Proc.devRef .tc main_arg3)) := by after_results_simp <;> rfl
theorem after_ops_arg4 : after ops V (Proc.devRef .tc main_arg4) = (V (Proc.devRef .tc main_arg4)) := by after_results_simp <;> rfl
theorem after_ops_arg5 : after ops V (Proc.devRef .tc main_arg5) = (V (Proc.devRef .tc main_arg5)) := by after_results_simp <;> rfl

end Fold

/-- On every device, for any float values, from any memory with zero counters: every weakly fair execution of @main terminates
    with the result at the last stage of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v30)
        = val_main_v30 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v30).trans (after_ops_result _),
      (h c main_arg0).trans (after_ops_arg0 _),
      (h c main_arg1).trans (after_ops_arg1 _),
      (h c main_arg2).trans (after_ops_arg2 _),
      (h c main_arg3).trans (after_ops_arg3 _),
      (h c main_arg4).trans (after_ops_arg4 _),
      (h c main_arg5).trans (after_ops_arg5 _)⟩)
    (run_seq scopedRefs_eq scopedSems_eq defs main (fun _ => ops) main_eq (fun _ => ops_sub) m ρ)

end Cert.ReferenceIdeal.RunHand

end
-- ==== Proof.RefIsG.lean ====
/-
  The reference program computes the specification, entry by entry.

  The reference is a line of 31 array operations. Read at an index, each is one of: a contraction (a finite sum of
  products over the contracted axis), a re-indexing (a slice, a reshape, a broadcast: the operand at a computed index),
  a pointwise product, sum or negation, or a concatenation (the piece the index's axis coordinate falls in).

  The lemmas below follow the data flow over literal coordinates (b, s, …):
    * the two contractions compose to the two-stage query  q = (x · Wqaᵀ) · Wqbᵀ, the third is  kv = x · Wkvaᵀ;
    * reshaping the 6144 query columns into 32 heads of 192 sends (hd, j) to column hd·192 + j, so a head's first 128
      coordinates are the plain query and its last 64 are the part to be rotated;
    * the concatenation (−f[32:], f[:32]) along the last axis is the half-rotation  rot f,  read by cases on d < 32,
      and  f·cos + rot(f)·sin  is the rotary embedding, for the query's heads and, with a unit head axis, for the key;
    * the result row is the concatenation of three pieces: the 32 head blocks (column o is head o / 192,
      coordinate o % 192), the 64 rotated key coordinates, and the first 512 columns of kv.
  All arithmetic on indices is linear arithmetic with division and remainder by literals.
-/
import proofs.«101971_j72584947302731_2_alg».proof.Proof.RefStages
import proofs.«101971_j72584947302731_2_alg».proof.Proof.Spec
noncomputable section
namespace Cert.ReferenceIdeal.RefIsG
open Idealize.ShloMosaic Idealize.ShloMosaic.TcCoe Idealize.SL.Sem Idealize.ShloMosaic.ValueIdx
open Cert.ReferenceIdeal Cert.ReferenceIdeal.Stages Cert.RopeProj

section Stages
variable (x0 : (⟨S2x4096x4096, .f32⟩ : BufTy).Contents (Elt Ideal)) (x1 x2 : (⟨S2x4096x64, .f32⟩ : BufTy).Contents (Elt Ideal))
  (x3 : (⟨S1536x4096, .f32⟩ : BufTy).Contents (Elt Ideal)) (x4 : (⟨S6144x1536, .f32⟩ : BufTy).Contents (Elt Ideal))
  (x5 : (⟨S576x4096, .f32⟩ : BufTy).Contents (Elt Ideal))

/-- The second projection at (b, s, o) is the two-stage query. -/
theorem q1 (b : Fin 2) (s : Fin 4096) (o : Fin 6144) :
    val_main_v1 (F := Ideal) x0 x3 x4 (ix3 b s o) = qup x0 x3 x4 b s o := by
  rw [val_main_v1_apply]
  unfold qup qlora
  refine Finset.sum_congr rfl fun r _ => ?_
  rw [val_main_v0_apply]
  have e1 : ridx_main_v1 (ix3 b s o) r = ix2 o r :=
    funext fun a => by match a with | ⟨0, _⟩ => rfl | ⟨1, _⟩ => rfl
  rw [e1]
  congr 1
  refine Finset.sum_congr rfl fun k _ => ?_
  have e2 : lidx_main_v0 (lidx_main_v1 (ix3 b s o) r) k = ix3 b s k :=
    funext fun a => by match a with | ⟨0, _⟩ => rfl | ⟨1, _⟩ => rfl | ⟨2, _⟩ => rfl
  have e3 : ridx_main_v0 (lidx_main_v1 (ix3 b s o) r) k = ix2 r k :=
    funext fun a => by match a with | ⟨0, _⟩ => rfl | ⟨1, _⟩ => rfl
  rw [e2, e3]

/-- The query split into heads: head hd, coordinate j is the flat coordinate hd·192 + j. -/
theorem q2 (b : Fin 2) (s : Fin 4096) (hd : Fin 32) (j : Fin 192) (o : Fin 6144) (ho : o.val = hd.val * 192 + j.val) :
    val_main_v2 (F := Ideal) x0 x3 x4 (ix4 b s hd j) = qup x0 x3 x4 b s o := by
  rw [val_main_v2_apply]
  have hb := b.isLt; have hs := s.isLt; have hh := hd.isLt; have hj := j.isLt
  have e : idx_main_v2 (ix4 b s hd j) = ix3 b s o :=
    funext fun a => Fin.ext (by
      match a with
      | ⟨0, _⟩ => show (((b.val * 4096 + s.val) * 32 + hd.val) * 192 + j.val) / 25165824 = b.val; omega
      | ⟨1, _⟩ => show (((b.val * 4096 + s.val) * 32 + hd.val) * 192 + j.val) / 6144 % 4096 = s.val; omega
      | ⟨2, _⟩ => show (((b.val * 4096 + s.val) * 32 + hd.val) * 192 + j.val) % 6144 = o.val; omega)
  rw [e, q1]

/-- The key/value projection at (b, s, o). -/
theorem kv (b : Fin 2) (s : Fin 4096) (o : Fin 576) :
    val_main_v5 (F := Ideal) x0 x5 (ix3 b s o) = kvp x0 x5 b s o := by
  rw [val_main_v5_apply]
  unfold kvp
  refine Finset.sum_congr rfl fun k _ => ?_
  have e2 : lidx_main_v5 (ix3 b s o) k = ix3 b s k :=
    funext fun a => by match a with | ⟨0, _⟩ => rfl | ⟨1, _⟩ => rfl | ⟨2, _⟩ => rfl
  have e3 : ridx_main_v5 (ix3 b s o) k = ix2 o k :=
    funext fun a => by match a with | ⟨0, _⟩ => rfl | ⟨1, _⟩ => rfl
  rw [e2, e3]

/-- The plain part of head hd: coordinate j < 128 is the flat coordinate hd·192 + j. -/
theorem q3 (b : Fin 2) (s : Fin 4096) (hd : Fin 32) (j : Fin 128) (o : Fin 6144) (ho : o.val = hd.val * 192 + j.val) :
    val_main_v3 (F := Ideal) x0 x3 x4 (ix4 b s hd j) = qup x0 x3 x4 b s o := by
  rw [val_main_v3_apply]
  have e : idx_main_v3 (ix4 b s hd j) = ix4 b s hd (⟨j.val, by omega⟩ : Fin 192) :=
    funext fun a => by match a with | ⟨0, _⟩ => rfl | ⟨1, _⟩ => rfl | ⟨2, _⟩ => rfl | ⟨3, _⟩ => rfl
  rw [e]
  exact q2 x0 x3 x4 b s hd _ o ho

/-- The part of head hd to be rotated: coordinate d < 64 is the flat coordinate hd·192 + 128 + d. -/
theorem q4 (b : Fin 2) (s : Fin 4096) (hd : Fin 32) (d : Fin 64) (o : Fin 6144) (ho : o.val = hd.val * 192 + 128 + d.val) :
    val_main_v4 (F := Ideal) x0 x3 x4 (ix4 b s hd d) = qup x0 x3 x4 b s o := by
  rw [val_main_v4_apply]
  have e : idx_main_v4 (ix4 b s hd d) = ix4 b s hd (⟨128 + d.val, by omega⟩ : Fin 192) :=
    funext fun a => by match a with | ⟨0, _⟩ => rfl | ⟨1, _⟩ => rfl | ⟨2, _⟩ => rfl | ⟨3, _⟩ => rfl
  rw [e]
  exact q2 x0 x3 x4 b s hd _ o (by show o.val = hd.val * 192 + (128 + d.val); omega)

/-- cos broadcast over the heads. -/
theorem c11 (b : Fin 2) (s : Fin 4096) (hd : Fin 32) (d : Fin 64) :
    val_main_v11 (F := Ideal) x1 (ix4 b s hd d) = x1 (ix3 b s d) := by
  rw [val_main_v11_apply, val_main_v9_apply]
  congr 1
  exact funext fun a => by match a with | ⟨0, _⟩ => rfl | ⟨1, _⟩ => rfl | ⟨2, _⟩ => rfl

/-- sin broadcast over the heads. -/
theorem c17 (b : Fin 2) (s : Fin 4096) (hd : Fin 32) (d : Fin 64) :
    val_main_v17 (F := Ideal) x2 (ix4 b s hd d) = x2 (ix3 b s d) := by
  rw [val_main_v17_apply, val_main_v10_apply]
  congr 1
  exact funext fun a => by match a with | ⟨0, _⟩ => rfl | ⟨1, _⟩ => rfl | ⟨2, _⟩ => rfl

/-- The half-rotated query of head hd: the negated upper half in front of the lower half. -/
theorem r16 (b : Fin 2) (s : Fin 4096) (hd : Fin 32) (d : Fin 64) :
    val_main_v16 (F := Ideal) x0 x3 x4 (ix4 b s hd d)
      = rot (fun d' : Fin 64 => qup x0 x3 x4 b s ⟨hd.val * 192 + 128 + d'.val, by omega⟩) d := by
  unfold rot
  by_cases h : d.val < 32
  · rw [dif_pos h]
    unfold val_main_v16
    rw [concatenate_pair_apply_left (t := S2x4096x32x64) (3 : Fin 4) (val_main_v14 (F := Ideal) x0 x3 x4)
      (val_main_v15 (F := Ideal) x0 x3 x4) _ (ix4 b s hd d) rfl (ix4 b s hd (⟨d.val, h⟩ : Fin 32))
      (fun a => match a with | ⟨0, _⟩ => rfl | ⟨1, _⟩ => rfl | ⟨2, _⟩ => rfl | ⟨3, _⟩ => rfl)]
    rw [val_main_v14_apply, val_main_v13_apply]
    have e : idx_main_v13 (ix4 b s hd (⟨d.val, h⟩ : Fin 32)) = ix4 b s hd (⟨32 + d.val, by omega⟩ : Fin 64) :=
      funext fun a => by match a with | ⟨0, _⟩ => rfl | ⟨1, _⟩ => rfl | ⟨2, _⟩ => rfl | ⟨3, _⟩ => rfl
    rw [e, q4 x0 x3 x4 b s hd _ ⟨hd.val * 192 + 128 + (32 + d.val), by omega⟩ rfl]
    rfl
  · rw [dif_neg h]
    unfold val_main_v16
    rw [concatenate_pair_apply_right (t := S2x4096x32x64) (3 : Fin 4) (val_main_v14 (F := Ideal) x0 x3 x4)
      (val_main_v15 (F := Ideal) x0 x3 x4) _ (ix4 b s hd d) rfl rfl (ix4 b s hd (⟨d.val - 32, by omega⟩ : Fin 32))
      (fun a => match a with
        | ⟨0, _⟩ => fun _ => rfl | ⟨1, _⟩ => fun _ => rfl | ⟨2, _⟩ => fun _ => rfl
        | ⟨3, _⟩ => fun hne => absurd rfl hne)
      (by show d.val - 32 + 32 = d.val; omega)]
    rw [val_main_v15_apply]
    have e : idx_main_v15 (ix4 b s hd (⟨d.val - 32, by omega⟩ : Fin 32)) = ix4 b s hd (⟨d.val - 32, by omega⟩ : Fin 64) :=
      funext fun a => by match a with | ⟨0, _⟩ => rfl | ⟨1, _⟩ => rfl | ⟨2, _⟩ => rfl | ⟨3, _⟩ => rfl
    rw [e, q4 x0 x3 x4 b s hd _ ⟨hd.val * 192 + 128 + (d.val - 32), by omega⟩ rfl]

/-- The rotated query of head hd is the rotary embedding of its 64 coordinates. -/
theorem qr (b : Fin 2) (s : Fin 4096) (hd : Fin 32) (d : Fin 64) :
    val_main_v19 (F := Ideal) x0 x1 x2 x3 x4 (ix4 b s hd d)
      = rope (fun d' : Fin 64 => qup x0 x3 x4 b s ⟨hd.val * 192 + 128 + d'.val, by omega⟩)
          (fun d' => x1 (ix3 b s d')) (fun d' => x2 (ix3 b s d')) d := by
  rw [val_main_v19_apply, val_main_v12_apply, val_main_v18_apply, c11, c17, r16,
    q4 x0 x3 x4 b s hd d ⟨hd.val * 192 + 128 + d.val, by omega⟩ rfl]
  rfl

/-- The key's rotary part, with its unit head axis: coordinate d is column 512 + d of the key/value projection. -/
theorem k8 (b : Fin 2) (s : Fin 4096) (d : Fin 64) (o : Fin 576) (ho : o.val = 512 + d.val) :
    val_main_v8 (F := Ideal) x0 x5 (ix4 b s (0 : Fin 1) d) = kvp x0 x5 b s o := by
  rw [val_main_v8_apply]
  have hb := b.isLt; have hs := s.isLt; have hd := d.isLt
  have e : idx_main_v8 (ix4 b s (0 : Fin 1) d) = ix3 b s d :=
    funext fun a => Fin.ext (by
      match a with
      | ⟨0, _⟩ => show (((b.val * 4096 + s.val) * 1 + 0) * 64 + d.val) / 262144 = b.val; omega
      | ⟨1, _⟩ => show (((b.val * 4096 + s.val) * 1 + 0) * 64 + d.val) / 64 % 4096 = s.val; omega
      | ⟨2, _⟩ => show (((b.val * 4096 + s.val) * 1 + 0) * 64 + d.val) % 64 = d.val; omega)
  rw [e, val_main_v7_apply]
  have e7 : idx_main_v7 (ix3 b s d) = ix3 b s o :=
    funext fun a => Fin.ext (by
      match a with
      | ⟨0, _⟩ => rfl
      | ⟨1, _⟩ => rfl
      | ⟨2, _⟩ => show 512 + d.val = o.val; omega)
  rw [e7, kv]

/-- cos with a unit head axis. -/
theorem c9 (b : Fin 2) (s : Fin 4096) (d : Fin 64) :
    val_main_v9 (F := Ideal) x1 (ix4 b s (0 : Fin 1) d) = x1 (ix3 b s d) := by
  rw [val_main_v9_apply]
  congr 1
  exact funext fun a => by match a with | ⟨0, _⟩ => rfl | ⟨1, _⟩ => rfl | ⟨2, _⟩ => rfl

/-- sin with a unit head axis. -/
theorem c10 (b : Fin 2) (s : Fin 4096) (d : Fin 64) :
    val_main_v10 (F := Ideal) x2 (ix4 b s (0 : Fin 1) d) = x2 (ix3 b s d) := by
  rw [val_main_v10_apply]
  congr 1
  exact funext fun a => by match a with | ⟨0, _⟩ => rfl | ⟨1, _⟩ => rfl | ⟨2, _⟩ => rfl

/-- The half-rotated key: the negated upper half in front of the lower half. -/
theorem r24 (b : Fin 2) (s : Fin 4096) (d : Fin 64) :
    val_main_v24 (F := Ideal) x0 x5 (ix4 b s (0 : Fin 1) d)
      = rot (fun d' : Fin 64 => kvp x0 x5 b s ⟨512 + d'.val, by omega⟩) d := by
  unfold rot
  by_cases h : d.val < 32
  · rw [dif_pos h]
    unfold val_main_v24
    rw [concatenate_pair_apply_left (t := S2x4096x1x64) (3 : Fin 4) (val_main_v22 (F := Ideal) x0 x5)
      (val_main_v23 (F := Ideal) x0 x5) _ (ix4 b s (0 : Fin 1) d) rfl (ix4 b s (0 : Fin 1) (⟨d.val, h⟩ : Fin 32))
      (fun a => match a with | ⟨0, _⟩ => rfl | ⟨1, _⟩ => rfl | ⟨2, _⟩ => rfl | ⟨3, _⟩ => rfl)]
    rw [val_main_v22_apply, val_main_v21_apply]
    have e : idx_main_v21 (ix4 b s (0 : Fin 1) (⟨d.val, h⟩ : Fin 32)) = ix4 b s (0 : Fin 1) (⟨32 + d.val, by omega⟩ : Fin 64) :=
      funext fun a => by match a with | ⟨0, _⟩ => rfl | ⟨1, _⟩ => rfl | ⟨2, _⟩ => rfl | ⟨3, _⟩ => rfl
    rw [e, k8 x0 x5 b s _ ⟨512 + (32 + d.val), by omega⟩ rfl]
    rfl
  · rw [dif_neg h]
    unfold val_main_v24
    rw [concatenate_pair_apply_right (t := S2x4096x1x64) (3 : Fin 4) (val_main_v22 (F := Ideal) x0 x5)
      (val_main_v23 (F := Ideal) x0 x5) _ (ix4 b s (0 : Fin 1) d) rfl rfl (ix4 b s (0 : Fin 1) (⟨d.val - 32, by omega⟩ : Fin 32))
      (fun a => match a with
        | ⟨0, _⟩ => fun _ => rfl | ⟨1, _⟩ => fun _ => rfl | ⟨2, _⟩ => fun _ => rfl
        | ⟨3, _⟩ => fun hne => absurd rfl hne)
      (by show d.val - 32 + 32 = d.val; omega)]
    rw [val_main_v23_apply]
    have e : idx_main_v23 (ix4 b s (0 : Fin 1) (⟨d.val - 32, by omega⟩ : Fin 32)) = ix4 b s (0 : Fin 1) (⟨d.val - 32, by omega⟩ : Fin 64) :=
      funext fun a => by match a with | ⟨0, _⟩ => rfl | ⟨1, _⟩ => rfl | ⟨2, _⟩ => rfl | ⟨3, _⟩ => rfl
    rw [e, k8 x0 x5 b s _ ⟨512 + (d.val - 32), by omega⟩ rfl]

/-- The rotated key is the rotary embedding of the last 64 columns of the key/value projection. -/
theorem kr (b : Fin 2) (s : Fin 4096) (d : Fin 64) :
    val_main_v26 (F := Ideal) x0 x1 x2 x5 (ix4 b s (0 : Fin 1) d)
      = rope (fun d' : Fin 64 => kvp x0 x5 b s ⟨512 + d'.val, by omega⟩)
          (fun d' => x1 (ix3 b s d')) (fun d' => x2 (ix3 b s d')) d := by
  rw [val_main_v26_apply, val_main_v20_apply, val_main_v25_apply, c9, c10, r24,
    k8 x0 x5 b s d ⟨512 + d.val, by omega⟩ rfl]
  rfl

section Pieces
variable {α : Type}

/-- The result row's first piece: a column below 6144 reads the per-head block. -/
theorem cat30_0 (y28 : S2x4096x6144.Idx → α) (y29 : S2x4096x64.Idx → α) (y6 : S2x4096x512.Idx → α)
    (h : Shape.Concatenates [S2x4096x6144, S2x4096x64, S2x4096x512] S2x4096x6720 2)
    (b : Fin 2) (s : Fin 4096) (o : Fin 6720) (h1 : o.val < 6144) :
    concatenate S2x4096x6720 2 [⟨S2x4096x6144, y28⟩, ⟨S2x4096x64, y29⟩, ⟨S2x4096x512, y6⟩] h (ix3 b s o)
      = y28 (ix3 b s (⟨o.val, h1⟩ : Fin 6144)) :=
  concatenate_apply_piece (t := S2x4096x6720) (2 : Fin 3) [⟨S2x4096x6144, y28⟩, ⟨S2x4096x64, y29⟩, ⟨S2x4096x512, y6⟩] h
    (ix3 b s o) 0 (by show 0 < 3; omega) S2x4096x6144 y28 rfl rfl 0 rfl (ix3 b s (⟨o.val, h1⟩ : Fin 6144))
    (fun a => match a with
      | ⟨0, _⟩ => fun _ => rfl | ⟨1, _⟩ => fun _ => rfl
      | ⟨2, _⟩ => fun hne => absurd rfl hne)
    (by show 0 + o.val = o.val; omega)

/-- The second piece: columns 6144 … 6207 read the rotated key. -/
theorem cat30_1 (y28 : S2x4096x6144.Idx → α) (y29 : S2x4096x64.Idx → α) (y6 : S2x4096x512.Idx → α)
    (h : Shape.Concatenates [S2x4096x6144, S2x4096x64, S2x4096x512] S2x4096x6720 2)
    (b : Fin 2) (s : Fin 4096) (o : Fin 6720) (h1 : 6144 ≤ o.val) (h3 : o.val < 6208) :
    concatenate S2x4096x6720 2 [⟨S2x4096x6144, y28⟩, ⟨S2x4096x64, y29⟩, ⟨S2x4096x512, y6⟩] h (ix3 b s o)
      = y29 (ix3 b s (⟨o.val - 6144, by omega⟩ : Fin 64)) :=
  concatenate_apply_piece (t := S2x4096x6720) (2 : Fin 3) [⟨S2x4096x6144, y28⟩, ⟨S2x4096x64, y29⟩, ⟨S2x4096x512, y6⟩] h
    (ix3 b s o) 1 (by show 1 < 3; omega) S2x4096x64 y29 rfl rfl 6144 rfl (ix3 b s (⟨o.val - 6144, by omega⟩ : Fin 64))
    (fun a => match a with
      | ⟨0, _⟩ => fun _ => rfl | ⟨1, _⟩ => fun _ => rfl
      | ⟨2, _⟩ => fun hne => absurd rfl hne)
    (by show 6144 + (o.val - 6144) = o.val; omega)

/-- The third piece: columns from 6208 on read the compressed key/value. -/
theorem cat30_2 (y28 : S2x4096x6144.Idx → α) (y29 : S2x4096x64.Idx → α) (y6 : S2x4096x512.Idx → α)
    (h : Shape.Concatenates [S2x4096x6144, S2x4096x64, S2x4096x512] S2x4096x6720 2)
    (b : Fin 2) (s : Fin 4096) (o : Fin 6720) (h3 : 6208 ≤ o.val) :
    concatenate S2x4096x6720 2 [⟨S2x4096x6144, y28⟩, ⟨S2x4096x64, y29⟩, ⟨S2x4096x512, y6⟩] h (ix3 b s o)
      = y6 (ix3 b s (⟨o.val - 6208, by omega⟩ : Fin 512)) :=
  concatenate_apply_piece (t := S2x4096x6720) (2 : Fin 3) [⟨S2x4096x6144, y28⟩, ⟨S2x4096x64, y29⟩, ⟨S2x4096x512, y6⟩] h
    (ix3 b s o) 2 (by show 2 < 3; omega) S2x4096x512 y6 rfl rfl 6208 rfl (ix3 b s (⟨o.val - 6208, by omega⟩ : Fin 512))
    (fun a => match a with
      | ⟨0, _⟩ => fun _ => rfl | ⟨1, _⟩ => fun _ => rfl
      | ⟨2, _⟩ => fun hne => absurd rfl hne)
    (by show 6208 + (o.val - 6208) = o.val; omega)

end Pieces

/-- One head's block of 192: the 128 plain query coordinates, then the 64 rotated ones. -/
theorem h27 (b : Fin 2) (s : Fin 4096) (hd : Fin 32) (j : Fin 192) :
    val_main_v27 (F := Ideal) x0 x1 x2 x3 x4 (ix4 b s hd j)
      = if h2 : j.val < 128 then qup x0 x3 x4 b s ⟨hd.val * 192 + j.val, by omega⟩
        else rope (fun d' : Fin 64 => qup x0 x3 x4 b s ⟨hd.val * 192 + 128 + d'.val, by omega⟩)
          (fun d' => x1 (ix3 b s d')) (fun d' => x2 (ix3 b s d')) ⟨j.val - 128, by omega⟩ := by
  by_cases h2 : j.val < 128
  · rw [dif_pos h2]
    unfold val_main_v27
    rw [concatenate_pair_apply_left (t := S2x4096x32x192) (3 : Fin 4) (val_main_v3 (F := Ideal) x0 x3 x4)
      (val_main_v19 (F := Ideal) x0 x1 x2 x3 x4) _ (ix4 b s hd j) rfl (ix4 b s hd (⟨j.val, h2⟩ : Fin 128))
      (fun a => match a with | ⟨0, _⟩ => rfl | ⟨1, _⟩ => rfl | ⟨2, _⟩ => rfl | ⟨3, _⟩ => rfl)]
    exact q3 x0 x3 x4 b s hd _ _ rfl
  · rw [dif_neg h2]
    unfold val_main_v27
    rw [concatenate_pair_apply_right (t := S2x4096x32x192) (3 : Fin 4) (val_main_v3 (F := Ideal) x0 x3 x4)
      (val_main_v19 (F := Ideal) x0 x1 x2 x3 x4) _ (ix4 b s hd j) rfl rfl (ix4 b s hd (⟨j.val - 128, by omega⟩ : Fin 64))
      (fun a => match a with
        | ⟨0, _⟩ => fun _ => rfl | ⟨1, _⟩ => fun _ => rfl | ⟨2, _⟩ => fun _ => rfl
        | ⟨3, _⟩ => fun hne => absurd rfl hne)
      (by show j.val - 128 + 128 = j.val; omega)]
    exact qr x0 x1 x2 x3 x4 b s hd _

/-- The heads' blocks laid side by side: column o is head o / 192, coordinate o % 192. -/
theorem h28 (b : Fin 2) (s : Fin 4096) (o : Fin 6144) :
    val_main_v28 (F := Ideal) x0 x1 x2 x3 x4 (ix3 b s o)
      = val_main_v27 (F := Ideal) x0 x1 x2 x3 x4 (ix4 b s (⟨o.val / 192, by omega⟩ : Fin 32) (⟨o.val % 192, by omega⟩ : Fin 192)) := by
  rw [val_main_v28_apply]
  have hb := b.isLt; have hs := s.isLt; have ho := o.isLt
  congr 1
  exact funext fun a => Fin.ext (by
    match a with
    | ⟨0, _⟩ => show ((b.val * 4096 + s.val) * 6144 + o.val) / 25165824 = b.val; omega
    | ⟨1, _⟩ => show ((b.val * 4096 + s.val) * 6144 + o.val) / 6144 % 4096 = s.val; omega
    | ⟨2, _⟩ => show ((b.val * 4096 + s.val) * 6144 + o.val) / 192 % 32 = o.val / 192; omega
    | ⟨3, _⟩ => show ((b.val * 4096 + s.val) * 6144 + o.val) % 192 = o.val % 192; omega)

/-- The rotated key with its unit head axis dropped. -/
theorem h29 (b : Fin 2) (s : Fin 4096) (d : Fin 64) :
    val_main_v29 (F := Ideal) x0 x1 x2 x5 (ix3 b s d)
      = rope (fun d' : Fin 64 => kvp x0 x5 b s ⟨512 + d'.val, by omega⟩)
          (fun d' => x1 (ix3 b s d')) (fun d' => x2 (ix3 b s d')) d := by
  rw [val_main_v29_apply]
  have hb := b.isLt; have hs := s.isLt; have hd := d.isLt
  have e : idx_main_v29 (ix3 b s d) = ix4 b s (0 : Fin 1) d :=
    funext fun a => Fin.ext (by
      match a with
      | ⟨0, _⟩ => show ((b.val * 4096 + s.val) * 64 + d.val) / 262144 = b.val; omega
      | ⟨1, _⟩ => show ((b.val * 4096 + s.val) * 64 + d.val) / 64 % 4096 = s.val; omega
      | ⟨2, _⟩ => rfl
      | ⟨3, _⟩ => show ((b.val * 4096 + s.val) * 64 + d.val) % 64 = d.val; omega)
  rw [e, kr]

/-- The compressed key/value: the first 512 columns of the key/value projection. -/
theorem h6 (b : Fin 2) (s : Fin 4096) (e : Fin 512) :
    val_main_v6 (F := Ideal) x0 x5 (ix3 b s e) = kvp x0 x5 b s ⟨e.val, by omega⟩ := by
  rw [val_main_v6_apply]
  have e6 : idx_main_v6 (ix3 b s e) = ix3 b s (⟨e.val, by omega⟩ : Fin 576) :=
    funext fun a => by match a with | ⟨0, _⟩ => rfl | ⟨1, _⟩ => rfl | ⟨2, _⟩ => rfl
  rw [e6, kv]

/-- The specification at literal coordinates. -/
theorem G_apply (b : Fin 2) (s : Fin 4096) (o : Fin 6720) :
    G x0 x1 x2 x3 x4 x5 (ix3 b s o)
      = row (fun hd j => qup x0 x3 x4 b s ⟨hd.val * 192 + j.val, by omega⟩)
          (fun hd d => qup x0 x3 x4 b s ⟨hd.val * 192 + 128 + d.val, by omega⟩)
          (fun d => kvp x0 x5 b s ⟨512 + d.val, by omega⟩)
          (fun e => kvp x0 x5 b s ⟨e.val, by omega⟩)
          (fun d => x1 (ix3 b s d)) (fun d => x2 (ix3 b s d)) o := rfl

end Stages

/-- The reference's result is the specification: entry by entry, by the piece of the row the column falls in. -/
theorem val_eq_G (x0 : (⟨S2x4096x4096, .f32⟩ : BufTy).Contents (Elt Ideal)) (x1 x2 : (⟨S2x4096x64, .f32⟩ : BufTy).Contents (Elt Ideal))
    (x3 : (⟨S1536x4096, .f32⟩ : BufTy).Contents (Elt Ideal)) (x4 : (⟨S6144x1536, .f32⟩ : BufTy).Contents (Elt Ideal))
    (x5 : (⟨S576x4096, .f32⟩ : BufTy).Contents (Elt Ideal)) :
    val_main_v30 (F := Ideal) x0 x1 x2 x3 x4 x5 = G x0 x1 x2 x3 x4 x5 := by
  funext i
  obtain ⟨b, s, o, rfl⟩ : ∃ (b : Fin 2) (s : Fin 4096) (o : Fin 6720), i = ix3 b s o := ⟨i 0, i 1, i 2, eq_ix3 i⟩
  rw [G_apply]
  unfold row
  unfold val_main_v30
  by_cases h1 : o.val < 6144
  · rw [dif_pos h1, cat30_0 _ _ _ _ b s o h1, h28, h27]
  · rw [dif_neg h1]
    by_cases h3 : o.val < 6208
    · rw [dif_pos h3, cat30_1 _ _ _ _ b s o (by omega) h3, h29]
    · rw [dif_neg h3, cat30_2 _ _ _ _ b s o (by omega), h6]

end Cert.ReferenceIdeal.RefIsG
end
-- ==== Proof.lean ====
/-
  The certificate of a two-stage projection with rotary embedding against its one-program reference.

  For x [2,4096,4096], cos and sin [2,4096,64] and the weights Wqa [1536,4096], Wqb [6144,1536], Wkva [576,4096], both programs
  produce the array [2,4096,6720] whose row (b, s) is, per head, 128 coordinates of the query q = (x · Wqaᵀ) · Wqbᵀ followed by
  the head's last 64 coordinates rotated by (cos, sin); then the last 64 coordinates of kv = x · Wkvaᵀ rotated the same way;
  then kv's first 512 coordinates. The kernel program computes it in two pipelined regions over row tiles (first x · Wqaᵀ and
  x · Wkvaᵀ against transposed weights, then the second projection against the two head-contiguous halves of Wqb, the
  rotations, and the row's assembly); the reference in one line of 31 whole-array operations. On the extended reals narrowing to
  bf16 is the identity, a matrix product into a zero accumulator is the plain sum of products, 0 − t is −t, and both sides
  are literally the same sums of the same products: the specification `Cert.RopeProj.G` (Proof/Spec.lean).

  The parts: Proof/KernelRun.lean (the kernel program's run, the result buffer named), Proof/Region0.lean and
  Proof/Region1.lean (what each region leaves in its output arrays, as whole-array functions of what it finds),
  Proof/HostReads.lean (the operands the host lays out, read at an index), Proof/KernelValue.lean (their composition is `G`);
  Proof/RefOps.lean, Proof/RefStages.lean, Proof/RefRun.lean (the reference's operations, its stages, its run) and
  Proof/RefIsG.lean (the reference's last stage is `G`). The three frames are the runs with the result dropped; the
  idealization rewrote nothing, so `preserves` is trivial.
-/
import proofs.«101971_j72584947302731_2_alg».proof.Defs
import proofs.«101971_j72584947302731_2_alg».proof.Proof.Gen.Kernel
import proofs.«101971_j72584947302731_2_alg».proof.Proof.Gen.Kernel.Skeleton
import proofs.«101971_j72584947302731_2_alg».proof.Proof.Gen.Kernel.Launch
import proofs.«101971_j72584947302731_2_alg».proof.Proof.Gen.Kernel.Points
import proofs.«101971_j72584947302731_2_alg».proof.Proof.Gen.Kernel.Frame
import proofs.«101971_j72584947302731_2_alg».proof.Proof.Gen.KernelIdeal
import proofs.«101971_j72584947302731_2_alg».proof.Proof.Gen.KernelIdeal.Skeleton
import proofs.«101971_j72584947302731_2_alg».proof.Proof.Gen.KernelIdeal.Launch
import proofs.«101971_j72584947302731_2_alg».proof.Proof.Gen.KernelIdeal.Points
import proofs.«101971_j72584947302731_2_alg».proof.Proof.Gen.KernelIdeal.Frame
import proofs.«101971_j72584947302731_2_alg».proof.Proof.Gen.ReferenceIdeal
import proofs.«101971_j72584947302731_2_alg».proof.Proof.Gen.Pre_finite_inputs
import proofs.«101971_j72584947302731_2_alg».proof.Proof.KernelRun
import proofs.«101971_j72584947302731_2_alg».proof.Proof.KernelValue
import proofs.«101971_j72584947302731_2_alg».proof.Proof.RefRun
import proofs.«101971_j72584947302731_2_alg».proof.Proof.RefIsG
import Idealize.ShloMosaic.Adequacy
import Idealize.ShloMosaic.Init

noncomputable section

namespace Cert.Proof

open Idealize.ShloMosaic Idealize.SL.Sem

/-- The word-level kernel program runs and leaves its arguments unchanged. -/
theorem frame_p : Cert.frame_Kernel (hKernel := Cert.Kernel.Gen.facts) (hPre_finite_inputs := Cert.Pre_finite_inputs.Gen.facts) :=
  fun m ρ _ => Cert.Kernel.Gen.frame m ρ

/-- So does its idealization. -/
theorem frame_pi : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RunHand.run (F := Ideal) m ρ)

/-- On the extended reals the kernel program and the reference, run from memories that agree on the six arguments, both end
    with the whole map `G` of the arguments in their result buffers: the kernel's two stages compose to it
    (`KernelValue.result_eq`), the reference's last stage is it (`RefIsG.val_eq_G`). No finiteness of the inputs is used:
    both sides are the same sums of the same products, and the only laws met are those of a commutative monoid. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.RopeProj.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KernelValue.result_eq m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.RunHand.run (F := Ideal) m' ρ')
    rw [Cert.ReferenceIdeal.RefIsG.val_eq_G, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_p, frame_pi, frame_ri, trivial, algebraic⟩

end Cert.Proof

end
